-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_arg13 : FVec F S2 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x2 .f32) (main_arg11 : FVec F S2 .f32) (main_arg12 : FVec F S2 .f32) (main_arg13 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg10
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg12 main_arg13 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x2 .f32) (main_arg11 : FVec F S2 .f32) (main_arg12 : FVec F S2 .f32) (main_arg13 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) (main_arg10 : FVec F S128x2 .f32) (main_arg11 : FVec F S2 .f32) (main_arg12 : FVec F S2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 84
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x2, .f32⟩
  | .hbm, ⟨11, _⟩ => ⟨S2, .f32⟩
  | .hbm, ⟨12, _⟩ => ⟨S2, .f32⟩
  | .hbm, ⟨13, _⟩ => ⟨S2, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S1x128, .f32⟩
  | .hbm, ⟨32, _⟩ => ⟨S1x128, .f32⟩
  | .hbm, ⟨33, _⟩ => ⟨S50000x128, .f32⟩
  | .hbm, ⟨34, _⟩ => ⟨S1x128, .f32⟩
  | .hbm, ⟨35, _⟩ => ⟨S1x128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S1x128, .f32⟩
  | .hbm, ⟨65, _⟩ => ⟨S1x2, .f32⟩
  | .hbm, ⟨66, _⟩ => ⟨S50000x2, .f32⟩
  | .hbm, ⟨67, _⟩ => ⟨S1x2, .f32⟩
  | .hbm, ⟨68, _⟩ => ⟨S1x2, .f32⟩
  | .hbm, ⟨69, _⟩ => ⟨S2, .f32⟩
  | .hbm, ⟨70, _⟩ => ⟨S2, .f32⟩
  | .hbm, ⟨71, _⟩ => ⟨S_, .f32⟩
  | .hbm, ⟨72, _⟩ => ⟨S2, .f32⟩
  | .hbm, ⟨73, _⟩ => ⟨S2, .f32⟩
  | .hbm, ⟨74, _⟩ => ⟨S_, .f32⟩
  | .hbm, ⟨75, _⟩ => ⟨S2, .f32⟩
  | .hbm, ⟨76, _⟩ => ⟨S2, .f32⟩
  | .hbm, ⟨77, _⟩ => ⟨S2, .f32⟩
  | .hbm, ⟨78, _⟩ => ⟨S2, .f32⟩
  | .hbm, ⟨79, _⟩ => ⟨S1x2, .f32⟩
  | .hbm, ⟨80, _⟩ => ⟨S1x2, .f32⟩
  | .hbm, ⟨81, _⟩ => ⟨S1x2, .f32⟩
  | .hbm, ⟨82, _⟩ => ⟨S1x2, .f32⟩
  | .hbm, ⟨83, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x2, .f32⟩
  | .local _ .vmem, ⟨27, _⟩ => ⟨S1x2, .f32⟩
  | .local _ .vmem, ⟨28, _⟩ => ⟨S2000x2, .f32⟩
  | .local _ .vmem, ⟨29, _⟩ => ⟨S2000x2, .f32⟩
  | .local _ .vmem, ⟨30, _⟩ => ⟨S1x2, .f32⟩
  | .local _ .vmem, ⟨31, _⟩ => ⟨S1x2, .f32⟩
  | .local _ .vmem, ⟨32, _⟩ => ⟨S2000x2, .f32⟩
  | .local _ .vmem, ⟨33, _⟩ => ⟨S2000x2, .f32⟩
  | .local _ .vmem, ⟨34, _⟩ => ⟨S1x2, .f32⟩
  | .local _ .vmem, ⟨35, _⟩ => ⟨S1x2, .f32⟩
  | .local _ .vmem, ⟨36, _⟩ => ⟨S1x2, .f32⟩
  | .local _ .vmem, ⟨37, _⟩ => ⟨S1x2, .f32⟩
  | .local _ .vmem, ⟨38, _⟩ => ⟨S2000x2, .f32⟩
  | .local _ .vmem, ⟨39, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev main_v42_2 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  shapeCasts_S2_S1x2 : S2.ShapeCasts S1x2
  inb_S1x2_S1x2_0_0 : ∀ a, (![0, 0] : Fin 2 → Nat) a + S1x2.size a ≤ S1x2.size a
  h_S1x2 : 0 < S1x2.numel
  inb_S128x2_S128x2_0_0 : ∀ a, (![0, 0] : Fin 2 → Nat) a + S128x2.size a ≤ S128x2.size a
  h_S128x2 : 0 < S128x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  reduces_S2000x2_S2 : S2000x2.Reduces [0] S2
  shapeCasts_S1x2_S2 : S1x2.ShapeCasts S2
  bcast_S_S2 : S_.BroadcastsInDim S2 (![] : Fin 0 → Fin S2.rank)
  shapeCasts_S2000x2_S2000x2 : S2000x2.ShapeCasts S2000x2
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x2.size a ≤ S50000x2.size a
  hwx2_6 : ∀ i : grid2.Coords, EltTy.bits .f32 = 32 ∨ (Rect.block (s := S50000x2) S2000x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2.size a ≤ S1x2.size a
  hwx2_8 : ∀ i : grid2.Coords, EltTy.bits .f32 = 32 ∨ (Rect.block (s := S1x2) S1x2.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S50000x2.size a
  hwx3_0 : ∀ i : grid3.Coords, EltTy.bits .f32 = 32 ∨ (Rect.block (s := S50000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x2.size a ≤ S50000x2.size a
  hwx3_5 : ∀ i : grid3.Coords, EltTy.bits .f32 = 32 ∨ (Rect.block (s := S50000x2) S2000x2.size (cc3_transform_5 i) (hinb3_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42_0) S2000x2.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42_1) S1x2.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v42_2) S1x2.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v42_0) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S2000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128x128, .f32⟩
  | 9 => ⟨S128, .f32⟩
  | 10 => ⟨S128x2, .f32⟩
  | 11 => ⟨S2, .f32⟩
  | 12 => ⟨S2, .f32⟩
  | 13 => ⟨S2, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S_, .f32⟩
  | 28 => ⟨S50000x128, .f32⟩
  | 29 => ⟨S1600000x1, .i32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x1600000, .i32⟩
  | 77 => ⟨S1600000, .i32⟩
  | 78 => ⟨S1x1600000, .i32⟩
  | 79 => ⟨S1600000, .i32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S50000x128, .f32⟩
  | 91 => ⟨S1600000x1, .i32⟩
  | 92 => ⟨S50000x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x2, .f32⟩
  | 102 => ⟨S1x2, .f32⟩
  | 103 => ⟨S50000x2, .f32⟩
  | 104 => ⟨S50000x2, .f32⟩
  | 105 => ⟨S_, .f32⟩
  | 106 => ⟨S50000x2, .f32⟩
  | 107 => ⟨S50000x2, .f32⟩
  | 108 => ⟨S_, .f32⟩
  | 109 => ⟨S2, .f32⟩
  | 110 => ⟨S_, .f32⟩
  | 111 => ⟨S2, .f32⟩
  | 112 => ⟨S2, .f32⟩
  | 113 => ⟨S1x2, .f32⟩
  | 114 => ⟨S50000x2, .f32⟩
  | 115 => ⟨S50000x2, .f32⟩
  | 116 => ⟨S50000x2, .f32⟩
  | 117 => ⟨S_, .f32⟩
  | 118 => ⟨S2, .f32⟩
  | 119 => ⟨S_, .f32⟩
  | 120 => ⟨S2, .f32⟩
  | 121 => ⟨S2, .f32⟩
  | 122 => ⟨S1x2, .f32⟩
  | 123 => ⟨S50000x2, .f32⟩
  | 124 => ⟨S50000x2, .f32⟩
  | 125 => ⟨S_, .f32⟩
  | 126 => ⟨S2, .f32⟩
  | 127 => ⟨S2, .f32⟩
  | _ => ⟨S50000x128, .f32⟩

abbrev hbmTy0_1 (i : Nat) : BufTy := match i % 128 with
  | 0 => ⟨S2, .f32⟩
  | 1 => ⟨S1x2, .f32⟩
  | 2 => ⟨S50000x2, .f32⟩
  | 3 => ⟨S50000x2, .f32⟩
  | 4 => ⟨S1x2, .f32⟩
  | 5 => ⟨S50000x2, .f32⟩
  | 6 => ⟨S50000x2, .f32⟩
  | 7 => ⟨S1x2, .f32⟩
  | 8 => ⟨S50000x2, .f32⟩
  | 9 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_6 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call3_cst : Ref sig .tc := ⟨.hbm, 105, rfl⟩
abbrev main_call3_v0 : Ref sig .tc := ⟨.hbm, 106, rfl⟩
abbrev main_v74 : Ref sig .tc := ⟨.hbm, 107, rfl⟩
abbrev main_cst_9 : Ref sig .tc := ⟨.hbm, 108, rfl⟩
abbrev main_v75 : Ref sig .tc := ⟨.hbm, 109, rfl⟩
abbrev main_cst_10 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_11 : Ref sig .tc := ⟨.hbm, 117, rfl⟩
abbrev main_v82 : Ref sig .tc := ⟨.hbm, 118, rfl⟩
abbrev main_cst_12 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_13 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  reducesTo_S50000x2_S2_d0 : S50000x2.ReducesTo [0] S2
  bcast_S_S2 : S_.BroadcastsInDim S2 (![] : Fin 0 → Fin S2.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KAgg.lean ====
/-
  The neighbour aggregation as the kernel's host code writes it: row 0 of the edge array gives each edge's source
  node (a negative index is moved up by the number of nodes, as jnp's indexing does), row 1 its destination; the
  source rows of the node matrix are gathered, one per edge, and added into the destination rows of a zero matrix.
-/
import proofs.«147710_j68719477376_1_alg».proof.Proof.Gen.KernelIdeal
import Idealize.ShloMosaic.PureOps.Ideal

noncomputable section

namespace Cert.KernelIdeal.KValue

open Cert.KernelIdeal Cert.KernelIdeal.Gen Idealize.ShloMosaic

/-- The edge array: two rows of 1600000 node indices. -/
abbrev EI : Type := (⟨S2x1600000, .i32⟩ : BufTy).Contents (Elt Ideal)

/-- A node-feature matrix: 50000 rows of 128 features. -/
abbrev NodeMat : Type := (⟨S50000x128, .f32⟩ : BufTy).Contents (Elt Ideal)

/-- Row `k` of the edge array as a vector of 1600000 indices. -/
def edgeRow0 (ei : EI) : (⟨S1600000, .i32⟩ : BufTy).Contents (Elt Ideal) :=
  shapeCast _ (extractStridedSlice S1x1600000 ![0, 0] ei slices_S2x1600000_S1x1600000_0_0) shapeCasts_S1x1600000_S1600000

def edgeRow1 (ei : EI) : (⟨S1600000, .i32⟩ : BufTy).Contents (Elt Ideal) :=
  shapeCast _ (extractStridedSlice S1x1600000 ![1, 0] ei slices_S2x1600000_S1x1600000_1_0) shapeCasts_S1x1600000_S1600000

/-- The source indices, negative ones moved up by 50000, as a column. -/
def srcCol (ei : EI) : (⟨S1600000x1, .i32⟩ : BufTy).Contents (Elt Ideal) :=
  broadcastInDim S1600000x1 ![0] bcast_S1600000_S1600000x1_0
    (select (cmpi .slt (edgeRow0 ei) (broadcastInDim S1600000 ![] bcast_S_S1600000 (constantI S_ 32 0#32)))
      (addi (edgeRow0 ei) (broadcastInDim S1600000 ![] bcast_S_S1600000 (constantI S_ 32 50000#32)))
      (edgeRow0 ei))

/-- The destination indices as a column. -/
def dstCol (ei : EI) : (⟨S1600000x1, .i32⟩ : BufTy).Contents (Elt Ideal) :=
  broadcastInDim S1600000x1 ![0] bcast_S1600000_S1600000x1_0 (edgeRow1 ei)

/-- The aggregation: gather the source rows, add them into the destination rows of the zero matrix. -/
def aggK (ei : EI) (X : NodeMat) : NodeMat :=
  Host.scatterAdd scatter_S50000x128_S1600000x1_S1600000x128_1_0_0_1
    (broadcastInDim S50000x128 ![] bcast_S_S50000x128 (constant (F := Ideal) S_ .f32 0x00000000#32))
    (dstCol ei)
    (Host.gather gather_S50000x128_S1600000x1_S1600000x128_1_0_n_n_0_1_1128 X (srcCol ei))

end Cert.KernelIdeal.KValue

end
-- ==== Proof.Spec.lean ====
/-
  The mathematics of the two programs, over abstract finite index types and the extended reals.

  One layer: rows `h r` of a node-feature matrix plus the aggregated neighbour rows `a r`, two dense maps each
  followed by `max · 0`, then a column-wise normalisation: subtract the column mean, multiply by
  `rsqrt (variance + ε)`, scale and shift.  The two programs differ in how the variance of a column is written:
  one takes the mean of the squares minus the square of the mean, the other the mean of the squared deviations.
  On columns of real numbers the two agree; at an infinite entry they need not, which is why every statement
  that joins them assumes the entries are real.
-/
import Mathlib
import Idealize.ShloMosaic.PureOps.Ideal

noncomputable section

namespace Cert.GinSpec

open Idealize.ShloMosaic

variable {ρ α β γ : Type} [Fintype ρ] [Fintype α] [Fintype β] [Fintype γ]

/-- Every entry of a matrix is a real number. -/
def Fin2 (c : ρ → β → EReal) : Prop := ∀ r j, ∃ v : ℝ, c r j = (v : EReal)

/-- Every entry of a vector is a real number. -/
def Fin1 (b : β → EReal) : Prop := ∀ j, ∃ v : ℝ, b j = (v : EReal)

/-- A dense map on rows followed by `max · 0`: entry (r, k) is `max (∑ l, x r l * w l k + b k) 0`. -/
def dense (x : ρ → α → EReal) (w : α → β → EReal) (b : β → EReal) : ρ → β → EReal :=
  fun r k => max ((∑ l, x r l * w l k) + b k) 0

/-- Two dense maps on the rows of `h + a`. -/
def mlp (h a : ρ → α → EReal) (w1 : α → β → EReal) (b1 : β → EReal) (w2 : β → γ → EReal) (b2 : γ → EReal) :
    ρ → γ → EReal :=
  dense (dense (fun r l => h r l + a r l) w1 b1) w2 b2

/-- The sum of a column. -/
def colSum (c : ρ → β → EReal) : β → EReal := fun j => ∑ r, c r j

/-- The sum of the squares of a column. -/
def colSumSq (c : ρ → β → EReal) : β → EReal := fun j => ∑ r, c r j * c r j

/-- The mean of a column: its sum divided by `n`. -/
def mean (n : EReal) (c : ρ → β → EReal) : β → EReal := fun j => Ideal.div (colSum c j) n

/-- The variance of a column as the mean of the squares minus the square of the mean. -/
def varK (n : EReal) (c : ρ → β → EReal) : β → EReal :=
  fun j => Ideal.div (colSumSq c j) n - mean n c j * mean n c j

/-- The variance of a column as the mean of the squared deviations from the mean. -/
def varR (n : EReal) (c : ρ → β → EReal) : β → EReal :=
  fun j => Ideal.div (∑ r, (c r j - mean n c j) * (c r j - mean n c j)) n

/-- Column-wise normalisation with a given mean and variance per column. -/
def norm (e : EReal) (c : ρ → β → EReal) (mu var g be : β → EReal) : ρ → β → EReal :=
  fun r j => (c r j - mu j) * Ideal.rsqrt (var j + e) * g j + be j

/-- Normalisation with the variance written as mean of squares minus squared mean. -/
def bnK (n e : EReal) (c : ρ → β → EReal) (g be : β → EReal) : ρ → β → EReal :=
  norm e c (mean n c) (varK n c) g be

/-- Normalisation with the variance written as mean of squared deviations. -/
def bnR (n e : EReal) (c : ρ → β → EReal) (g be : β → EReal) : ρ → β → EReal :=
  norm e c (mean n c) (varR n c) g be

/-- One layer with the first form of the variance; `agg` is the neighbour aggregation. -/
def layerK (n e : EReal) (agg : (ρ → α → EReal) → ρ → α → EReal) (x : ρ → α → EReal)
    (w1 : α → β → EReal) (b1 : β → EReal) (w2 : β → γ → EReal) (b2 : γ → EReal) (g be : γ → EReal) : ρ → γ → EReal :=
  bnK n e (mlp x (agg x) w1 b1 w2 b2) g be

/-- One layer with the second form of the variance. -/
def layerR (n e : EReal) (agg : (ρ → α → EReal) → ρ → α → EReal) (x : ρ → α → EReal)
    (w1 : α → β → EReal) (b1 : β → EReal) (w2 : β → γ → EReal) (b2 : γ → EReal) (g be : γ → EReal) : ρ → γ → EReal :=
  bnR n e (mlp x (agg x) w1 b1 w2 b2) g be

end Cert.GinSpec

end
-- ==== Proof.SpecAt.lean ====
/-
  The two programs' result as one function of the argument arrays, at the literal shapes: 50000 nodes, 128 features,
  a second layer with 2 output features.  Arrays are functions of a shape's index; the abstract mathematics works on
  functions of a row and a column, and `toFn` / `ofFn` pass between the two.
-/
import proofs.«147710_j68719477376_1_alg».proof.Proof.Spec
import Idealize.ShloMosaic.Lib.ValueIdx

noncomputable section

namespace Cert.GinSpec

open Idealize.ShloMosaic Idealize.ShloMosaic.ValueIdx

/-- A float matrix with `R` rows and `C` columns at the ideal values. -/
abbrev Mat (R C : Nat) : Type := (⟨2, ![R, C]⟩ : Shape).Idx → EReal

/-- A float vector with `C` entries at the ideal values. -/
abbrev Row (C : Nat) : Type := (⟨1, ![C]⟩ : Shape).Idx → EReal

/-- A matrix as a function of its row and its column. -/
def toFn {R C : Nat} (x : Mat R C) : Fin R → Fin C → EReal := fun r l => x (ix2 r l)

/-- A function of a row and a column as a matrix. -/
def ofFn {R C : Nat} (f : Fin R → Fin C → EReal) : Mat R C := fun i => f (i 0) (i 1)

/-- A vector as a function of its position. -/
def toFn1 {C : Nat} (b : Row C) : Fin C → EReal := fun k => b (ix1 k)

theorem toFn_ofFn {R C : Nat} (f : Fin R → Fin C → EReal) : toFn (ofFn f) = f := rfl

theorem ofFn_toFn {R C : Nat} (x : Mat R C) : ofFn (toFn x) = x := by
  funext i
  exact congrArg x (eq_ix2 i).symm

theorem ofFn_apply {R C : Nat} (f : Fin R → Fin C → EReal) (r : Fin R) (l : Fin C) : ofFn f (ix2 r l) = f r l := rfl

/-- The number of nodes as the programs write it: the float word of 50000. -/
def nWord : EReal := Ideal.ofBits .f32 0x47435000#32

/-- The ε both programs add to a variance: the float word nearest 1e-5. -/
def epsWord : EReal := Ideal.ofBits .f32 0x3727C5AC#32

/-- A neighbour aggregation on matrices as one on functions of a row and a column. -/
def aggFn (agg : Mat 50000 128 → Mat 50000 128) : (Fin 50000 → Fin 128 → EReal) → Fin 50000 → Fin 128 → EReal :=
  fun X => toFn (agg (ofFn X))

theorem aggFn_toFn (agg : Mat 50000 128 → Mat 50000 128) (x : Mat 50000 128) : aggFn agg (toFn x) = toFn (agg x) := by
  unfold aggFn; rw [ofFn_toFn]

/-- The two layers with the variance as mean of squares minus squared mean (the kernel's form). -/
def GK (agg : Mat 50000 128 → Mat 50000 128) (x : Mat 50000 128) (w11 : Mat 128 128) (b11 : Row 128) (w12 : Mat 128 128)
    (b12 g1 be1 : Row 128) (w21 : Mat 128 128) (b21 : Row 128) (w22 : Mat 128 2) (b22 g2 be2 : Row 2) : Mat 50000 2 :=
  ofFn (layerK nWord epsWord (aggFn agg)
    (layerK nWord epsWord (aggFn agg) (toFn x) (toFn w11) (toFn1 b11) (toFn w12) (toFn1 b12) (toFn1 g1) (toFn1 be1))
    (toFn w21) (toFn1 b21) (toFn w22) (toFn1 b22) (toFn1 g2) (toFn1 be2))

/-- The two layers with the variance as mean of squared deviations (the reference's form). -/
def GR (agg : Mat 50000 128 → Mat 50000 128) (x : Mat 50000 128) (w11 : Mat 128 128) (b11 : Row 128) (w12 : Mat 128 128)
    (b12 g1 be1 : Row 128) (w21 : Mat 128 128) (b21 : Row 128) (w22 : Mat 128 2) (b22 g2 be2 : Row 2) : Mat 50000 2 :=
  ofFn (layerR nWord epsWord (aggFn agg)
    (layerR nWord epsWord (aggFn agg) (toFn x) (toFn w11) (toFn1 b11) (toFn w12) (toFn1 b12) (toFn1 g1) (toFn1 be1))
    (toFn w21) (toFn1 b21) (toFn w22) (toFn1 b22) (toFn1 g2) (toFn1 be2))

end Cert.GinSpec

end
-- ==== Proof.KHostMath.lean ====
/-
  The arithmetic of the kernel's host code between its regions, read at an index: a vector laid out as a one-row
  matrix; a row of column sums divided by the number of nodes (the column means); and the row of column
  variances, mean of squares minus squared mean.  Each is the composition of layout changes and entrywise
  operations the host code performs, and each reads, at column k, as the corresponding scalar formula.
-/
import proofs.«147710_j68719477376_1_alg».proof.Proof.Gen.KernelIdeal
import proofs.«147710_j68719477376_1_alg».proof.Proof.SpecAt
import Idealize.ShloMosaic.PureOps.Ideal
import Idealize.ShloMosaic.Lib.ValueIdx
import Idealize.ShloMosaic.Lib.ValueLayout
import Idealize.ShloMosaic.Lib.IdealHost
import Idealize.ShloMosaic.Lib.Pipeline.Value

noncomputable section

namespace Cert.KernelIdeal.KValue

open Cert.KernelIdeal Cert.KernelIdeal.Gen Idealize.ShloMosaic Idealize.ShloMosaic.ValueIdx Cert.GinSpec

/-! ### Width 128 -/

/-- A vector of 128 entries as a one-row matrix. -/
def rowOf128 (b : FVec Ideal S128 .f32) : FVec Ideal S1x128 .f32 := shapeCast _ b shapeCasts_S128_S1x128

theorem rowOf128_apply (b : FVec Ideal S128 .f32) (k : Fin 128) : rowOf128 b (ix2 0 k) = b (ix1 k) :=
  shapeCast_a_1a_apply b shapeCasts_S128_S1x128 0 k

/-- A one-row matrix of column sums, divided entry by entry by the number of nodes, as a vector. -/
def mean128 (S : FVec Ideal S1x128 .f32) : FVec Ideal S128 .f32 :=
  Host.divf (shapeCast _ S shapeCasts_S1x128_S128)
    (broadcastInDim S128 ![] bcast_S_S128 (constant (F := Ideal) S_ .f32 0x47435000#32))

theorem mean128_apply (S : FVec Ideal S1x128 .f32) (k : Fin 128) :
    mean128 S (ix1 k) = Ideal.div (S (ix2 0 k)) nWord := by
  unfold mean128 nWord
  rw [hostDivf_apply, shapeCast_1a_a_apply, broadcastInDim_scalar_apply, constant_apply]

/-- The column means as a one-row matrix. -/
def meanRow128 (S : FVec Ideal S1x128 .f32) : FVec Ideal S1x128 .f32 :=
  shapeCast _ (Host.divf (shapeCast _ S shapeCasts_S1x128_S128)
    (broadcastInDim S128 ![] bcast_S_S128 (constant (F := Ideal) S_ .f32 0x47435000#32))) shapeCasts_S128_S1x128

theorem meanRow128_eq (S : FVec Ideal S1x128 .f32) : meanRow128 S = shapeCast _ (mean128 S) shapeCasts_S128_S1x128 := rfl

theorem meanRow128_apply (S : FVec Ideal S1x128 .f32) (k : Fin 128) :
    meanRow128 S (ix2 0 k) = Ideal.div (S (ix2 0 k)) nWord := by
  rw [meanRow128_eq, shapeCast_a_1a_apply, mean128_apply]

/-- The column variances, mean of squares minus squared mean, as a one-row matrix. -/
def varRow128 (S Q : FVec Ideal S1x128 .f32) : FVec Ideal S1x128 .f32 :=
  shapeCast _ (subf (Host.divf (shapeCast _ Q shapeCasts_S1x128_S128)
      (broadcastInDim S128 ![] bcast_S_S128 (constant (F := Ideal) S_ .f32 0x47435000#32)))
    (mulf (mean128 S) (mean128 S))) shapeCasts_S128_S1x128

theorem varRow128_eq (S Q : FVec Ideal S1x128 .f32) :
    varRow128 S Q = shapeCast _ (subf (mean128 Q) (mulf (mean128 S) (mean128 S))) shapeCasts_S128_S1x128 := rfl

theorem varRow128_apply (S Q : FVec Ideal S1x128 .f32) (k : Fin 128) :
    varRow128 S Q (ix2 0 k)
      = Ideal.div (Q (ix2 0 k)) nWord - Ideal.div (S (ix2 0 k)) nWord * Ideal.div (S (ix2 0 k)) nWord := by
  rw [varRow128_eq, shapeCast_a_1a_apply, subf_apply, mulf_apply, mean128_apply, mean128_apply]

/-- On the row of column sums of a matrix, the mean row is the column means. -/
theorem meanRow128_colSum (Cm : Fin 50000 → Fin 128 → EReal) :
    (fun k => meanRow128 (fun i => colSum Cm (i 1)) (ix2 0 k)) = mean nWord Cm := by
  funext k
  rw [meanRow128_apply]
  rfl

/-- On the rows of column sums and column sums of squares, the variance row is the first form of the variance. -/
theorem varRow128_colSum (Cm : Fin 50000 → Fin 128 → EReal) :
    (fun k => varRow128 (fun i => colSum Cm (i 1)) (fun i => colSumSq Cm (i 1)) (ix2 0 k)) = varK nWord Cm := by
  funext k
  rw [varRow128_apply]
  rfl

/-! ### Width 2 -/

/-- A vector of 2 entries as a one-row matrix. -/
def rowOf2 (b : FVec Ideal S2 .f32) : FVec Ideal S1x2 .f32 := shapeCast _ b shapeCasts_S2_S1x2

theorem rowOf2_apply (b : FVec Ideal S2 .f32) (k : Fin 2) : rowOf2 b (ix2 0 k) = b (ix1 k) :=
  shapeCast_a_1a_apply b shapeCasts_S2_S1x2 0 k

/-- A one-row matrix of column sums, divided entry by entry by the number of nodes, as a vector. -/
def mean2 (S : FVec Ideal S1x2 .f32) : FVec Ideal S2 .f32 :=
  Host.divf (shapeCast _ S shapeCasts_S1x2_S2)
    (broadcastInDim S2 ![] bcast_S_S2 (constant (F := Ideal) S_ .f32 0x47435000#32))

theorem mean2_apply (S : FVec Ideal S1x2 .f32) (k : Fin 2) :
    mean2 S (ix1 k) = Ideal.div (S (ix2 0 k)) nWord := by
  unfold mean2 nWord
  rw [hostDivf_apply, shapeCast_1a_a_apply, broadcastInDim_scalar_apply, constant_apply]

/-- The column means as a one-row matrix. -/
def meanRow2 (S : FVec Ideal S1x2 .f32) : FVec Ideal S1x2 .f32 :=
  shapeCast _ (Host.divf (shapeCast _ S shapeCasts_S1x2_S2)
    (broadcastInDim S2 ![] bcast_S_S2 (constant (F := Ideal) S_ .f32 0x47435000#32))) shapeCasts_S2_S1x2

theorem meanRow2_eq (S : FVec Ideal S1x2 .f32) : meanRow2 S = shapeCast _ (mean2 S) shapeCasts_S2_S1x2 := rfl

theorem meanRow2_apply (S : FVec Ideal S1x2 .f32) (k : Fin 2) :
    meanRow2 S (ix2 0 k) = Ideal.div (S (ix2 0 k)) nWord := by
  rw [meanRow2_eq, shapeCast_a_1a_apply, mean2_apply]

/-- The column variances, mean of squares minus squared mean, as a one-row matrix. -/
def varRow2 (S Q : FVec Ideal S1x2 .f32) : FVec Ideal S1x2 .f32 :=
  shapeCast _ (subf (Host.divf (shapeCast _ Q shapeCasts_S1x2_S2)
      (broadcastInDim S2 ![] bcast_S_S2 (constant (F := Ideal) S_ .f32 0x47435000#32)))
    (mulf (mean2 S) (mean2 S))) shapeCasts_S2_S1x2

theorem varRow2_eq (S Q : FVec Ideal S1x2 .f32) :
    varRow2 S Q = shapeCast _ (subf (mean2 Q) (mulf (mean2 S) (mean2 S))) shapeCasts_S2_S1x2 := rfl

theorem varRow2_apply (S Q : FVec Ideal S1x2 .f32) (k : Fin 2) :
    varRow2 S Q (ix2 0 k)
      = Ideal.div (Q (ix2 0 k)) nWord - Ideal.div (S (ix2 0 k)) nWord * Ideal.div (S (ix2 0 k)) nWord := by
  rw [varRow2_eq, shapeCast_a_1a_apply, subf_apply, mulf_apply, mean2_apply, mean2_apply]

/-- On the row of column sums of a matrix, the mean row is the column means. -/
theorem meanRow2_colSum (Cm : Fin 50000 → Fin 2 → EReal) :
    (fun k => meanRow2 (fun i => colSum Cm (i 1)) (ix2 0 k)) = mean nWord Cm := by
  funext k
  rw [meanRow2_apply]
  rfl

/-- On the rows of column sums and column sums of squares, the variance row is the first form of the variance. -/
theorem varRow2_colSum (Cm : Fin 50000 → Fin 2 → EReal) :
    (fun k => varRow2 (fun i => colSum Cm (i 1)) (fun i => colSumSq Cm (i 1)) (ix2 0 k)) = varK nWord Cm := by
  funext k
  rw [varRow2_apply]
  rfl

end Cert.KernelIdeal.KValue

end
-- ==== Proof.KFold.lean ====
/-
  Reading buffers through the kernel program's eight segment boundaries.  A stretch of host operations leaves a
  buffer it does not write as it was and gives a buffer it writes the operations' value of their operands; a region
  leaves every buffer that is not one of its windows' arrays as it was.  Walking back from a region's entry, each
  window's array is either an argument as launched, an earlier region's output, or host arithmetic on those.
-/
import proofs.«147710_j68719477376_1_alg».proof.Proof.FrameKI
import proofs.«147710_j68719477376_1_alg».proof.Proof.KAgg
import proofs.«147710_j68719477376_1_alg».proof.Proof.KHostMath
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

/-- No operation of the stretch writes the buffer, so the stretch leaves it as it was. -/
macro "host_keep " ops:ident : tactic => `(tactic| exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## Buffers a stretch of host operations does not write -/

theorem keep0_arg0 (V : Valuation τ sig (Elt Ideal)) : StableHlo.after (hostOps0 (F := Ideal)) V (Proc.devRef .tc main_arg0) = V (Proc.devRef .tc main_arg0) := by host_keep hostOps0
theorem keep0_arg2 (V : Valuation τ sig (Elt Ideal)) : StableHlo.after (hostOps0 (F := Ideal)) V (Proc.devRef .tc main_arg2) = V (Proc.devRef .tc main_arg2) := by host_keep hostOps0
theorem keep0_arg4 (V : Valuation τ sig (Elt Ideal)) : StableHlo.after (hostOps0 (F := Ideal)) V (Proc.devRef .tc main_arg4) = V (Proc.devRef .tc main_arg4) := by host_keep hostOps0
theorem keep0_arg6 (V : Valuation τ sig (Elt Ideal)) : StableHlo.after (hostOps0 (F := Ideal)) V (Proc.devRef .tc main_arg6) = V (Proc.devRef .tc main_arg6) := by host_keep hostOps0
theorem keep0_arg7 (V : Valuation τ sig (Elt Ideal)) : StableHlo.after (hostOps0 (F := Ideal)) V (Proc.devRef .tc main_arg7) = V (Proc.devRef .tc main_arg7) := by host_keep hostOps0
theorem keep0_arg8 (V : Valuation τ sig (Elt Ideal)) : StableHlo.after (hostOps0 (F := Ideal)) V (Proc.devRef .tc main_arg8) = V (Proc.devRef .tc main_arg8) := by host_keep hostOps0
theorem keep0_arg9 (V : Valuation τ sig (Elt Ideal)) : StableHlo.after (hostOps0 (F := Ideal)) V (Proc.devRef .tc main_arg9) = V (Proc.devRef .tc main_arg9) := by host_keep hostOps0
theorem keep0_arg10 (V : Valuation τ sig (Elt Ideal)) : StableHlo.after (hostOps0 (F := Ideal)) V (Proc.devRef .tc main_arg10) = V (Proc.devRef .tc main_arg10) := by host_keep hostOps0
theorem keep0_arg11 (V : Valuation τ sig (Elt Ideal)) : StableHlo.after (hostOps0 (F := Ideal)) V (Proc.devRef .tc main_arg11) = V (Proc.devRef .tc main_arg11) := by host_keep hostOps0
theorem keep0_arg12 (V : Valuation τ sig (Elt Ideal)) : StableHlo.after (hostOps0 (F := Ideal)) V (Proc.devRef .tc main_arg12) = V (Proc.devRef .tc main_arg12) := by host_keep hostOps0
theorem keep0_arg13 (V : Valuation τ sig (Elt Ideal)) : StableHlo.after (hostOps0 (F := Ideal)) V (Proc.devRef .tc main_arg13) = V (Proc.devRef .tc main_arg13) := by host_keep hostOps0
theorem keep1_v16_0 (V : Valuation τ sig (Elt Ideal)) : StableHlo.after (hostOps1 (F := Ideal)) V (Proc.devRef .tc main_v16_0) = V (Proc.devRef .tc main_v16_0) := by host_keep hostOps1
theorem keep1_arg8 (V : Valuation τ sig (Elt Ideal)) : StableHlo.after (hostOps1 (F := Ideal)) V (Proc.devRef .tc main_arg8) = V (Proc.devRef .tc main_arg8) := by host_keep hostOps1
theorem keep1_arg9 (V : Valuation τ sig (Elt Ideal)) : StableHlo.after (hostOps1 (F := Ideal)) V (Proc.devRef .tc main_arg9) = V (Proc.devRef .tc main_arg9) := by host_keep hostOps1
theorem keep1_arg10 (V : Valuation τ sig (Elt Ideal)) : StableHlo.after (hostOps1 (F := Ideal)) V (Proc.devRef .tc main_arg10) = V (Proc.devRef .tc main_arg10) := by host_keep hostOps1
theorem keep1_arg11 (V : Valuation τ sig (Elt Ideal)) : StableHlo.after (hostOps1 (F := Ideal)) V (Proc.devRef .tc main_arg11) = V (Proc.devRef .tc main_arg11) := by host_keep hostOps1
theorem keep1_arg12 (V : Valuation τ sig (Elt Ideal)) : StableHlo.after (hostOps1 (F := Ideal)) V (Proc.devRef .tc main_arg12) = V (Proc.devRef .tc main_arg12) := by host_keep hostOps1
theorem keep1_arg13 (V : Valuation τ sig (Elt Ideal)) : StableHlo.after (hostOps1 (F := Ideal)) V (Proc.devRef .tc main_arg13) = V (Proc.devRef .tc main_arg13) := by host_keep hostOps1
theorem keep1_v1 (V : Valuation τ sig (Elt Ideal)) : StableHlo.after (hostOps1 (F := Ideal)) V (Proc.devRef .tc main_v1) = V (Proc.devRef .tc main_v1) := by host_keep hostOps1
theorem keep1_v3 (V : Valuation τ sig (Elt Ideal)) : StableHlo.after (hostOps1 (F := Ideal)) V (Proc.devRef .tc main_v3) = V (Proc.devRef .tc main_v3) := by host_keep hostOps1
theorem keep2_v29 (V : Valuation τ sig (Elt Ideal)) : StableHlo.after (hostOps2 (F := Ideal)) V (Proc.devRef .tc main_v29) = V (Proc.devRef .tc main_v29) := by host_keep hostOps2
theorem keep2_arg8 (V : Valuation τ sig (Elt Ideal)) : StableHlo.after (hostOps2 (F := Ideal)) V (Proc.devRef .tc main_arg8) = V (Proc.devRef .tc main_arg8) := by host_keep hostOps2
theorem keep2_arg10 (V : Valuation τ sig (Elt Ideal)) : StableHlo.after (hostOps2 (F := Ideal)) V (Proc.devRef .tc main_arg10) = V (Proc.devRef .tc main_arg10) := by host_keep hostOps2
theorem keep2_arg12 (V : Valuation τ sig (Elt Ideal)) : StableHlo.after (hostOps2 (F := Ideal)) V (Proc.devRef .tc main_arg12) = V (Proc.devRef .tc main_arg12) := by host_keep hostOps2
theorem keep2_arg13 (V : Valuation τ sig (Elt Ideal)) : StableHlo.after (hostOps2 (F := Ideal)) V (Proc.devRef .tc main_arg13) = V (Proc.devRef .tc main_arg13) := by host_keep hostOps2
theorem keep3_v42_0 (V : Valuation τ sig (Elt Ideal)) : StableHlo.after (hostOps3 (F := Ideal)) V (Proc.devRef .tc main_v42_0) = V (Proc.devRef .tc main_v42_0) := by host_keep hostOps3

/-! ## What each stretch of host operations computes, over any contents before it -/

/-- The aggregation over given rows of source and destination indices. -/
def aggOf (r0 r1 : (⟨S1600000, .i32⟩ : BufTy).Contents (Elt Ideal)) (X : NodeMat) : NodeMat :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 r1)
    (Host.gather gather_S50000x128_S1600000x1_S1600000x128_1_0_n_n_0_1_1128 X
      (broadcastInDim S1600000x1 ![0] bcast_S1600000_S1600000x1_0
        (select (cmpi .slt r0 (broadcastInDim S1600000 ![] bcast_S_S1600000 (constantI S_ 32 0#32)))
          (addi r0 (broadcastInDim S1600000 ![] bcast_S_S1600000 (constantI S_ 32 50000#32))) r0)))

theorem aggK_eq_aggOf (ei : EI) (X : NodeMat) : aggK ei X = aggOf (edgeRow0 ei) (edgeRow1 ei) X := rfl

section Stretch
variable (V : Valuation τ sig (Elt Ideal))

theorem s0_v1 : StableHlo.after (hostOps0 (F := Ideal)) V (Proc.devRef .tc main_v1) = edgeRow0 (V (Proc.devRef .tc main_arg1)) := by
  after_results_simp <;> rfl
theorem s0_v3 : StableHlo.after (hostOps0 (F := Ideal)) V (Proc.devRef .tc main_v3) = edgeRow1 (V (Proc.devRef .tc main_arg1)) := by
  after_results_simp <;> rfl
theorem s0_v13 : StableHlo.after (hostOps0 (F := Ideal)) V (Proc.devRef .tc main_v13)
    = aggK (V (Proc.devRef .tc main_arg1)) (V (Proc.devRef .tc main_arg0)) := by
  after_results_simp <;> rfl
theorem s0_v14 : StableHlo.after (hostOps0 (F := Ideal)) V (Proc.devRef .tc main_v14) = rowOf128 (V (Proc.devRef .tc main_arg3)) := by
  after_results_simp <;> rfl
theorem s0_v15 : StableHlo.after (hostOps0 (F := Ideal)) V (Proc.devRef .tc main_v15) = rowOf128 (V (Proc.devRef .tc main_arg5)) := by
  after_results_simp <;> rfl

theorem s1_v25 : StableHlo.after (hostOps1 (F := Ideal)) V (Proc.devRef .tc main_v25) = meanRow128 (V (Proc.devRef .tc main_v16_1)) := by
  after_results_simp <;> rfl
theorem s1_v26 : StableHlo.after (hostOps1 (F := Ideal)) V (Proc.devRef .tc main_v26)
    = varRow128 (V (Proc.devRef .tc main_v16_1)) (V (Proc.devRef .tc main_v16_2)) := by
  after_results_simp <;> rfl
theorem s1_v27 : StableHlo.after (hostOps1 (F := Ideal)) V (Proc.devRef .tc main_v27) = rowOf128 (V (Proc.devRef .tc main_arg6)) := by
  after_results_simp <;> rfl
theorem s1_v28 : StableHlo.after (hostOps1 (F := Ideal)) V (Proc.devRef .tc main_v28) = rowOf128 (V (Proc.devRef .tc main_arg7)) := by
  after_results_simp <;> rfl

theorem s2_v39 : StableHlo.after (hostOps2 (F := Ideal)) V (Proc.devRef .tc main_v39)
    = aggOf (V (Proc.devRef .tc main_v1)) (V (Proc.devRef .tc main_v3)) (V (Proc.devRef .tc main_v29)) := by
  after_results_simp <;> rfl
theorem s2_v40 : StableHlo.after (hostOps2 (F := Ideal)) V (Proc.devRef .tc main_v40) = rowOf128 (V (Proc.devRef .tc main_arg9)) := by
  after_results_simp <;> rfl
theorem s2_v41 : StableHlo.after (hostOps2 (F := Ideal)) V (Proc.devRef .tc main_v41) = rowOf2 (V (Proc.devRef .tc main_arg11)) := by
  after_results_simp <;> rfl

theorem s3_v51 : StableHlo.after (hostOps3 (F := Ideal)) V (Proc.devRef .tc main_v51) = meanRow2 (V (Proc.devRef .tc main_v42_1)) := by
  after_results_simp <;> rfl
theorem s3_v52 : StableHlo.after (hostOps3 (F := Ideal)) V (Proc.devRef .tc main_v52)
    = varRow2 (V (Proc.devRef .tc main_v42_1)) (V (Proc.devRef .tc main_v42_2)) := by
  after_results_simp <;> rfl
theorem s3_v53 : StableHlo.after (hostOps3 (F := Ideal)) V (Proc.devRef .tc main_v53) = rowOf2 (V (Proc.devRef .tc main_arg12)) := by
  after_results_simp <;> rfl
theorem s3_v54 : StableHlo.after (hostOps3 (F := Ideal)) V (Proc.devRef .tc main_v54) = rowOf2 (V (Proc.devRef .tc main_arg13)) := by
  after_results_simp <;> rfl

end Stretch

end Cert.KernelIdeal.KValue

end
-- ==== Proof.KWalk.lean ====
/-
  The contents of each buffer a region reads, at that region's entry, in terms of the launch memory and of what
  the earlier regions left: the walk back through the segment boundaries, one step per boundary.
-/
import proofs.«147710_j68719477376_1_alg».proof.Proof.KFold
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.Tactic Idealize.SL.Sem Idealize.ShloMosaic.StableHlo
open Idealize.ShloMosaic.Pipeline (Dat)

variable (m : (ℓ : Loc nD τ sig) → Buf (Elt Ideal) ℓ) (ρ : Dev nD → PrngReg)

variable (c : Dev nD)

theorem W1_arg0 : W1 m ρ c (Proc.devRef .tc main_arg0) = m ((c : Thread nD τ).loc main_arg0) := keep0_arg0 _
theorem W1_arg2 : W1 m ρ c (Proc.devRef .tc main_arg2) = m ((c : Thread nD τ).loc main_arg2) := keep0_arg2 _
theorem W1_arg4 : W1 m ρ c (Proc.devRef .tc main_arg4) = m ((c : Thread nD τ).loc main_arg4) := keep0_arg4 _
theorem W1_arg6 : W1 m ρ c (Proc.devRef .tc main_arg6) = m ((c : Thread nD τ).loc main_arg6) := keep0_arg6 _
theorem W1_arg7 : W1 m ρ c (Proc.devRef .tc main_arg7) = m ((c : Thread nD τ).loc main_arg7) := keep0_arg7 _
theorem W1_arg8 : W1 m ρ c (Proc.devRef .tc main_arg8) = m ((c : Thread nD τ).loc main_arg8) := keep0_arg8 _
theorem W1_arg9 : W1 m ρ c (Proc.devRef .tc main_arg9) = m ((c : Thread nD τ).loc main_arg9) := keep0_arg9 _
theorem W1_arg10 : W1 m ρ c (Proc.devRef .tc main_arg10) = m ((c : Thread nD τ).loc main_arg10) := keep0_arg10 _
theorem W1_arg11 : W1 m ρ c (Proc.devRef .tc main_arg11) = m ((c : Thread nD τ).loc main_arg11) := keep0_arg11 _
theorem W1_arg12 : W1 m ρ c (Proc.devRef .tc main_arg12) = m ((c : Thread nD τ).loc main_arg12) := keep0_arg12 _
theorem W1_arg13 : W1 m ρ c (Proc.devRef .tc main_arg13) = m ((c : Thread nD τ).loc main_arg13) := keep0_arg13 _
theorem W1_v1 : W1 m ρ c (Proc.devRef .tc main_v1) = edgeRow0 (m ((c : Thread nD τ).loc main_arg1)) := s0_v1 _
theorem W1_v3 : W1 m ρ c (Proc.devRef .tc main_v3) = edgeRow1 (m ((c : Thread nD τ).loc main_arg1)) := s0_v3 _
theorem W1_v13 : W1 m ρ c (Proc.devRef .tc main_v13) = aggK (m ((c : Thread nD τ).loc main_arg1)) (m ((c : Thread nD τ).loc main_arg0)) := s0_v13 _
theorem W1_v14 : W1 m ρ c (Proc.devRef .tc main_v14) = rowOf128 (m ((c : Thread nD τ).loc main_arg3)) := s0_v14 _
theorem W1_v15 : W1 m ρ c (Proc.devRef .tc main_v15) = rowOf128 (m ((c : Thread nD τ).loc main_arg5)) := s0_v15 _
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W2_arg11 : W2 m ρ c (Proc.devRef .tc main_arg11) = m ((c : Thread nD τ).loc main_arg11) := (W2_of_ne m ρ c main_arg11 (by decide)).trans (W1_arg11 m ρ c)
theorem W2_arg12 : W2 m ρ c (Proc.devRef .tc main_arg12) = m ((c : Thread nD τ).loc main_arg12) := (W2_of_ne m ρ c main_arg12 (by decide)).trans (W1_arg12 m ρ c)
theorem W2_arg13 : W2 m ρ c (Proc.devRef .tc main_arg13) = m ((c : Thread nD τ).loc main_arg13) := (W2_of_ne m ρ c main_arg13 (by decide)).trans (W1_arg13 m ρ c)
theorem W2_v1 : W2 m ρ c (Proc.devRef .tc main_v1) = edgeRow0 (m ((c : Thread nD τ).loc main_arg1)) := (W2_of_ne m ρ c main_v1 (by decide)).trans (W1_v1 m ρ c)
theorem W2_v3 : W2 m ρ c (Proc.devRef .tc main_v3) = edgeRow1 (m ((c : Thread nD τ).loc main_arg1)) := (W2_of_ne m ρ c main_v3 (by decide)).trans (W1_v3 m ρ c)
theorem W3_v16_0 : W3 m ρ c (Proc.devRef .tc main_v16_0) = W2 m ρ c (Proc.devRef .tc main_v16_0) := keep1_v16_0 _
theorem W3_v25 : W3 m ρ c (Proc.devRef .tc main_v25) = meanRow128 (W2 m ρ c (Proc.devRef .tc main_v16_1)) := s1_v25 _
theorem W3_v26 : W3 m ρ c (Proc.devRef .tc main_v26) = varRow128 (W2 m ρ c (Proc.devRef .tc main_v16_1)) (W2 m ρ c (Proc.devRef .tc main_v16_2)) := s1_v26 _
theorem W3_v27 : W3 m ρ c (Proc.devRef .tc main_v27) = rowOf128 (m ((c : Thread nD τ).loc main_arg6)) := (s1_v27 _).trans (congrArg rowOf128 (W2_arg6 m ρ c))
theorem W3_v28 : W3 m ρ c (Proc.devRef .tc main_v28) = rowOf128 (m ((c : Thread nD τ).loc main_arg7)) := (s1_v28 _).trans (congrArg rowOf128 (W2_arg7 m ρ c))
theorem W3_arg8 : W3 m ρ c (Proc.devRef .tc main_arg8) = m ((c : Thread nD τ).loc main_arg8) := (keep1_arg8 _).trans (W2_arg8 m ρ c)
theorem W3_arg9 : W3 m ρ c (Proc.devRef .tc main_arg9) = m ((c : Thread nD τ).loc main_arg9) := (keep1_arg9 _).trans (W2_arg9 m ρ c)
theorem W3_arg10 : W3 m ρ c (Proc.devRef .tc main_arg10) = m ((c : Thread nD τ).loc main_arg10) := (keep1_arg10 _).trans (W2_arg10 m ρ c)
theorem W3_arg11 : W3 m ρ c (Proc.devRef .tc main_arg11) = m ((c : Thread nD τ).loc main_arg11) := (keep1_arg11 _).trans (W2_arg11 m ρ c)
theorem W3_arg12 : W3 m ρ c (Proc.devRef .tc main_arg12) = m ((c : Thread nD τ).loc main_arg12) := (keep1_arg12 _).trans (W2_arg12 m ρ c)
theorem W3_arg13 : W3 m ρ c (Proc.devRef .tc main_arg13) = m ((c : Thread nD τ).loc main_arg13) := (keep1_arg13 _).trans (W2_arg13 m ρ c)
theorem W3_v1 : W3 m ρ c (Proc.devRef .tc main_v1) = edgeRow0 (m ((c : Thread nD τ).loc main_arg1)) := (keep1_v1 _).trans (W2_v1 m ρ c)
theorem W3_v3 : W3 m ρ c (Proc.devRef .tc main_v3) = edgeRow1 (m ((c : Thread nD τ).loc main_arg1)) := (keep1_v3 _).trans (W2_v3 m ρ c)
theorem W4_arg8 : W4 m ρ c (Proc.devRef .tc main_arg8) = m ((c : Thread nD τ).loc main_arg8) := (W4_of_ne m ρ c main_arg8 (by decide)).trans (W3_arg8 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)
theorem W4_arg11 : W4 m ρ c (Proc.devRef .tc main_arg11) = m ((c : Thread nD τ).loc main_arg11) := (W4_of_ne m ρ c main_arg11 (by decide)).trans (W3_arg11 m ρ c)
theorem W4_arg12 : W4 m ρ c (Proc.devRef .tc main_arg12) = m ((c : Thread nD τ).loc main_arg12) := (W4_of_ne m ρ c main_arg12 (by decide)).trans (W3_arg12 m ρ c)
theorem W4_arg13 : W4 m ρ c (Proc.devRef .tc main_arg13) = m ((c : Thread nD τ).loc main_arg13) := (W4_of_ne m ρ c main_arg13 (by decide)).trans (W3_arg13 m ρ c)
theorem W4_v1 : W4 m ρ c (Proc.devRef .tc main_v1) = edgeRow0 (m ((c : Thread nD τ).loc main_arg1)) := (W4_of_ne m ρ c main_v1 (by decide)).trans (W3_v1 m ρ c)
theorem W4_v3 : W4 m ρ c (Proc.devRef .tc main_v3) = edgeRow1 (m ((c : Thread nD τ).loc main_arg1)) := (W4_of_ne m ρ c main_v3 (by decide)).trans (W3_v3 m ρ c)
theorem W5_v29 : W5 m ρ c (Proc.devRef .tc main_v29) = W4 m ρ c (Proc.devRef .tc main_v29) := keep2_v29 _
theorem W5_v39 : W5 m ρ c (Proc.devRef .tc main_v39) = aggK (m ((c : Thread nD τ).loc main_arg1)) (W4 m ρ c (Proc.devRef .tc main_v29)) := by
  refine (s2_v39 _).trans ?_
  rw [W4_v1 m ρ c, W4_v3 m ρ c]
  exact (aggK_eq_aggOf _ _).symm
theorem W5_v40 : W5 m ρ c (Proc.devRef .tc main_v40) = rowOf128 (m ((c : Thread nD τ).loc main_arg9)) := (s2_v40 _).trans (congrArg rowOf128 (W4_arg9 m ρ c))
theorem W5_v41 : W5 m ρ c (Proc.devRef .tc main_v41) = rowOf2 (m ((c : Thread nD τ).loc main_arg11)) := (s2_v41 _).trans (congrArg rowOf2 (W4_arg11 m ρ c))
theorem W5_arg8 : W5 m ρ c (Proc.devRef .tc main_arg8) = m ((c : Thread nD τ).loc main_arg8) := (keep2_arg8 _).trans (W4_arg8 m ρ c)
theorem W5_arg10 : W5 m ρ c (Proc.devRef .tc main_arg10) = m ((c : Thread nD τ).loc main_arg10) := (keep2_arg10 _).trans (W4_arg10 m ρ c)
theorem W5_arg12 : W5 m ρ c (Proc.devRef .tc main_arg12) = m ((c : Thread nD τ).loc main_arg12) := (keep2_arg12 _).trans (W4_arg12 m ρ c)
theorem W5_arg13 : W5 m ρ c (Proc.devRef .tc main_arg13) = m ((c : Thread nD τ).loc main_arg13) := (keep2_arg13 _).trans (W4_arg13 m ρ c)
theorem W6_arg12 : W6 m ρ c (Proc.devRef .tc main_arg12) = m ((c : Thread nD τ).loc main_arg12) := (W6_of_ne m ρ c main_arg12 (by decide)).trans (W5_arg12 m ρ c)
theorem W6_arg13 : W6 m ρ c (Proc.devRef .tc main_arg13) = m ((c : Thread nD τ).loc main_arg13) := (W6_of_ne m ρ c main_arg13 (by decide)).trans (W5_arg13 m ρ c)
theorem W7_v42_0 : W7 m ρ c (Proc.devRef .tc main_v42_0) = W6 m ρ c (Proc.devRef .tc main_v42_0) := keep3_v42_0 _
theorem W7_v51 : W7 m ρ c (Proc.devRef .tc main_v51) = meanRow2 (W6 m ρ c (Proc.devRef .tc main_v42_1)) := s3_v51 _
theorem W7_v52 : W7 m ρ c (Proc.devRef .tc main_v52) = varRow2 (W6 m ρ c (Proc.devRef .tc main_v42_1)) (W6 m ρ c (Proc.devRef .tc main_v42_2)) := s3_v52 _
theorem W7_v53 : W7 m ρ c (Proc.devRef .tc main_v53) = rowOf2 (m ((c : Thread nD τ).loc main_arg12)) := (s3_v53 _).trans (congrArg rowOf2 (W6_arg12 m ρ c))
theorem W7_v54 : W7 m ρ c (Proc.devRef .tc main_v54) = rowOf2 (m ((c : Thread nD τ).loc main_arg13)) := (s3_v54 _).trans (congrArg rowOf2 (W6_arg13 m ρ c))

end Cert.KernelIdeal.KValue

end
-- ==== Proof.KLayer.lean ====
/-
  One layer, as the kernel computes it, is one layer of the specification: the normalisation the second region of a
  pair applies — to the first region's output, with the mean and variance rows the host code between them derives
  from the column sums — is `layerK`.
-/
import proofs.«147710_j68719477376_1_alg».proof.Proof.KHostMath
import proofs.«147710_j68719477376_1_alg».proof.Proof.SpecAt

noncomputable section

namespace Cert.KernelIdeal.KValue

open Cert.KernelIdeal Cert.KernelIdeal.Gen Cert.GinSpec Idealize.ShloMosaic Idealize.ShloMosaic.ValueIdx

theorem rowOf128_toFn1 (b : FVec Ideal S128 .f32) : (fun k : Fin 128 => rowOf128 b (ix2 0 k)) = toFn1 b :=
  funext fun k => rowOf128_apply b k

theorem rowOf2_toFn1 (b : FVec Ideal S2 .f32) : (fun k : Fin 2 => rowOf2 b (ix2 0 k)) = toFn1 b :=
  funext fun k => rowOf2_apply b k

/-- The first layer (128 output features). -/
theorem layer128_eq (agg : Mat 50000 128 → Mat 50000 128) (X : Mat 50000 128) (w1 : Mat 128 128) (b1 : Row 128)
    (w2 : Mat 128 128) (b2 g be : Row 128) :
    ofFn (norm epsWord
        (toFn (ofFn (mlp (toFn X) (toFn (agg X)) (toFn w1) (fun k => rowOf128 b1 (ix2 0 k)) (toFn w2) (fun k => rowOf128 b2 (ix2 0 k)))))
        (fun k => meanRow128 (fun i => colSum (mlp (toFn X) (toFn (agg X)) (toFn w1) (fun k => rowOf128 b1 (ix2 0 k)) (toFn w2) (fun k => rowOf128 b2 (ix2 0 k))) (i 1)) (ix2 0 k))
        (fun k => varRow128 (fun i => colSum (mlp (toFn X) (toFn (agg X)) (toFn w1) (fun k => rowOf128 b1 (ix2 0 k)) (toFn w2) (fun k => rowOf128 b2 (ix2 0 k))) (i 1))
                            (fun i => colSumSq (mlp (toFn X) (toFn (agg X)) (toFn w1) (fun k => rowOf128 b1 (ix2 0 k)) (toFn w2) (fun k => rowOf128 b2 (ix2 0 k))) (i 1)) (ix2 0 k))
        (fun k => rowOf128 g (ix2 0 k)) (fun k => rowOf128 be (ix2 0 k)))
      = ofFn (layerK nWord epsWord (aggFn agg) (toFn X) (toFn w1) (toFn1 b1) (toFn w2) (toFn1 b2) (toFn1 g) (toFn1 be)) := by
  rw [toFn_ofFn, meanRow128_colSum, varRow128_colSum, rowOf128_toFn1, rowOf128_toFn1, rowOf128_toFn1, rowOf128_toFn1]
  unfold layerK bnK
  rw [aggFn_toFn]

/-- The second layer (2 output features). -/
theorem layer2_eq (agg : Mat 50000 128 → Mat 50000 128) (X : Mat 50000 128) (w1 : Mat 128 128) (b1 : Row 128)
    (w2 : Mat 128 2) (b2 g be : Row 2) :
    ofFn (norm epsWord
        (toFn (ofFn (mlp (toFn X) (toFn (agg X)) (toFn w1) (fun k => rowOf128 b1 (ix2 0 k)) (toFn w2) (fun k => rowOf2 b2 (ix2 0 k)))))
        (fun k => meanRow2 (fun i => colSum (mlp (toFn X) (toFn (agg X)) (toFn w1) (fun k => rowOf128 b1 (ix2 0 k)) (toFn w2) (fun k => rowOf2 b2 (ix2 0 k))) (i 1)) (ix2 0 k))
        (fun k => varRow2 (fun i => colSum (mlp (toFn X) (toFn (agg X)) (toFn w1) (fun k => rowOf128 b1 (ix2 0 k)) (toFn w2) (fun k => rowOf2 b2 (ix2 0 k))) (i 1))
                          (fun i => colSumSq (mlp (toFn X) (toFn (agg X)) (toFn w1) (fun k => rowOf128 b1 (ix2 0 k)) (toFn w2) (fun k => rowOf2 b2 (ix2 0 k))) (i 1)) (ix2 0 k))
        (fun k => rowOf2 g (ix2 0 k)) (fun k => rowOf2 be (ix2 0 k)))
      = ofFn (layerK nWord epsWord (aggFn agg) (toFn X) (toFn w1) (toFn1 b1) (toFn w2) (toFn1 b2) (toFn1 g) (toFn1 be)) := by
  rw [toFn_ofFn, meanRow2_colSum, varRow2_colSum, rowOf128_toFn1, rowOf2_toFn1, rowOf2_toFn1, rowOf2_toFn1]
  unfold layerK bnK
  rw [aggFn_toFn]

end Cert.KernelIdeal.KValue

end
-- ==== Proof.KRegLib.lean ====
/-
  General lemmas for the accumulating regions: sums over the rows of a matrix taken 2000 rows at a time, and the fact
  that two dense maps at a row depend only on that row.

  The sum of a column over all rows is built up block by block: after n blocks the carried value is the sum over the
  first 2000·n rows, and adding the next block's 2000 terms gives the sum over the first 2000·(n + 1) rows.  Only
  associativity and commutativity of addition on the extended reals are used, so nothing has to be finite.
-/
import proofs.«147710_j68719477376_1_alg».proof.Proof.SpecAt

noncomputable section

namespace Cert.KernelIdeal.KValue.RegLib

open Cert.GinSpec

/-- The offsets of a block that starts at the origin vanish on both axes. -/
theorem hz2 : (![0, 0] : Fin 2 → Nat) = fun _ => 0 := funext fun a => by fin_cases a <;> rfl

/-- A function of a row and a column, extended by zero beyond the last row: a sum over the first rows is then a sum
    over a range of naturals. -/
def rowsN {R C : Nat} (f : Fin R → Fin C → EReal) (r : ℕ) (k : Fin C) : EReal := if h : r < R then f ⟨r, h⟩ k else 0

theorem rowsN_of_lt {R C : Nat} (f : Fin R → Fin C → EReal) (r : ℕ) (h : r < R) (k : Fin C) : rowsN f r k = f ⟨r, h⟩ k := dif_pos h

/-- The sum of a column over all rows is the sum over the range of the row count. -/
theorem sum_rowsN {R C : Nat} (f : Fin R → Fin C → EReal) (k : Fin C) : ∑ r : Fin R, f r k = ∑ r ∈ Finset.range R, rowsN f r k := by
  rw [← Fin.sum_univ_eq_sum_range (fun r => rowsN f r k) R]
  exact Finset.sum_congr rfl fun r _ => (rowsN_of_lt f r.val r.isLt k).symm

/-- The same for the squares of a column. -/
theorem sum_sq_rowsN {R C : Nat} (f : Fin R → Fin C → EReal) (k : Fin C) :
    ∑ r : Fin R, f r k * f r k = ∑ r ∈ Finset.range R, rowsN f r k * rowsN f r k := by
  rw [← Fin.sum_univ_eq_sum_range (fun r => rowsN f r k * rowsN f r k) R]
  exact Finset.sum_congr rfl fun r _ => by rw [rowsN_of_lt f r.val r.isLt k]

/-- Adding the next 2000 terms to the sum of the first `a`. -/
theorem sum_step (f : ℕ → EReal) (a : ℕ) (s : EReal) (g : Fin 2000 → EReal) (hs : s = ∑ r ∈ Finset.range a, f r)
    (hg : ∀ r, g r = f (a + r.val)) : s + ∑ r : Fin 2000, g r = ∑ r ∈ Finset.range (a + 2000), f r := by
  rw [Finset.sum_range_add, hs, ← Fin.sum_univ_eq_sum_range (fun x => f (a + x)) 2000]
  exact congrArg _ (Finset.sum_congr rfl fun r _ => hg r)

/-- Two dense maps at a row depend only on that row of the two inputs. -/
theorem mlp_row {ρ ρ' α β γ : Type} [Fintype α] [Fintype β] (h a : ρ → α → EReal) (h' a' : ρ' → α → EReal)
    (w1 : α → β → EReal) (b1 : β → EReal) (w2 : β → γ → EReal) (b2 : γ → EReal) (r : ρ) (r' : ρ') (k : γ)
    (hh : ∀ l, h r l = h' r' l) (ha : ∀ l, a r l = a' r' l) : mlp h a w1 b1 w2 b2 r k = mlp h' a' w1 b1 w2 b2 r' k := by
  unfold mlp dense
  simp only [hh, ha]

end Cert.KernelIdeal.KValue.RegLib

end
-- ==== Proof.KPay0.lean ====
/-
  The arithmetic of the accumulating body of the first layer, read at an index of the extended reals.

  One block of 2000 rows: the two inputs are added, multiplied by the first weight matrix (a product summed into zero),
  the first bias row is added and the result cut below at zero; the same again with the second weight matrix and bias.
  At the ideal values a change of float format is the identity, so entry (r, k) of the block is the two dense maps of
  the specification applied to row r.  The two carried rows add to what they held the sum over the 2000 rows of the
  block's column, and of the squares of the block's column.
-/
import proofs.«147710_j68719477376_1_alg».proof.Proof.Gen.KernelIdeal.Skeleton
import proofs.«147710_j68719477376_1_alg».proof.Proof.SpecAt
import proofs.«147710_j68719477376_1_alg».proof.Proof.KRegLib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue.Reg0

open Cert.KernelIdeal Cert.KernelIdeal.Gen Cert.KernelIdeal.KValue.RegLib Cert.GinSpec Idealize.ShloMosaic Idealize.ShloMosaic.ValueIdx

/-! ## The product of a block with a weight matrix, at an entry -/

theorem dot0_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot0_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dot0_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dot0_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a weight matrix, summed into zero: entry (r, k) is the sum over l of (r, l) times (l, k). -/
theorem matmul0_apply {φ₁ φ₂ : FTy} (a : FVec Ideal S2000x128 φ₁) (b : FVec Ideal S128x128 φ₂) (r : Fin 2000) (k : Fin 128) :
    matmul dot_S2000x128_S128x128_S2000x128_1_0_0_1_n_n none a b (constant (F := Ideal) S2000x128 .f32 0x00000000#32) (ix2 r k)
      = ∑ l : Fin 128, a (ix2 r l) * b (ix2 l k) := by
  simp only [matmul]
  rw [Ideal.matmul_constant_zero_apply, ← Equiv.sum_comp (contrEquiv1 dot_S2000x128_S128x128_S2000x128_1_0_0_1_n_n 128 rfl rfl).symm]
  refine Finset.sum_congr rfl fun l _ => ?_
  have hl := contrEquiv1_symm_val dot_S2000x128_S128x128_S2000x128_1_0_0_1_n_n 128 rfl rfl l
  have el : dot_S2000x128_S128x128_S2000x128_1_0_0_1_n_n.lhsIdx (ix2 r k) ((contrEquiv1 dot_S2000x128_S128x128_S2000x128_1_0_0_1_n_n 128 rfl rfl).symm l) = ix2 r l := funext fun a => Fin.ext (by
    match a with
    | ⟨0, _⟩ => exact dot0_lhs_0 _ _
    | ⟨1, _⟩ => exact (dot0_lhs_1 _ _).trans hl)
  have er : dot_S2000x128_S128x128_S2000x128_1_0_0_1_n_n.rhsIdx (ix2 r k) ((contrEquiv1 dot_S2000x128_S128x128_S2000x128_1_0_0_1_n_n 128 rfl rfl).symm l) = ix2 l k := funext fun a => Fin.ext (by
    match a with
    | ⟨0, _⟩ => exact (dot0_rhs_0 _ _).trans hl
    | ⟨1, _⟩ => exact dot0_rhs_1 _ _)
  rw [el, er]

/-! ## The sum of a block's column, as a row -/

/-- The sum over the rows of a block, kept as a one-row matrix: entry (0, k) is the sum of column k. -/
theorem colsum0_apply (v : FVec Ideal S2000x128 .f32) (hφ : FKind.Formats .f32)
    (hacc : (0x00000000#32 : BitVec 32) = FKind.add.neutral .f32 hφ) (u : Fin 1) (k : Fin 128) :
    shapeCast S1x128 (multiReduction .add [0] S128 v 0x00000000#32 reduces_S2000x128_S128 hφ hacc) shapeCasts_S128_S1x128 (ix2 u k)
      = ∑ r : Fin 2000, v (ix2 r k) := by
  refine (shapeCast_a_1a_apply _ shapeCasts_S128_S1x128 u k).trans ?_
  refine (Ideal.multiReduction_add_single v 0x00000000#32 reduces_S2000x128_S128 hφ hacc (ix1 k)).trans ?_
  show ∑ q : Fin 2000, v (reduces_S2000x128_S128.lift (ix1 k) q) = _
  refine Finset.sum_congr rfl fun q _ => congrArg v (funext fun a => Fin.ext ?_)
  match a with
  | ⟨0, _⟩ => rfl
  | ⟨1, _⟩ => rfl

/-! ## The block of the two dense maps, and the two carried rows -/

/-- Entry (r, k) of the block the body stores: the two dense maps of the specification on row r of the two inputs. -/
theorem pay4_apply (x0 x1 : Vec Ideal S2000x128 .f32) (w1 : Vec Ideal S128x128 .f32) (b1 : Vec Ideal S1x128 .f32)
    (w2 : Vec Ideal S128x128 .f32) (b2 : Vec Ideal S1x128 .f32) (r : Fin 2000) (k : Fin 128) :
    k0_pay4 (F := Ideal) x0 x1 w1 b1 w2 b2 (ix2 r k)
      = mlp (toFn x0) (toFn x1) (toFn w1) (fun k => b1 (ix2 0 k)) (toFn w2) (fun k => b2 (ix2 0 k)) r k := by
  unfold k0_pay4
  simp only [maximumf_apply, addf_apply, truncf_apply, broadcast_apply, shapeCast_self, broadcastTo_1b_ab_apply, matmul0_apply,
    Scalar.ofBits, Ideal.ofBits_zero_f32]
  rfl

/-- The carried row of column sums after a block: what it held plus the sum of the block's column. -/
theorem pay5_apply (x0 x1 : Vec Ideal S2000x128 .f32) (w1 : Vec Ideal S128x128 .f32) (b1 : Vec Ideal S1x128 .f32)
    (w2 : Vec Ideal S128x128 .f32) (b2 : Vec Ideal S1x128 .f32) (acc : Vec Ideal S1x128 .f32) (u : Fin 1) (k : Fin 128) :
    k0_pay5 (F := Ideal) x0 x1 w1 b1 w2 b2 acc (ix2 u k)
      = acc (ix2 u k) + ∑ r : Fin 2000, k0_pay4 (F := Ideal) x0 x1 w1 b1 w2 b2 (ix2 r k) := by
  unfold k0_pay5
  simp only [addf_apply, shapeCast_self]
  exact congrArg (acc (ix2 u k) + ·) (colsum0_apply _ _ _ u k)

/-- The carried row of sums of squares after a block: what it held plus the sum of the squares of the block's column. -/
theorem pay1_apply (v : FVec Ideal S2000x128 .f32) (acc : Vec Ideal S1x128 .f32) (u : Fin 1) (k : Fin 128) :
    k0_pay1 (F := Ideal) v acc (ix2 u k) = acc (ix2 u k) + ∑ r : Fin 2000, v (ix2 r k) * v (ix2 r k) := by
  unfold k0_pay1
  simp only [addf_apply, shapeCast_self]
  exact congrArg (acc (ix2 u k) + ·) (colsum0_apply _ _ _ u k)

/-- The row the first point resets the column sums to is zero. -/
theorem pay2_apply (i : S1x128.Idx) : k0_pay2 (F := Ideal) i = 0 := by
  unfold k0_pay2
  simp only [broadcast_apply, Scalar.ofBits, Ideal.ofBits_zero_f32]

/-- The row the first point resets the sums of squares to is zero. -/
theorem pay3_apply (i : S1x128.Idx) : k0_pay3 (F := Ideal) i = 0 := by
  unfold k0_pay3
  simp only [broadcast_apply, Scalar.ofBits, Ideal.ofBits_zero_f32]

/-! ## A block as rows of the layer -/

/-- A block whose two inputs are rows a … a + 1999 of two arrays, and whose weights and biases are the given ones, is
    rows a … a + 1999 of the layer. -/
theorem blk_of (X A : Mat 50000 128) (W1 : Mat 128 128) (B1 : Mat 1 128) (W2 : Mat 128 128) (B2 : Mat 1 128)
    (x0 x1 : Vec Ideal S2000x128 .f32) (x2 : Vec Ideal S128x128 .f32) (x3 : Vec Ideal S1x128 .f32)
    (x4 : Vec Ideal S128x128 .f32) (x5 : Vec Ideal S1x128 .f32) (a : ℕ) (hlt : ∀ r : Fin 2000, a + r.val < 50000)
    (h0 : ∀ (r : Fin 2000) (l : Fin 128), x0 (ix2 r l) = X (ix2 ⟨a + r.val, hlt r⟩ l))
    (h1 : ∀ (r : Fin 2000) (l : Fin 128), x1 (ix2 r l) = A (ix2 ⟨a + r.val, hlt r⟩ l))
    (h2 : x2 = W1) (h3 : x3 = B1) (h4 : x4 = W2) (h5 : x5 = B2) (r : Fin 2000) (k : Fin 128) :
    k0_pay4 (F := Ideal) x0 x1 x2 x3 x4 x5 (ix2 r k)
      = rowsN (mlp (toFn X) (toFn A) (toFn W1) (fun k => B1 (ix2 0 k)) (toFn W2) (fun k => B2 (ix2 0 k))) (a + r.val) k := by
  subst h2 h3 h4 h5
  rw [rowsN_of_lt _ _ (hlt r)]
  refine (pay4_apply x0 x1 x2 x3 x4 x5 r k).trans ?_
  exact mlp_row (toFn x0) (toFn x1) (toFn X) (toFn A) (toFn x2) (fun k => x3 (ix2 0 k)) (toFn x4) (fun k => x5 (ix2 0 k))
    r ⟨a + r.val, hlt r⟩ k (fun l => h0 r l) (fun l => h1 r l)

end Cert.KernelIdeal.KValue.Reg0

end
-- ==== Proof.KReg0Inv.lean ====
/-
  The first accumulating region, point by point.

  The grid has 25 points; point t reads rows 2000·t … 2000·t + 1999 of the two input arrays and the whole weight and bias
  arrays.  Each point stores the two dense maps of its rows as a block of the output.  Two one-row outputs are carried
  from point to point: the first point sets them to zero, and every point adds to them the sum over its 2000 rows of the
  block's columns, and of the squares of the block's columns.  So after point n the block is rows 2000·n … of the layer,
  and the carried rows are the column sums and sums of squares over the first 2000·(n + 1) rows.
-/
import proofs.«147710_j68719477376_1_alg».proof.Proof.FrameKI
import proofs.«147710_j68719477376_1_alg».proof.Proof.SpecAt
import proofs.«147710_j68719477376_1_alg».proof.Proof.KPay0
import proofs.«147710_j68719477376_1_alg».proof.Proof.KRegLib
import Idealize.ShloMosaic.Lib.Pipeline.Value
import Idealize.ShloMosaic.Lib.Tactic

noncomputable section

namespace Cert.KernelIdeal.KValue.Reg0

open Cert.KernelIdeal Cert.KernelIdeal.Gen Cert.KernelIdeal.GenP Cert.KernelIdeal.KValue.RegLib Cert.GinSpec Idealize.ShloMosaic Idealize.ShloMosaic.ValueIdx Idealize.ShloMosaic.TcCoe Idealize.SL.Sem
open Idealize.ShloMosaic.Pipeline (Dat)

variable {F : FTy → Type} [FloatOps F]

/-! ## What one run of the body leaves, as a term of the blocks it read -/

/-- A later point leaves in the block of the output the two dense maps of its input blocks. -/
theorem out0B6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S2000x128 .f32) (x1 : Vec F S2000x128 .f32) (x2 : Vec F S128x128 .f32) (x3 : Vec F S1x128 .f32) (x4 : Vec F S128x128 .f32) (x5 : Vec F S1x128 .f32) (xo7 xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-- A later point adds the column sums of its block to the row carried from the point before. -/
theorem out0B7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S2000x128 .f32) (x1 : Vec F S2000x128 .f32) (x2 : Vec F S128x128 .f32) (x3 : Vec F S1x128 .f32) (x4 : Vec F S128x128 .f32) (x5 : Vec F S1x128 .f32) (xo7 xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-- A later point adds the column sums of squares of its block to the row carried from the point before. -/
theorem out0B8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S2000x128 .f32) (x1 : Vec F S2000x128 .f32) (x2 : Vec F S128x128 .f32) (x3 : Vec F S1x128 .f32) (x4 : Vec F S128x128 .f32) (x5 : Vec F S1x128 .f32) (xo7 xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-- The first point leaves in the block of the output the two dense maps of its input blocks. -/
theorem out0A6 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S2000x128 .f32) (x1 : Vec F S2000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-- The first point resets the row of column sums to zero, reads it back and adds the column sums of its block. -/
theorem out0A7 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S2000x128 .f32) (x1 : Vec F S2000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 k0_pay2 := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-- The first point resets the row of sums of squares to zero, reads it back and adds those of its block. -/
theorem out0A8 (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S2000x128 .f32) (x1 : Vec F S2000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2]

/-- The layer before normalisation, as a function of a row and a column. -/
abbrev Cm (X A : Mat 50000 128) (W1 : Mat 128 128) (B1 : Mat 1 128) (W2 : Mat 128 128) (B2 : Mat 1 128) :
    Fin 50000 → Fin 128 → EReal :=
  mlp (toFn X) (toFn A) (toFn W1) (fun k => B1 (ix2 0 k)) (toFn W2) (fun k => B2 (ix2 0 k))

/-- One point of the grid, over the blocks it reads: if the two input blocks are rows a … a + 1999 of the two arrays,
    the weights and biases are the given ones, and the two carried rows hold the column sums and sums of squares over
    the first `a` rows, then the stored block is rows a … a + 1999 of the layer and the carried rows hold the sums over
    the first a + 2000 rows. -/
theorem step_of (X A : Mat 50000 128) (W1 : Mat 128 128) (B1 : Mat 1 128) (W2 : Mat 128 128) (B2 : Mat 1 128)
    (x0 x1 : Vec Ideal S2000x128 .f32) (x2 : Vec Ideal S128x128 .f32) (x3 : Vec Ideal S1x128 .f32)
    (x4 : Vec Ideal S128x128 .f32) (x5 : Vec Ideal S1x128 .f32) (xo7 xo8 : Vec Ideal S1x128 .f32)
    (a : ℕ) (hlt : ∀ r : Fin 2000, a + r.val < 50000)
    (h0 : ∀ (r : Fin 2000) (l : Fin 128), x0 (ix2 r l) = X (ix2 ⟨a + r.val, hlt r⟩ l))
    (h1 : ∀ (r : Fin 2000) (l : Fin 128), x1 (ix2 r l) = A (ix2 ⟨a + r.val, hlt r⟩ l))
    (h2 : x2 = W1) (h3 : x3 = B1) (h4 : x4 = W2) (h5 : x5 = B2)
    (h7 : ∀ (u : Fin 1) (k : Fin 128), xo7 (ix2 u k) = ∑ r ∈ Finset.range a, rowsN (Cm X A W1 B1 W2 B2) r k)
    (h8 : ∀ (u : Fin 1) (k : Fin 128), xo8 (ix2 u k) = ∑ r ∈ Finset.range a, rowsN (Cm X A W1 B1 W2 B2) r k * rowsN (Cm X A W1 B1 W2 B2) r k) :
    (∀ (r : Fin 2000) (k : Fin 128), k0_pay4 (F := Ideal) x0 x1 x2 x3 x4 x5 (ix2 r k) = rowsN (Cm X A W1 B1 W2 B2) (a + r.val) k)
    ∧ (∀ (u : Fin 1) (k : Fin 128), k0_pay5 (F := Ideal) x0 x1 x2 x3 x4 x5 xo7 (ix2 u k)
        = ∑ r ∈ Finset.range (a + 2000), rowsN (Cm X A W1 B1 W2 B2) r k)
    ∧ (∀ (u : Fin 1) (k : Fin 128), k0_pay1 (F := Ideal) (k0_pay4 (F := Ideal) x0 x1 x2 x3 x4 x5) xo8 (ix2 u k)
        = ∑ r ∈ Finset.range (a + 2000), rowsN (Cm X A W1 B1 W2 B2) r k * rowsN (Cm X A W1 B1 W2 B2) r k) := by
  have hb := blk_of X A W1 B1 W2 B2 x0 x1 x2 x3 x4 x5 a hlt h0 h1 h2 h3 h4 h5
  refine ⟨hb, fun u k => ?_, fun u k => ?_⟩
  · rw [pay5_apply]
    exact sum_step (fun r => rowsN (Cm X A W1 B1 W2 B2) r k) a _ _ (h7 u k) (fun r => hb r k)
  · rw [pay1_apply]
    exact sum_step (fun r => rowsN (Cm X A W1 B1 W2 B2) r k * rowsN (Cm X A W1 B1 W2 B2) r k) a _ _ (h8 u k)
      (fun r => by rw [hb r k])

/-! ## The region at the ideal values -/

section AtIdeal

variable (V : (c : Dev nD) → (b : Ref sig .tc) → Buf (Elt Ideal) ((c : Thread nD τ).loc b)) (c : Dev nD)
  (X A : Mat 50000 128) (W1 : Mat 128 128) (B1 : Mat 1 128) (W2 : Mat 128 128) (B2 : Mat 1 128)
  (hX : V c (Pipeline.arrRef spec0 0) = X) (hA : V c (Pipeline.arrRef spec0 1) = A) (hW1 : V c (Pipeline.arrRef spec0 2) = W1)
  (hB1 : V c (Pipeline.arrRef spec0 3) = B1) (hW2 : V c (Pipeline.arrRef spec0 4) = W2) (hB2 : V c (Pipeline.arrRef spec0 5) = B2)

/-- The printed index maps over the grid: the row-blocked windows move one block per point, the others stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

include hX in
/-- The first input's block at point t is rows 2000·t … 2000·t + 1999 of its array. -/
theorem iblk0_0_apply (t : Fin cfg0.N) (r : Fin 2000) (l : Fin 128) (R : Fin 50000) (hR : R.val = t.val * 2000 + r.val) :
    (iblk0 V c 0 t : Vec Ideal S2000x128 .f32) (ix2 r l) = X (ix2 R l) := by
  obtain ⟨e0, e1, -⟩ := idx0 t
  unfold iblk0
  rw [View.read_apply]
  refine (congrFun hX _).trans (congrArg X (funext fun a => Fin.ext ?_))
  match a with
  | ⟨0, _⟩ => show win0_0.index t 0 * 2000 + 1 * r.val = R.val; rw [e0, hR]; omega
  | ⟨1, _⟩ => show win0_0.index t 1 * 128 + 1 * l.val = l.val; rw [e1]; omega

include hA in
/-- The second input's block at point t is rows 2000·t … 2000·t + 1999 of its array. -/
theorem iblk0_1_apply (t : Fin cfg0.N) (r : Fin 2000) (l : Fin 128) (R : Fin 50000) (hR : R.val = t.val * 2000 + r.val) :
    (iblk0 V c 1 t : Vec Ideal S2000x128 .f32) (ix2 r l) = A (ix2 R l) := by
  obtain ⟨-, -, e0, e1, -⟩ := idx0 t
  unfold iblk0
  rw [View.read_apply]
  refine (congrFun hA _).trans (congrArg A (funext fun a => Fin.ext ?_))
  match a with
  | ⟨0, _⟩ => show win0_1.index t 0 * 2000 + 1 * r.val = R.val; rw [e0, hR]; omega
  | ⟨1, _⟩ => show win0_1.index t 1 * 128 + 1 * l.val = l.val; rw [e1]; omega

include hW1 in
/-- Window 2's one block is its whole array at every point. -/
theorem iblk0_2_eq (t : Fin cfg0.N) : (iblk0 V c 2 t : Vec Ideal S128x128 .f32) = W1 := by
  obtain ⟨-, -, -, -, e20, e21, e30, e31, e40, e41, e50, e51, -⟩ := idx0 t
  funext y
  unfold iblk0
  rw [View.read_apply]
  refine (congrFun hW1 _).trans (congrArg W1 (funext fun a => Fin.ext ?_))
  match a with
  | ⟨0, _⟩ => show win0_2.index t 0 * 128 + 1 * (y 0).val = (y 0).val; rw [e20]; omega
  | ⟨1, _⟩ => show win0_2.index t 1 * 128 + 1 * (y 1).val = (y 1).val; rw [e21]; omega

include hB1 in
/-- Window 3's one block is its whole array at every point. -/
theorem iblk0_3_eq (t : Fin cfg0.N) : (iblk0 V c 3 t : Vec Ideal S1x128 .f32) = B1 := by
  obtain ⟨-, -, -, -, e20, e21, e30, e31, e40, e41, e50, e51, -⟩ := idx0 t
  funext y
  unfold iblk0
  rw [View.read_apply]
  refine (congrFun hB1 _).trans (congrArg B1 (funext fun a => Fin.ext ?_))
  match a with
  | ⟨0, _⟩ => show win0_3.index t 0 * 1 + 1 * (y 0).val = (y 0).val; rw [e30]; omega
  | ⟨1, _⟩ => show win0_3.index t 1 * 128 + 1 * (y 1).val = (y 1).val; rw [e31]; omega

include hW2 in
/-- Window 4's one block is its whole array at every point. -/
theorem iblk0_4_eq (t : Fin cfg0.N) : (iblk0 V c 4 t : Vec Ideal S128x128 .f32) = W2 := by
  obtain ⟨-, -, -, -, e20, e21, e30, e31, e40, e41, e50, e51, -⟩ := idx0 t
  funext y
  unfold iblk0
  rw [View.read_apply]
  refine (congrFun hW2 _).trans (congrArg W2 (funext fun a => Fin.ext ?_))
  match a with
  | ⟨0, _⟩ => show win0_4.index t 0 * 128 + 1 * (y 0).val = (y 0).val; rw [e40]; omega
  | ⟨1, _⟩ => show win0_4.index t 1 * 128 + 1 * (y 1).val = (y 1).val; rw [e41]; omega

include hB2 in
/-- Window 5's one block is its whole array at every point. -/
theorem iblk0_5_eq (t : Fin cfg0.N) : (iblk0 V c 5 t : Vec Ideal S1x128 .f32) = B2 := by
  obtain ⟨-, -, -, -, e20, e21, e30, e31, e40, e41, e50, e51, -⟩ := idx0 t
  funext y
  unfold iblk0
  rw [View.read_apply]
  refine (congrFun hB2 _).trans (congrArg B2 (funext fun a => Fin.ext ?_))
  match a with
  | ⟨0, _⟩ => show win0_5.index t 0 * 1 + 1 * (y 0).val = (y 0).val; rw [e50]; omega
  | ⟨1, _⟩ => show win0_5.index t 1 * 128 + 1 * (y 1).val = (y 1).val; rw [e51]; omega

include hX hA hW1 hB1 hW2 hB2 in
/-- What the three outputs' buffers hold after point n: the block is rows 2000·n … 2000·n + 1999 of the layer, the two
    carried rows are the column sums and sums of squares over the first 2000·(n + 1) rows — by induction on the point. -/
theorem outsAt0_eq : ∀ (n : ℕ) (h : n < cfg0.N),
    (∀ (r : Fin 2000) (k : Fin 128), (outsAt0 V c n h).1 (ix2 r k) = rowsN (Cm X A W1 B1 W2 B2) (n * 2000 + r.val) k)
    ∧ (∀ (u : Fin 1) (k : Fin 128), (outsAt0 V c n h).2.1 (ix2 u k)
        = ∑ r ∈ Finset.range ((n + 1) * 2000), rowsN (Cm X A W1 B1 W2 B2) r k)
    ∧ (∀ (u : Fin 1) (k : Fin 128), (outsAt0 V c n h).2.2 (ix2 u k)
        = ∑ r ∈ Finset.range ((n + 1) * 2000), rowsN (Cm X A W1 B1 W2 B2) r k * rowsN (Cm X A W1 B1 W2 B2) r k)
  | 0, h => by
    have hN : cfg0.N = 25 := N_0
    rw [outsAt0_A V c ⟨0, h⟩ rfl]
    dsimp only
    rw [out0A6, out0A7, out0A8]
    have e : (0 + 1) * 2000 = 0 * 2000 + 2000 := by omega
    rw [e]
    exact step_of X A W1 B1 W2 B2 _ _ _ _ _ _ _ _ (0 * 2000) (fun r => by have := r.isLt; omega)
      (fun r l => iblk0_0_apply V c X hX ⟨0, h⟩ r l _ rfl) (fun r l => iblk0_1_apply V c A hA ⟨0, h⟩ r l _ rfl)
      (iblk0_2_eq V c W1 hW1 ⟨0, h⟩) (iblk0_3_eq V c B1 hB1 ⟨0, h⟩) (iblk0_4_eq V c W2 hW2 ⟨0, h⟩) (iblk0_5_eq V c B2 hB2 ⟨0, h⟩)
      (fun u k => by rw [pay2_apply]; simp) (fun u k => by rw [pay3_apply]; simp)
  | n + 1, h => by
    have hN : cfg0.N = 25 := N_0
    have hB : ¬(⟨n + 1, h⟩ : Fin cfg0.N).val % 25 = 0 := by dsimp only; omega
    obtain ⟨-, ih7, ih8⟩ := outsAt0_eq n (Nat.lt_of_succ_lt h)
    rw [outsAt0_B V c ⟨n + 1, h⟩ hB]
    dsimp only
    rw [out0B6, out0B7, out0B8]
    have e : (n + 1 + 1) * 2000 = (n + 1) * 2000 + 2000 := by omega
    rw [e]
    exact step_of X A W1 B1 W2 B2 _ _ _ _ _ _ _ _ ((n + 1) * 2000) (fun r => by have := r.isLt; omega)
      (fun r l => iblk0_0_apply V c X hX ⟨n + 1, h⟩ r l _ rfl) (fun r l => iblk0_1_apply V c A hA ⟨n + 1, h⟩ r l _ rfl)
      (iblk0_2_eq V c W1 hW1 ⟨n + 1, h⟩) (iblk0_3_eq V c B1 hB1 ⟨n + 1, h⟩) (iblk0_4_eq V c W2 hW2 ⟨n + 1, h⟩) (iblk0_5_eq V c B2 hB2 ⟨n + 1, h⟩)
      ih7 ih8

end AtIdeal

end Cert.KernelIdeal.KValue.Reg0

end
-- ==== Proof.KReg0.lean ====
/-
  The first accumulating region, as arrays after its run.

  Point t writes block t of the output back, rows 2000·t … 2000·t + 1999 of the layer, and every row of the output lies
  in exactly the block its row number divided by 2000 names: so the output array ends holding the layer.  The two
  one-row outputs keep block index (0, 0) throughout and are written back once, after the last point, when they hold the
  sums over all 25 · 2000 = 50000 rows: the column sums and the column sums of squares of the layer.
-/
import proofs.«147710_j68719477376_1_alg».proof.Proof.KReg0Inv

noncomputable section

namespace Cert.KernelIdeal.KValue.Reg0

open Cert.KernelIdeal Cert.KernelIdeal.Gen Cert.KernelIdeal.GenP Cert.KernelIdeal.KValue.RegLib Cert.GinSpec Idealize.ShloMosaic Idealize.ShloMosaic.ValueIdx Idealize.ShloMosaic.TcCoe Idealize.SL.Sem
open Idealize.ShloMosaic.Pipeline (Dat)

section AtIdeal

variable (V : (c : Dev nD) → (b : Ref sig .tc) → Buf (Elt Ideal) ((c : Thread nD τ).loc b)) (c : Dev nD)
  (X A : Mat 50000 128) (W1 : Mat 128 128) (B1 : Mat 1 128) (W2 : Mat 128 128) (B2 : Mat 1 128)
  (hX : V c (Pipeline.arrRef spec0 0) = X) (hA : V c (Pipeline.arrRef spec0 1) = A) (hW1 : V c (Pipeline.arrRef spec0 2) = W1)
  (hB1 : V c (Pipeline.arrRef spec0 3) = B1) (hW2 : V c (Pipeline.arrRef spec0 4) = W2) (hB2 : V c (Pipeline.arrRef spec0 5) = B2)

include hX hA hW1 hB1 hW2 hB2 in
/-- What point t writes back of the output is block t of the layer: rows 2000·t … 2000·t + 1999. -/
theorem flushed0_6_eq (t : Fin cfg0.N) :
    (dat0 (F := Ideal) V c).flushed 6 t = ((cfg0.win 6).blk t).view.read (Elt Ideal) (ofFn (Cm X A W1 B1 W2 B2)) := by
  have hN : t.val < 25 := lt_of_lt_of_eq t.isLt (show cfg0.N = 25 from N_0)
  obtain ⟨e00, e01, e10, e11, e20, e21, e30, e31, e40, e41, e50, e51, e60, e61, e70, e71, e80, e81⟩ := idx0 t
  show (cfg0.win 6).cut (grid0.coords t) ((dat0 V c).after 6 t) = _
  rw [after0_6]
  have hc := (outsAt0_eq V c X A W1 B1 W2 B2 hX hA hW1 hB1 hW2 hB2 t.val t.isLt).1
  generalize (outsAt0 (F := Ideal) V c t.val t.isLt).1 = blk at hc ⊢
  funext y
  obtain ⟨r, k, rfl⟩ : ∃ (r : Fin 2000) (k : Fin 128), y = ix2 r k := ⟨y 0, y 1, eq_ix2 y⟩
  have hlt : t.val * 2000 + r.val < 50000 := by have := r.isLt; omega
  have hemb : ((cfg0.win 6).blk t).view.emb (ix2 r k) = (ix2 (⟨t.val * 2000 + r.val, hlt⟩ : Fin 50000) k : S50000x128.Idx) :=
    funext fun a => Fin.ext (by
      match a with
      | ⟨0, _⟩ => show win0_6.index t (0 : Fin 2) * 2000 + 1 * r.val = t.val * 2000 + r.val; rw [e60]; omega
      | ⟨1, _⟩ => show win0_6.index t (1 : Fin 2) * 128 + 1 * k.val = k.val; rw [e61]; omega)
  show blk (ix2 r k) = ofFn (Cm X A W1 B1 W2 B2) (((cfg0.win 6).blk t).view.emb (ix2 r k))
  rw [hemb]
  refine (hc r k).trans ?_
  exact rowsN_of_lt _ _ hlt k

/-- An index lies in point t's block of window 6 iff each coordinate lies in the block's range on its axis. -/
theorem mem_blk0_6 (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v16_0).slice (win0_6.rect t)).set ↔ _
  rw [View.set_slice_whole, Rect.mem_set_unit]
  exact Iff.rfl

/-- Every row of the output lies in the block of the point its row number divided by 2000 names. -/
theorem cover0_6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have hq : (i 0).val / 2000 < cfg0.N := by rw [hN]; omega
  obtain ⟨e00, e01, e10, e11, e20, e21, e30, e31, e40, e41, e50, e51, e60, e61, e70, e71, e80, e81⟩ := idx0 ⟨(i 0).val / 2000, hq⟩
  refine ⟨⟨(i 0).val / 2000, hq⟩, flush0_6 _, ?_⟩
  rw [mem_blk0_6]
  intro a
  match a with
  | ⟨0, _⟩ =>
    show win0_6.index ⟨(i 0).val / 2000, hq⟩ (0 : Fin 2) * 2000 ≤ (i 0).val
      ∧ (i 0).val < win0_6.index ⟨(i 0).val / 2000, hq⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, hq⟩ (1 : Fin 2) * 128 ≤ (i 1).val
      ∧ (i 1).val < win0_6.index ⟨(i 0).val / 2000, hq⟩ (1 : Fin 2) * 128 + 128
    rw [e61]; omega

/-- The block of the one-row window 7, read through the window at any point, is the array itself. -/
theorem read_blk0_7 (t : Fin cfg0.N) (G : Mat 1 128) (u : Fin 1) (k : Fin 128) :
    ((cfg0.win 7).blk t).view.read (Elt Ideal) G (ix2 u k) = G (ix2 u k) := by
  obtain ⟨e00, e01, e10, e11, e20, e21, e30, e31, e40, e41, e50, e51, e60, e61, e70, e71, e80, e81⟩ := idx0 t
  have hemb : ((cfg0.win 7).blk t).view.emb (ix2 u k) = (ix2 u k : S1x128.Idx) := by
    funext a; apply Fin.ext
    match a with
    | ⟨0, _⟩ => show win0_7.index t (0 : Fin 2) * 1 + 1 * u.val = u.val; rw [e70]; omega
    | ⟨1, _⟩ => show win0_7.index t (1 : Fin 2) * 128 + 1 * k.val = k.val; rw [e71]; omega
  show G (((cfg0.win 7).blk t).view.emb (ix2 u k)) = G (ix2 u k)
  rw [hemb]

include hX hA hW1 hB1 hW2 hB2 in
/-- Window 7 is written back once, after the last point, when its row holds the sum over all 50000 rows. -/
theorem flushed0_7_eq (t : Fin cfg0.N) (hf : (cfg0.win 7).flush t = true) :
    (dat0 (F := Ideal) V c).flushed 7 t
      = ((cfg0.win 7).blk t).view.read (Elt Ideal) (fun i => colSum (Cm X A W1 B1 W2 B2) (i 1)) := by
  have hN : cfg0.N = 25 := N_0
  have h24 : (t.val + 1) * 2000 = 50000 := by have := (flush0_7 t).mp hf; have := t.isLt; omega
  show (cfg0.win 7).cut (grid0.coords t) ((dat0 V c).after 7 t) = _
  rw [after0_7]
  have hc := (outsAt0_eq V c X A W1 B1 W2 B2 hX hA hW1 hB1 hW2 hB2 t.val t.isLt).2.1
  generalize (outsAt0 (F := Ideal) V c t.val t.isLt).2.1 = acc at hc ⊢
  funext y
  obtain ⟨u, k, rfl⟩ : ∃ (u : Fin 1) (k : Fin 128), y = ix2 u k := ⟨y 0, y 1, eq_ix2 y⟩
  refine Eq.trans ?_ (read_blk0_7 t (fun i => colSum (Cm X A W1 B1 W2 B2) (i 1)) u k).symm
  show acc (ix2 u k) = colSum (Cm X A W1 B1 W2 B2) k
  refine (hc u k).trans ?_
  rw [h24]
  unfold colSum
  exact (sum_rowsN (Cm X A W1 B1 W2 B2) k).symm

/-- An index lies in point t's block of window 7 iff each coordinate lies in the block's range on its axis. -/
theorem mem_blk0_7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v16_1).slice (win0_7.rect t)).set ↔ _
  rw [View.set_slice_whole, Rect.mem_set_unit]
  exact Iff.rfl

/-- The last point's block of window 7 is its whole one-row array. -/
theorem cover0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 25 := N_0
  have hq : 24 < cfg0.N := by rw [hN]; omega
  obtain ⟨e00, e01, e10, e11, e20, e21, e30, e31, e40, e41, e50, e51, e60, e61, e70, e71, e80, e81⟩ := idx0 ⟨24, hq⟩
  refine ⟨⟨24, hq⟩, (flush0_7 _).mpr rfl, ?_⟩
  rw [mem_blk0_7]
  intro a
  match a with
  | ⟨0, _⟩ =>
    show win0_7.index ⟨24, hq⟩ (0 : Fin 2) * 1 ≤ (i 0).val ∧ (i 0).val < win0_7.index ⟨24, hq⟩ (0 : Fin 2) * 1 + 1
    rw [e70]; omega
  | ⟨1, _⟩ =>
    show win0_7.index ⟨24, hq⟩ (1 : Fin 2) * 128 ≤ (i 1).val ∧ (i 1).val < win0_7.index ⟨24, hq⟩ (1 : Fin 2) * 128 + 128
    rw [e71]; omega

/-- The block of the one-row window 8, read through the window at any point, is the array itself. -/
theorem read_blk0_8 (t : Fin cfg0.N) (G : Mat 1 128) (u : Fin 1) (k : Fin 128) :
    ((cfg0.win 8).blk t).view.read (Elt Ideal) G (ix2 u k) = G (ix2 u k) := by
  obtain ⟨e00, e01, e10, e11, e20, e21, e30, e31, e40, e41, e50, e51, e60, e61, e70, e71, e80, e81⟩ := idx0 t
  have hemb : ((cfg0.win 8).blk t).view.emb (ix2 u k) = (ix2 u k : S1x128.Idx) := by
    funext a; apply Fin.ext
    match a with
    | ⟨0, _⟩ => show win0_8.index t (0 : Fin 2) * 1 + 1 * u.val = u.val; rw [e80]; omega
    | ⟨1, _⟩ => show win0_8.index t (1 : Fin 2) * 128 + 1 * k.val = k.val; rw [e81]; omega
  show G (((cfg0.win 8).blk t).view.emb (ix2 u k)) = G (ix2 u k)
  rw [hemb]

include hX hA hW1 hB1 hW2 hB2 in
/-- Window 8 is written back once, after the last point, when its row holds the sum over all 50000 rows. -/
theorem flushed0_8_eq (t : Fin cfg0.N) (hf : (cfg0.win 8).flush t = true) :
    (dat0 (F := Ideal) V c).flushed 8 t
      = ((cfg0.win 8).blk t).view.read (Elt Ideal) (fun i => colSumSq (Cm X A W1 B1 W2 B2) (i 1)) := by
  have hN : cfg0.N = 25 := N_0
  have h24 : (t.val + 1) * 2000 = 50000 := by have := (flush0_8 t).mp hf; have := t.isLt; omega
  show (cfg0.win 8).cut (grid0.coords t) ((dat0 V c).after 8 t) = _
  rw [after0_8]
  have hc := (outsAt0_eq V c X A W1 B1 W2 B2 hX hA hW1 hB1 hW2 hB2 t.val t.isLt).2.2
  generalize (outsAt0 (F := Ideal) V c t.val t.isLt).2.2 = acc at hc ⊢
  funext y
  obtain ⟨u, k, rfl⟩ : ∃ (u : Fin 1) (k : Fin 128), y = ix2 u k := ⟨y 0, y 1, eq_ix2 y⟩
  refine Eq.trans ?_ (read_blk0_8 t (fun i => colSumSq (Cm X A W1 B1 W2 B2) (i 1)) u k).symm
  show acc (ix2 u k) = colSumSq (Cm X A W1 B1 W2 B2) k
  refine (hc u k).trans ?_
  rw [h24]
  unfold colSumSq
  exact (sum_sq_rowsN (Cm X A W1 B1 W2 B2) k).symm

/-- An index lies in point t's block of window 8 iff each coordinate lies in the block's range on its axis. -/
theorem mem_blk0_8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v16_2).slice (win0_8.rect t)).set ↔ _
  rw [View.set_slice_whole, Rect.mem_set_unit]
  exact Iff.rfl

/-- The last point's block of window 8 is its whole one-row array. -/
theorem cover0_8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 25 := N_0
  have hq : 24 < cfg0.N := by rw [hN]; omega
  obtain ⟨e00, e01, e10, e11, e20, e21, e30, e31, e40, e41, e50, e51, e60, e61, e70, e71, e80, e81⟩ := idx0 ⟨24, hq⟩
  refine ⟨⟨24, hq⟩, (flush0_8 _).mpr rfl, ?_⟩
  rw [mem_blk0_8]
  intro a
  match a with
  | ⟨0, _⟩ =>
    show win0_8.index ⟨24, hq⟩ (0 : Fin 2) * 1 ≤ (i 0).val ∧ (i 0).val < win0_8.index ⟨24, hq⟩ (0 : Fin 2) * 1 + 1
    rw [e80]; omega
  | ⟨1, _⟩ =>
    show win0_8.index ⟨24, hq⟩ (1 : Fin 2) * 128 ≤ (i 1).val ∧ (i 1).val < win0_8.index ⟨24, hq⟩ (1 : Fin 2) * 128 + 128
    rw [e81]; omega

end AtIdeal

end Cert.KernelIdeal.KValue.Reg0

namespace Cert.KernelIdeal.KValue

open Cert.KernelIdeal Cert.KernelIdeal.Gen Cert.KernelIdeal.GenP Cert.KernelIdeal.KValue.RegLib Cert.GinSpec Idealize.ShloMosaic Idealize.ShloMosaic.ValueIdx Idealize.ShloMosaic.TcCoe Idealize.SL.Sem
open Idealize.ShloMosaic.Pipeline (Dat)
open Cert.KernelIdeal.KValue.Reg0

section Finals

variable (V : (c : Dev nD) → (b : Ref sig .tc) → Buf (Elt Ideal) ((c : Thread nD τ).loc b)) (c : Dev nD)
  (X A : Mat 50000 128) (W1 : Mat 128 128) (B1 : Mat 1 128) (W2 : Mat 128 128) (B2 : Mat 1 128)
  (hX : V c (Pipeline.arrRef spec0 0) = X) (hA : V c (Pipeline.arrRef spec0 1) = A) (hW1 : V c (Pipeline.arrRef spec0 2) = W1)
  (hB1 : V c (Pipeline.arrRef spec0 3) = B1) (hW2 : V c (Pipeline.arrRef spec0 4) = W2) (hB2 : V c (Pipeline.arrRef spec0 5) = B2)

include hX hA hW1 hB1 hW2 hB2 in
/-- After the first accumulating region the output array holds the layer before normalisation, -/
theorem reg0_final6 : (dat0 (F := Ideal) V c).arrAt 6 cfg0.N
    = ofFn (mlp (toFn X) (toFn A) (toFn W1) (fun k => B1 (ix2 0 k)) (toFn W2) (fun k => B2 (ix2 0 k))) :=
  (dat0 (F := Ideal) V c).arrAt_eq_of_cover 6 (ofFn (Cm X A W1 B1 W2 B2)) (fun t _ => flushed0_6_eq V c X A W1 B1 W2 B2 hX hA hW1 hB1 hW2 hB2 t) cover0_6

include hX hA hW1 hB1 hW2 hB2 in
/-- the second output the sum of each of its columns over all rows, -/
theorem reg0_final7 : (dat0 (F := Ideal) V c).arrAt 7 cfg0.N
    = fun i => colSum (mlp (toFn X) (toFn A) (toFn W1) (fun k => B1 (ix2 0 k)) (toFn W2) (fun k => B2 (ix2 0 k))) (i 1) :=
  (dat0 (F := Ideal) V c).arrAt_eq_of_cover 7 (fun i => colSum (Cm X A W1 B1 W2 B2) (i 1))
    (fun t hf => flushed0_7_eq V c X A W1 B1 W2 B2 hX hA hW1 hB1 hW2 hB2 t hf) cover0_7

include hX hA hW1 hB1 hW2 hB2 in
/-- and the third the sum of the squares of each of its columns. -/
theorem reg0_final8 : (dat0 (F := Ideal) V c).arrAt 8 cfg0.N
    = fun i => colSumSq (mlp (toFn X) (toFn A) (toFn W1) (fun k => B1 (ix2 0 k)) (toFn W2) (fun k => B2 (ix2 0 k))) (i 1) :=
  (dat0 (F := Ideal) V c).arrAt_eq_of_cover 8 (fun i => colSumSq (Cm X A W1 B1 W2 B2) (i 1))
    (fun t hf => flushed0_8_eq V c X A W1 B1 W2 B2 hX hA hW1 hB1 hW2 hB2 t hf) cover0_8

end Finals

end Cert.KernelIdeal.KValue

end
-- ==== Proof.KReg1.lean ====
/-
  Region 1 (the first normalisation): every grid point reads rows 2000·t … 2000·t + 1999 of a [50000,128] matrix and
  the four [1,128] rows (mean, variance, scale, shift), and writes back the same rows of the result: entry (r, k) is
  (c r k − mean k) · rsqrt (var k + ε) · scale k + shift k.  The blocks written back tile the result array, so it ends
  holding the specification's `norm` of the matrix and the four rows.
-/
import proofs.«147710_j68719477376_1_alg».proof.Proof.FrameKI
import proofs.«147710_j68719477376_1_alg».proof.Proof.SpecAt
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Cert.KernelIdeal.GenP Cert.GinSpec Idealize.ShloMosaic Idealize.ShloMosaic.ValueIdx Idealize.ShloMosaic.TcCoe Idealize.SL.Sem
open Idealize.ShloMosaic.Pipeline (Dat)

namespace Reg1

/-- The zero offsets of a whole-block access, as a constant function. -/
theorem hz1 : (![0, 0] : Fin 2 → Nat) = fun _ => 0 := funext fun a => by fin_cases a <;> rfl

/-- The normalize body's stored value at row `r`, column `k` of the block: the block's entry minus the mean of
    column `k`, times `rsqrt` of that column's variance plus ε, times its scale, plus its shift; the four `[1,128]`
    rows are read at their one row. -/
theorem pay1_apply (v0 : Vec Ideal S1x128 .f32) (v5 : Vec Ideal S2000x128 .f32) (v7 v13 v17 : Vec Ideal S1x128 .f32)
    (r : Fin 2000) (k : Fin 128) :
    k1_pay1 (F := Ideal) v0 v5 v7 v13 v17 (ix2 r k)
      = (v5 (ix2 r k) - v7 (ix2 (0 : Fin 1) k)) * Ideal.rsqrt (v0 (ix2 (0 : Fin 1) k) + epsWord) * v13 (ix2 (0 : Fin 1) k)
        + v17 (ix2 (0 : Fin 1) k) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-- What the body leaves in the output block, entry by entry, from the five input blocks. -/
theorem out1_5_apply (x0 : Vec Ideal S2000x128 .f32) (x1 x2 x3 x4 : Vec Ideal S1x128 .f32) (r : Fin 2000) (k : Fin 128) :
    out1_5 (F := Ideal) x0 x1 x2 x3 x4 (ix2 r k)
      = (x0 (ix2 r k) - x1 (ix2 (0 : Fin 1) k)) * Ideal.rsqrt (x2 (ix2 (0 : Fin 1) k) + epsWord) * x3 (ix2 (0 : Fin 1) k)
        + x4 (ix2 (0 : Fin 1) k) := by
  unfold out1_5
  rw [View.canon_unit_zero hz1]
  simp only [View.ld_unit_zero (S := S2000x128) hz1, View.ld_unit_zero (S := S1x128) hz1]
  exact pay1_apply x2 x0 x1 x3 x4 r k

/-- The block indices over the grid: the matrix windows move one row block per point, the row windows stay. -/
theorem idx1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

variable (V : (c : Dev nD) → (b : Ref sig .tc) → Buf (Elt Ideal) ((c : Thread nD τ).loc b))

/-- Row `r` of the matrix window's block at point `t` is row `2000·t + r` of its array. -/
theorem iblk1_0_apply (c : Dev nD) (C : Mat 50000 128) (hC : V c (Pipeline.arrRef spec1 0) = C) (t : Fin cfg1.N)
    (r : Fin 2000) (k : Fin 128) (i : Fin 50000) (hi : i.val = 2000 * t.val + r.val) :
    (iblk1 V c 0 t : Vec Ideal S2000x128 .f32) (ix2 r k) = C (ix2 i k) := by
  subst hC
  unfold iblk1
  rw [View.read_apply]
  show V c (Pipeline.arrRef spec1 0) _ = V c (Pipeline.arrRef spec1 0) _
  refine congrArg (V c (Pipeline.arrRef spec1 0)) ?_
  funext a; apply Fin.ext
  match a with
  | ⟨0, _⟩ => show win1_0.index t (0 : Fin 2) * 2000 + 1 * r.val = i.val; rw [(idx1 t).1, hi]; omega
  | ⟨1, _⟩ => show win1_0.index t (1 : Fin 2) * 128 + 1 * k.val = k.val; rw [(idx1 t).2.1]; omega

/-- A `[1,128]` row window's block at any point is its whole array. -/
theorem iblk1_1_apply (c : Dev nD) (M : Mat 1 128) (hM : V c (Pipeline.arrRef spec1 1) = M) (t : Fin cfg1.N) (k : Fin 128) :
    (iblk1 V c 1 t : Vec Ideal S1x128 .f32) (ix2 (0 : Fin 1) k) = M (ix2 (0 : Fin 1) k) := by
  subst hM
  unfold iblk1
  rw [View.read_apply]
  show V c (Pipeline.arrRef spec1 1) _ = V c (Pipeline.arrRef spec1 1) _
  refine congrArg (V c (Pipeline.arrRef spec1 1)) ?_
  funext a; apply Fin.ext
  match a with
  | ⟨0, _⟩ => show win1_1.index t (0 : Fin 2) * 1 + 1 * 0 = 0; rw [(idx1 t).2.2.2.2.1]
  | ⟨1, _⟩ => show win1_1.index t (1 : Fin 2) * 128 + 1 * k.val = k.val; rw [(idx1 t).2.2.2.2.2.1]; omega

theorem iblk1_2_apply (c : Dev nD) (M : Mat 1 128) (hM : V c (Pipeline.arrRef spec1 2) = M) (t : Fin cfg1.N) (k : Fin 128) :
    (iblk1 V c 2 t : Vec Ideal S1x128 .f32) (ix2 (0 : Fin 1) k) = M (ix2 (0 : Fin 1) k) := by
  subst hM
  unfold iblk1
  rw [View.read_apply]
  show V c (Pipeline.arrRef spec1 2) _ = V c (Pipeline.arrRef spec1 2) _
  refine congrArg (V c (Pipeline.arrRef spec1 2)) ?_
  funext a; apply Fin.ext
  match a with
  | ⟨0, _⟩ => show win1_2.index t (0 : Fin 2) * 1 + 1 * 0 = 0; rw [(idx1 t).2.2.2.2.2.2.1]
  | ⟨1, _⟩ => show win1_2.index t (1 : Fin 2) * 128 + 1 * k.val = k.val; rw [(idx1 t).2.2.2.2.2.2.2.1]; omega

theorem iblk1_3_apply (c : Dev nD) (M : Mat 1 128) (hM : V c (Pipeline.arrRef spec1 3) = M) (t : Fin cfg1.N) (k : Fin 128) :
    (iblk1 V c 3 t : Vec Ideal S1x128 .f32) (ix2 (0 : Fin 1) k) = M (ix2 (0 : Fin 1) k) := by
  subst hM
  unfold iblk1
  rw [View.read_apply]
  show V c (Pipeline.arrRef spec1 3) _ = V c (Pipeline.arrRef spec1 3) _
  refine congrArg (V c (Pipeline.arrRef spec1 3)) ?_
  funext a; apply Fin.ext
  match a with
  | ⟨0, _⟩ => show win1_3.index t (0 : Fin 2) * 1 + 1 * 0 = 0; rw [(idx1 t).2.2.2.2.2.2.2.2.1]
  | ⟨1, _⟩ => show win1_3.index t (1 : Fin 2) * 128 + 1 * k.val = k.val; rw [(idx1 t).2.2.2.2.2.2.2.2.2.1]; omega

theorem iblk1_4_apply (c : Dev nD) (M : Mat 1 128) (hM : V c (Pipeline.arrRef spec1 4) = M) (t : Fin cfg1.N) (k : Fin 128) :
    (iblk1 V c 4 t : Vec Ideal S1x128 .f32) (ix2 (0 : Fin 1) k) = M (ix2 (0 : Fin 1) k) := by
  subst hM
  unfold iblk1
  rw [View.read_apply]
  show V c (Pipeline.arrRef spec1 4) _ = V c (Pipeline.arrRef spec1 4) _
  refine congrArg (V c (Pipeline.arrRef spec1 4)) ?_
  funext a; apply Fin.ext
  match a with
  | ⟨0, _⟩ => show win1_4.index t (0 : Fin 2) * 1 + 1 * 0 = 0; rw [(idx1 t).2.2.2.2.2.2.2.2.2.2.1]
  | ⟨1, _⟩ => show win1_4.index t (1 : Fin 2) * 128 + 1 * k.val = k.val; rw [(idx1 t).2.2.2.2.2.2.2.2.2.2.2]; omega

/-- The normalized matrix: the specification's `norm` of the matrix and the four rows, as an array. -/
abbrev normed1 (C : Mat 50000 128) (M Vr G B : Mat 1 128) : Mat 50000 128 :=
  ofFn (norm epsWord (toFn C) (fun k => M (ix2 0 k)) (fun k => Vr (ix2 0 k)) (fun k => G (ix2 0 k)) (fun k => B (ix2 0 k)))

/-- What point `t` writes back is rows `2000·t … 2000·t + 1999` of the normalized matrix. -/
theorem flushed1_eq (c : Dev nD) (C : Mat 50000 128) (M Vr G B : Mat 1 128)
    (hC : V c (Pipeline.arrRef spec1 0) = C) (hM : V c (Pipeline.arrRef spec1 1) = M) (hV : V c (Pipeline.arrRef spec1 2) = Vr)
    (hG : V c (Pipeline.arrRef spec1 3) = G) (hB : V c (Pipeline.arrRef spec1 4) = B) (t : Fin cfg1.N) :
    (dat1 (F := Ideal) V c).flushed 5 t = ((cfg1.win 5).blk t).view.read (Elt Ideal) (normed1 C M Vr G B) := by
  show (cfg1.win 5).cut (grid1.coords t) ((dat1 V c).after 5 t) = _
  rw [after1_5]
  funext j
  obtain ⟨r, k, rfl⟩ : ∃ (r : Fin 2000) (k : Fin 128), j = ix2 r k := ⟨j 0, j 1, eq_ix2 j⟩
  have hN : cfg1.N = 25 := N_1
  have ht : t.val < 25 := hN ▸ t.isLt
  have hlt : 2000 * t.val + r.val < 50000 := by have := r.isLt; omega
  have hemb : ((cfg1.win 5).blk t).view.emb (ix2 r k) = (ix2 (⟨2000 * t.val + r.val, hlt⟩ : Fin 50000) k : S50000x128.Idx) := by
    funext a; apply Fin.ext
    match a with
    | ⟨0, _⟩ => show win1_5.index t (0 : Fin 2) * 2000 + 1 * r.val = 2000 * t.val + r.val; rw [(idx1 t).2.2.1]; omega
    | ⟨1, _⟩ => show win1_5.index t (1 : Fin 2) * 128 + 1 * k.val = k.val; rw [(idx1 t).2.2.2.1]; omega
  show out1_5 (F := Ideal) (iblk1 V c 0 t) (iblk1 V c 1 t) (iblk1 V c 2 t) (iblk1 V c 3 t) (iblk1 V c 4 t) (ix2 r k)
    = normed1 C M Vr G B (((cfg1.win 5).blk t).view.emb (ix2 r k))
  rw [hemb]
  refine (out1_5_apply (iblk1 V c 0 t) (iblk1 V c 1 t) (iblk1 V c 2 t) (iblk1 V c 3 t) (iblk1 V c 4 t) r k).trans ?_
  rw [iblk1_0_apply V c C hC t r k ⟨2000 * t.val + r.val, hlt⟩ rfl, iblk1_1_apply V c M hM t k, iblk1_2_apply V c Vr hV t k,
    iblk1_3_apply V c G hG t k, iblk1_4_apply V c B hB t k]
  rfl

/-- Membership in point `t`'s output block, axis by axis. -/
theorem mem_blk1_5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v29).slice (win1_5.rect t)).set ↔ _
  rw [View.set_slice_whole, Rect.mem_set_unit]
  exact Iff.rfl

/-- Row `i` of the output lies in the block of point `i / 2000`, which is written back. -/
theorem covered1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  have hq : (i 0).val / 2000 < cfg1.N := by rw [hN]; omega
  obtain ⟨-, -, e0, e1, -⟩ := idx1 ⟨(i 0).val / 2000, hq⟩
  refine ⟨⟨(i 0).val / 2000, hq⟩, flush1_5 _, ?_⟩
  rw [mem_blk1_5]
  intro a
  match a with
  | ⟨0, _⟩ =>
    show win1_5.index ⟨(i 0).val / 2000, hq⟩ (0 : Fin 2) * 2000 ≤ (i 0).val
      ∧ (i 0).val < win1_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hq⟩ (1 : Fin 2) * 128 ≤ (i 1).val
      ∧ (i 1).val < win1_5.index ⟨(i 0).val / 2000, hq⟩ (1 : Fin 2) * 128 + 128
    rw [e1]; omega

end Reg1

/-- THE REGION'S RESULT: the output array ends holding the normalized matrix. -/
theorem reg1_final (V : (c : Dev nD) → (b : Ref sig .tc) → Buf (Elt Ideal) ((c : Thread nD τ).loc b)) (c : Dev nD)
    (C : Mat 50000 128) (M Vr G B : Mat 1 128)
    (hC : V c (Pipeline.arrRef spec1 0) = C) (hM : V c (Pipeline.arrRef spec1 1) = M) (hV : V c (Pipeline.arrRef spec1 2) = Vr)
    (hG : V c (Pipeline.arrRef spec1 3) = G) (hB : V c (Pipeline.arrRef spec1 4) = B) :
    (dat1 (F := Ideal) V c).arrAt 5 cfg1.N
      = ofFn (norm epsWord (toFn C) (fun k => M (ix2 0 k)) (fun k => Vr (ix2 0 k)) (fun k => G (ix2 0 k)) (fun k => B (ix2 0 k))) :=
  (dat1 (F := Ideal) V c).arrAt_eq_of_cover 5 (Reg1.normed1 C M Vr G B)
    (fun t _ => Reg1.flushed1_eq V c C M Vr G B hC hM hV hG hB t) Reg1.covered1_5

end Cert.KernelIdeal.KValue

end
-- ==== Proof.KPay2.lean ====
/-
  The arithmetic of the accumulating body of the second layer, read at an index of the extended reals.

  One block of 2000 rows: the two inputs are added, multiplied by the first weight matrix (a product summed into zero),
  the first bias row is added and the result cut below at zero; the same again with the [128,2] weight matrix and the
  [1,2] bias.  At the ideal values a change of float format is the identity, so entry (r, k) of the block is the two
  dense maps of the specification applied to row r.  The two carried rows add to what they held the sum over the 2000
  rows of the block's column, and of the squares of the block's column.
-/
import proofs.«147710_j68719477376_1_alg».proof.Proof.Gen.KernelIdeal.Skeleton
import proofs.«147710_j68719477376_1_alg».proof.Proof.SpecAt
import proofs.«147710_j68719477376_1_alg».proof.Proof.KRegLib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue.Reg2

open Cert.KernelIdeal Cert.KernelIdeal.Gen Cert.KernelIdeal.KValue.RegLib Cert.GinSpec Idealize.ShloMosaic Idealize.ShloMosaic.ValueIdx

/-! ## The product of a block with a weight matrix, at an entry -/

theorem matmul2a_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem matmul2a_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem matmul2a_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem matmul2a_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block times a weight matrix, summed into zero: entry (r, k) is the sum over l of (r, l) times (l, k). -/
theorem matmul2a_apply {φ₁ φ₂ : FTy} (a : FVec Ideal S2000x128 φ₁) (b : FVec Ideal S128x128 φ₂) (r : Fin 2000) (k : Fin 128) :
    matmul dot_S2000x128_S128x128_S2000x128_1_0_0_1_n_n none a b (constant (F := Ideal) S2000x128 .f32 0x00000000#32) (ix2 r k)
      = ∑ l : Fin 128, a (ix2 r l) * b (ix2 l k) := by
  simp only [matmul]
  rw [Ideal.matmul_constant_zero_apply, ← Equiv.sum_comp (contrEquiv1 dot_S2000x128_S128x128_S2000x128_1_0_0_1_n_n 128 rfl rfl).symm]
  refine Finset.sum_congr rfl fun l _ => ?_
  have hl := contrEquiv1_symm_val dot_S2000x128_S128x128_S2000x128_1_0_0_1_n_n 128 rfl rfl l
  have el : dot_S2000x128_S128x128_S2000x128_1_0_0_1_n_n.lhsIdx (ix2 r k) ((contrEquiv1 dot_S2000x128_S128x128_S2000x128_1_0_0_1_n_n 128 rfl rfl).symm l) = ix2 r l := funext fun a => Fin.ext (by
    match a with
    | ⟨0, _⟩ => exact matmul2a_lhs_0 _ _
    | ⟨1, _⟩ => exact (matmul2a_lhs_1 _ _).trans hl)
  have er : dot_S2000x128_S128x128_S2000x128_1_0_0_1_n_n.rhsIdx (ix2 r k) ((contrEquiv1 dot_S2000x128_S128x128_S2000x128_1_0_0_1_n_n 128 rfl rfl).symm l) = ix2 l k := funext fun a => Fin.ext (by
    match a with
    | ⟨0, _⟩ => exact (matmul2a_rhs_0 _ _).trans hl
    | ⟨1, _⟩ => exact matmul2a_rhs_1 _ _)
  rw [el, er]

theorem matmul2b_lhs_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem matmul2b_lhs_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem matmul2b_rhs_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem matmul2b_rhs_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- A block times a weight matrix, summed into zero: entry (r, k) is the sum over l of (r, l) times (l, k). -/
theorem matmul2b_apply {φ₁ φ₂ : FTy} (a : FVec Ideal S2000x128 φ₁) (b : FVec Ideal S128x2 φ₂) (r : Fin 2000) (k : Fin 2) :
    matmul dot_S2000x128_S128x2_S2000x2_1_0_0_1_n_n none a b (constant (F := Ideal) S2000x2 .f32 0x00000000#32) (ix2 r k)
      = ∑ l : Fin 128, a (ix2 r l) * b (ix2 l k) := by
  simp only [matmul]
  rw [Ideal.matmul_constant_zero_apply, ← Equiv.sum_comp (contrEquiv1 dot_S2000x128_S128x2_S2000x2_1_0_0_1_n_n 128 rfl rfl).symm]
  refine Finset.sum_congr rfl fun l _ => ?_
  have hl := contrEquiv1_symm_val dot_S2000x128_S128x2_S2000x2_1_0_0_1_n_n 128 rfl rfl l
  have el : dot_S2000x128_S128x2_S2000x2_1_0_0_1_n_n.lhsIdx (ix2 r k) ((contrEquiv1 dot_S2000x128_S128x2_S2000x2_1_0_0_1_n_n 128 rfl rfl).symm l) = ix2 r l := funext fun a => Fin.ext (by
    match a with
    | ⟨0, _⟩ => exact matmul2b_lhs_0 _ _
    | ⟨1, _⟩ => exact (matmul2b_lhs_1 _ _).trans hl)
  have er : dot_S2000x128_S128x2_S2000x2_1_0_0_1_n_n.rhsIdx (ix2 r k) ((contrEquiv1 dot_S2000x128_S128x2_S2000x2_1_0_0_1_n_n 128 rfl rfl).symm l) = ix2 l k := funext fun a => Fin.ext (by
    match a with
    | ⟨0, _⟩ => exact (matmul2b_rhs_0 _ _).trans hl
    | ⟨1, _⟩ => exact matmul2b_rhs_1 _ _)
  rw [el, er]

/-! ## The sum of a block's column, as a row -/

/-- The sum over the rows of a block, kept as a one-row matrix: entry (0, k) is the sum of column k. -/
theorem colsum2_apply (v : FVec Ideal S2000x2 .f32) (hφ : FKind.Formats .f32)
    (hacc : (0x00000000#32 : BitVec 32) = FKind.add.neutral .f32 hφ) (u : Fin 1) (k : Fin 2) :
    shapeCast S1x2 (multiReduction .add [0] S2 v 0x00000000#32 reduces_S2000x2_S2 hφ hacc) shapeCasts_S2_S1x2 (ix2 u k)
      = ∑ r : Fin 2000, v (ix2 r k) := by
  refine (shapeCast_a_1a_apply _ shapeCasts_S2_S1x2 u k).trans ?_
  refine (Ideal.multiReduction_add_single v 0x00000000#32 reduces_S2000x2_S2 hφ hacc (ix1 k)).trans ?_
  show ∑ q : Fin 2000, v (reduces_S2000x2_S2.lift (ix1 k) q) = _
  refine Finset.sum_congr rfl fun q _ => congrArg v (funext fun a => Fin.ext ?_)
  match a with
  | ⟨0, _⟩ => rfl
  | ⟨1, _⟩ => rfl

/-! ## The block of the two dense maps, and the two carried rows -/

/-- Entry (r, k) of the block the body stores: the two dense maps of the specification on row r of the two inputs. -/
theorem pay4_apply (x0 x1 : Vec Ideal S2000x128 .f32) (w1 : Vec Ideal S128x128 .f32) (b1 : Vec Ideal S1x128 .f32)
    (w2 : Vec Ideal S128x2 .f32) (b2 : Vec Ideal S1x2 .f32) (r : Fin 2000) (k : Fin 2) :
    k2_pay4 (F := Ideal) x0 x1 w1 b1 w2 b2 (ix2 r k)
      = mlp (toFn x0) (toFn x1) (toFn w1) (fun k => b1 (ix2 0 k)) (toFn w2) (fun k => b2 (ix2 0 k)) r k := by
  unfold k2_pay4
  simp only [maximumf_apply, addf_apply, truncf_apply, broadcast_apply, shapeCast_self, broadcastTo_1b_ab_apply, matmul2a_apply,
    matmul2b_apply, Scalar.ofBits, Ideal.ofBits_zero_f32]
  rfl

/-- The carried row of column sums after a block: what it held plus the sum of the block's column. -/
theorem pay5_apply (x0 x1 : Vec Ideal S2000x128 .f32) (w1 : Vec Ideal S128x128 .f32) (b1 : Vec Ideal S1x128 .f32)
    (w2 : Vec Ideal S128x2 .f32) (b2 : Vec Ideal S1x2 .f32) (acc : Vec Ideal S1x2 .f32) (u : Fin 1) (k : Fin 2) :
    k2_pay5 (F := Ideal) x0 x1 w1 b1 w2 b2 acc (ix2 u k)
      = acc (ix2 u k) + ∑ r : Fin 2000, k2_pay4 (F := Ideal) x0 x1 w1 b1 w2 b2 (ix2 r k) := by
  unfold k2_pay5
  simp only [addf_apply, shapeCast_self]
  exact congrArg (acc (ix2 u k) + ·) (colsum2_apply _ _ _ u k)

/-- The carried row of sums of squares after a block: what it held plus the sum of the squares of the block's column. -/
theorem pay1_apply (v : FVec Ideal S2000x2 .f32) (acc : Vec Ideal S1x2 .f32) (u : Fin 1) (k : Fin 2) :
    k2_pay1 (F := Ideal) v acc (ix2 u k) = acc (ix2 u k) + ∑ r : Fin 2000, v (ix2 r k) * v (ix2 r k) := by
  unfold k2_pay1
  simp only [addf_apply, shapeCast_self]
  exact congrArg (acc (ix2 u k) + ·) (colsum2_apply _ _ _ u k)

/-- The row the first point resets the column sums to is zero. -/
theorem pay2_apply (i : S1x2.Idx) : k2_pay2 (F := Ideal) i = 0 := by
  unfold k2_pay2
  simp only [broadcast_apply, Scalar.ofBits, Ideal.ofBits_zero_f32]

/-- The row the first point resets the sums of squares to is zero. -/
theorem pay3_apply (i : S1x2.Idx) : k2_pay3 (F := Ideal) i = 0 := by
  unfold k2_pay3
  simp only [broadcast_apply, Scalar.ofBits, Ideal.ofBits_zero_f32]

/-! ## A block as rows of the layer -/

/-- A block whose two inputs are rows a … a + 1999 of two arrays, and whose weights and biases are the given ones, is
    rows a … a + 1999 of the layer. -/
theorem blk_of (X A : Mat 50000 128) (W1 : Mat 128 128) (B1 : Mat 1 128) (W2 : Mat 128 2) (B2 : Mat 1 2)
    (x0 x1 : Vec Ideal S2000x128 .f32) (x2 : Vec Ideal S128x128 .f32) (x3 : Vec Ideal S1x128 .f32)
    (x4 : Vec Ideal S128x2 .f32) (x5 : Vec Ideal S1x2 .f32) (a : ℕ) (hlt : ∀ r : Fin 2000, a + r.val < 50000)
    (h0 : ∀ (r : Fin 2000) (l : Fin 128), x0 (ix2 r l) = X (ix2 ⟨a + r.val, hlt r⟩ l))
    (h1 : ∀ (r : Fin 2000) (l : Fin 128), x1 (ix2 r l) = A (ix2 ⟨a + r.val, hlt r⟩ l))
    (h2 : x2 = W1) (h3 : x3 = B1) (h4 : x4 = W2) (h5 : x5 = B2) (r : Fin 2000) (k : Fin 2) :
    k2_pay4 (F := Ideal) x0 x1 x2 x3 x4 x5 (ix2 r k)
      = rowsN (mlp (toFn X) (toFn A) (toFn W1) (fun k => B1 (ix2 0 k)) (toFn W2) (fun k => B2 (ix2 0 k))) (a + r.val) k := by
  subst h2 h3 h4 h5
  rw [rowsN_of_lt _ _ (hlt r)]
  refine (pay4_apply x0 x1 x2 x3 x4 x5 r k).trans ?_
  exact mlp_row (toFn x0) (toFn x1) (toFn X) (toFn A) (toFn x2) (fun k => x3 (ix2 0 k)) (toFn x4) (fun k => x5 (ix2 0 k))
    r ⟨a + r.val, hlt r⟩ k (fun l => h0 r l) (fun l => h1 r l)

end Cert.KernelIdeal.KValue.Reg2

end
-- ==== Proof.KReg2.lean ====
/-
  Region 2 (the second layer's two dense maps with running column sums): every grid point reads rows 2000·t … 2000·t + 1999
  of the two [50000,128] inputs and the weights and biases whole, writes back the same rows of the [50000,2] result, and
  adds the block's column sums, and sums of squares, to two [1,2] rows carried from point to point; the first point starts
  them from zero and the last point alone writes them back.  So the matrix output ends holding the specification's `mlp`
  of the rows, and the two rows its column sums and column sums of squares: the sum over 50000 rows taken 2000 at a time,
  by associativity and commutativity of addition on the extended reals.
-/
import proofs.«147710_j68719477376_1_alg».proof.Proof.FrameKI
import proofs.«147710_j68719477376_1_alg».proof.Proof.SpecAt
import proofs.«147710_j68719477376_1_alg».proof.Proof.KRegLib
import proofs.«147710_j68719477376_1_alg».proof.Proof.KPay2
import Idealize.ShloMosaic.Lib.Pipeline.Value
import Idealize.ShloMosaic.Lib.Tactic

noncomputable section

namespace Cert.KernelIdeal.KValue.Reg2

open Cert.KernelIdeal Cert.KernelIdeal.Gen Cert.KernelIdeal.GenP Cert.GinSpec Idealize.ShloMosaic Idealize.ShloMosaic.ValueIdx Idealize.ShloMosaic.TcCoe Idealize.SL.Sem
open Idealize.ShloMosaic.Pipeline (Dat)

open Cert.KernelIdeal.KValue.RegLib

/-! ## What one run of the body leaves, as a term of the blocks it read -/

section Cases
variable {F : FTy → Type} [FloatOps F]

/-- A later point leaves in the block of the output the two dense maps of its input blocks. -/
theorem outB6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S2000x2 .f32) (harg7 : arg7.IsWhole) (arg8 : Memref sig .tc .vmem S1x2 .f32) (harg8 : arg8.IsWhole) (arg9 : Memref sig .tc .vmem S1x2 .f32) (harg9 : arg9.IsWhole) (hc0 : ¬cond2_0 i) (x0 : Vec F S2000x128 .f32) (x1 : Vec F S2000x128 .f32) (x2 : Vec F S128x128 .f32) (x3 : Vec F S1x128 .f32) (x4 : Vec F S128x2 .f32) (x5 : Vec F S1x2 .f32) (xo7 xo8 : Vec F S1x2 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay4 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2, View.ld_unit_zero (S := S128x2) hz2, View.ld_unit_zero (S := S1x2) hz2, View.ld_unit_zero (S := S2000x2) hz2]

/-- A later point adds the column sums of its block to the row carried from the point before. -/
theorem outB7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S2000x2 .f32) (harg7 : arg7.IsWhole) (arg8 : Memref sig .tc .vmem S1x2 .f32) (harg8 : arg8.IsWhole) (arg9 : Memref sig .tc .vmem S1x2 .f32) (harg9 : arg9.IsWhole) (hc0 : ¬cond2_0 i) (x0 : Vec F S2000x128 .f32) (x1 : Vec F S2000x128 .f32) (x2 : Vec F S128x128 .f32) (x3 : Vec F S1x128 .f32) (x4 : Vec F S128x2 .f32) (x5 : Vec F S1x2 .f32) (xo7 xo8 : Vec F S1x2 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 xo7 := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2, View.ld_unit_zero (S := S128x2) hz2, View.ld_unit_zero (S := S1x2) hz2, View.ld_unit_zero (S := S2000x2) hz2]

/-- A later point adds the column sums of squares of its block to the row carried from the point before. -/
theorem outB8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S2000x2 .f32) (harg7 : arg7.IsWhole) (arg8 : Memref sig .tc .vmem S1x2 .f32) (harg8 : arg8.IsWhole) (arg9 : Memref sig .tc .vmem S1x2 .f32) (harg9 : arg9.IsWhole) (hc0 : ¬cond2_0 i) (x0 : Vec F S2000x128 .f32) (x1 : Vec F S2000x128 .f32) (x2 : Vec F S128x128 .f32) (x3 : Vec F S1x128 .f32) (x4 : Vec F S128x2 .f32) (x5 : Vec F S1x2 .f32) (xo7 xo8 : Vec F S1x2 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay1 (k2_pay4 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2, View.ld_unit_zero (S := S128x2) hz2, View.ld_unit_zero (S := S1x2) hz2, View.ld_unit_zero (S := S2000x2) hz2]

/-- The first point leaves in the block of the output the two dense maps of its input blocks. -/
theorem outA6 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S2000x2 .f32) (harg7 : arg7.IsWhole) (arg8 : Memref sig .tc .vmem S1x2 .f32) (harg8 : arg8.IsWhole) (arg9 : Memref sig .tc .vmem S1x2 .f32) (harg9 : arg9.IsWhole) (hc0 : cond2_0 i) (x0 : Vec F S2000x128 .f32) (x1 : Vec F S2000x128 .f32) (x2 : Vec F S128x128 .f32) (x3 : Vec F S1x128 .f32) (x4 : Vec F S128x2 .f32) (x5 : Vec F S1x2 .f32) :
    out2_A_6 c i arg1 harg1 arg2 harg2 arg3 harg3 arg4 harg4 arg5 harg5 arg6 harg6 arg7 harg7 arg8 harg8 arg9 harg9 hc0 x0 x1 x2 x3 x4 x5 = k2_pay4 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2, View.ld_unit_zero (S := S128x2) hz2, View.ld_unit_zero (S := S1x2) hz2, View.ld_unit_zero (S := S2000x2) hz2]

/-- The first point resets the row of column sums to zero, reads it back and adds the column sums of its block. -/
theorem outA7 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S2000x2 .f32) (harg7 : arg7.IsWhole) (arg8 : Memref sig .tc .vmem S1x2 .f32) (harg8 : arg8.IsWhole) (arg9 : Memref sig .tc .vmem S1x2 .f32) (harg9 : arg9.IsWhole) (hc0 : cond2_0 i) (x0 : Vec F S2000x128 .f32) (x1 : Vec F S2000x128 .f32) (x2 : Vec F S128x128 .f32) (x3 : Vec F S1x128 .f32) (x4 : Vec F S128x2 .f32) (x5 : Vec F S1x2 .f32) :
    out2_A_7 c i arg1 harg1 arg2 harg2 arg3 harg3 arg4 harg4 arg5 harg5 arg6 harg6 arg7 harg7 arg8 harg8 arg9 harg9 hc0 x0 x1 x2 x3 x4 x5 = k2_pay5 x0 x1 x2 x3 x4 x5 k2_pay2 := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x2) hz2, View.readCov_unit_zero (S := S1x2) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2, View.ld_unit_zero (S := S128x2) hz2, View.ld_unit_zero (S := S1x2) hz2, View.ld_unit_zero (S := S2000x2) hz2]

/-- The first point resets the row of sums of squares to zero, reads it back and adds those of its block. -/
theorem outA8 (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x2 .f32) (harg5 : arg5.IsWhole) (arg6 : Memref sig .tc .vmem S1x2 .f32) (harg6 : arg6.IsWhole) (arg7 : Memref sig .tc .vmem S2000x2 .f32) (harg7 : arg7.IsWhole) (arg8 : Memref sig .tc .vmem S1x2 .f32) (harg8 : arg8.IsWhole) (arg9 : Memref sig .tc .vmem S1x2 .f32) (harg9 : arg9.IsWhole) (hc0 : cond2_0 i) (x0 : Vec F S2000x128 .f32) (x1 : Vec F S2000x128 .f32) (x2 : Vec F S128x128 .f32) (x3 : Vec F S1x128 .f32) (x4 : Vec F S128x2 .f32) (x5 : Vec F S1x2 .f32) :
    out2_A_8 c i arg1 harg1 arg2 harg2 arg3 harg3 arg4 harg4 arg5 harg5 arg6 harg6 arg7 harg7 arg8 harg8 arg9 harg9 hc0 x0 x1 x2 x3 x4 x5 = k2_pay1 (k2_pay4 x0 x1 x2 x3 x4 x5) k2_pay3 := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x2) hz2, View.readCov_unit_zero (S := S1x2) _ hz2]
  simp only [View.readAt_eq_ld, harg1.read_unread, harg2.read_unread, harg3.read_unread, harg4.read_unread, harg5.read_unread, harg6.read_unread, harg7.read_unread, harg8.read_unread, harg9.read_unread, View.ld_unit_zero (S := S2000x128) hz2, View.ld_unit_zero (S := S128x128) hz2, View.ld_unit_zero (S := S1x128) hz2, View.ld_unit_zero (S := S128x2) hz2, View.ld_unit_zero (S := S1x2) hz2, View.ld_unit_zero (S := S2000x2) hz2]

end Cases

/-! ## What the outputs' buffers hold after a point, from the point's blocks and what the point before left -/

section Steps
variable {F : FTy → Type} [FloatOps F]
variable (V : (c : Dev nD) → (b : Ref sig .tc) → Buf (Elt F) ((c : Thread nD τ).loc b)) (c : Dev nD)

/-- After the first point: the block of the layer, and the two rows started from zero. -/
theorem caseA_at (t : Fin cfg2.N) (h0 : t.val % 25 = 0) :
    outsAt2 V c t.val t.isLt = (k2_pay4 (iblk2 V c 0 t) (iblk2 V c 1 t) (iblk2 V c 2 t) (iblk2 V c 3 t) (iblk2 V c 4 t) (iblk2 V c 5 t), k2_pay5 (iblk2 V c 0 t) (iblk2 V c 1 t) (iblk2 V c 2 t) (iblk2 V c 3 t) (iblk2 V c 4 t) (iblk2 V c 5 t) k2_pay2, k2_pay1 (k2_pay4 (iblk2 V c 0 t) (iblk2 V c 1 t) (iblk2 V c 2 t) (iblk2 V c 3 t) (iblk2 V c 4 t) (iblk2 V c 5 t)) k2_pay3) := by
  rw [outsAt2_A V c t h0,
    outA6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
    outA7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
    outA8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)]

/-- After a later point: the block of the layer, and the two rows of the point before with the block's sums added. -/
theorem caseB_at (t : Fin cfg2.N) (h0 : ¬t.val % 25 = 0) :
    outsAt2 V c t.val t.isLt = (k2_pay4 (iblk2 V c 0 t) (iblk2 V c 1 t) (iblk2 V c 2 t) (iblk2 V c 3 t) (iblk2 V c 4 t) (iblk2 V c 5 t), k2_pay5 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1,
      k2_pay1 (k2_pay4 (iblk2 V c 0 t) (iblk2 V c 1 t) (iblk2 V c 2 t) (iblk2 V c 3 t) (iblk2 V c 4 t) (iblk2 V c 5 t)) (outsAt2 V c (t.val - 1) (Nat.lt_of_le_of_lt (Nat.sub_le _ _) t.isLt)).2.2) := by
  rw [outsAt2_B V c t h0,
    outB6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
    outB7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
    outB8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2]

end Steps

/-! ## The region at the ideal values -/

/-- The block indices over the grid: the row-blocked windows move one block per point, the others stay. -/
structure Idx2 (t : Fin cfg2.N) : Prop where
  i00 : win2_0.index t (0 : Fin 2) = t.val
  i01 : win2_0.index t (1 : Fin 2) = 0
  i10 : win2_1.index t (0 : Fin 2) = t.val
  i11 : win2_1.index t (1 : Fin 2) = 0
  i20 : win2_2.index t (0 : Fin 2) = 0
  i21 : win2_2.index t (1 : Fin 2) = 0
  i30 : win2_3.index t (0 : Fin 2) = 0
  i31 : win2_3.index t (1 : Fin 2) = 0
  i40 : win2_4.index t (0 : Fin 2) = 0
  i41 : win2_4.index t (1 : Fin 2) = 0
  i50 : win2_5.index t (0 : Fin 2) = 0
  i51 : win2_5.index t (1 : Fin 2) = 0
  i60 : win2_6.index t (0 : Fin 2) = t.val
  i61 : win2_6.index t (1 : Fin 2) = 0
  i70 : win2_7.index t (0 : Fin 2) = 0
  i71 : win2_7.index t (1 : Fin 2) = 0
  i80 : win2_8.index t (0 : Fin 2) = 0
  i81 : win2_8.index t (1 : Fin 2) = 0

theorem idx2_all : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem idx2 (t : Fin cfg2.N) : Idx2 t := by
  obtain ⟨a0, a1, a2, a3, a4, a5, a6, a7, a8, a9, a10, a11, a12, a13, a14, a15, a16, a17⟩ := idx2_all t
  exact ⟨a0, a1, a2, a3, a4, a5, a6, a7, a8, a9, a10, a11, a12, a13, a14, a15, a16, a17⟩

/-- Input 0's block at point t is rows 2000·t … 2000·t + 1999 of its array. -/
theorem iblk2_0_apply (V : (c : Dev nD) → (b : Ref sig .tc) → Buf (Elt Ideal) ((c : Thread nD τ).loc b)) (c : Dev nD) (X : Mat 50000 128) (h : V c (Pipeline.arrRef spec2 0) = X) (t : Fin cfg2.N)
    (r : Fin 2000) (l : Fin 128) (R : Fin 50000) (hR : R.val = 2000 * t.val + r.val) :
    (iblk2 V c 0 t : Vec Ideal S2000x128 .f32) (ix2 r l) = X (ix2 R l) := by
  subst h
  unfold iblk2
  rw [View.read_apply]
  show V c (Pipeline.arrRef spec2 0) _ = V c (Pipeline.arrRef spec2 0) _
  refine congrArg (V c (Pipeline.arrRef spec2 0)) ?_
  funext a; apply Fin.ext
  match a with
  | ⟨0, _⟩ => show win2_0.index t (0 : Fin 2) * 2000 + 1 * r.val = R.val; rw [(idx2 t).i00, hR]; omega
  | ⟨1, _⟩ => show win2_0.index t (1 : Fin 2) * 128 + 1 * l.val = l.val; rw [(idx2 t).i01]; omega

/-- Input 1's block at point t is rows 2000·t … 2000·t + 1999 of its array. -/
theorem iblk2_1_apply (V : (c : Dev nD) → (b : Ref sig .tc) → Buf (Elt Ideal) ((c : Thread nD τ).loc b)) (c : Dev nD) (A : Mat 50000 128) (h : V c (Pipeline.arrRef spec2 1) = A) (t : Fin cfg2.N)
    (r : Fin 2000) (l : Fin 128) (R : Fin 50000) (hR : R.val = 2000 * t.val + r.val) :
    (iblk2 V c 1 t : Vec Ideal S2000x128 .f32) (ix2 r l) = A (ix2 R l) := by
  subst h
  unfold iblk2
  rw [View.read_apply]
  show V c (Pipeline.arrRef spec2 1) _ = V c (Pipeline.arrRef spec2 1) _
  refine congrArg (V c (Pipeline.arrRef spec2 1)) ?_
  funext a; apply Fin.ext
  match a with
  | ⟨0, _⟩ => show win2_1.index t (0 : Fin 2) * 2000 + 1 * r.val = R.val; rw [(idx2 t).i10, hR]; omega
  | ⟨1, _⟩ => show win2_1.index t (1 : Fin 2) * 128 + 1 * l.val = l.val; rw [(idx2 t).i11]; omega

/-- Window 2's one block is its whole array at every point. -/
theorem iblk2_2_eq (V : (c : Dev nD) → (b : Ref sig .tc) → Buf (Elt Ideal) ((c : Thread nD τ).loc b)) (c : Dev nD) (W1 : Mat 128 128) (h : V c (Pipeline.arrRef spec2 2) = W1) (t : Fin cfg2.N) :
    (iblk2 V c 2 t : Vec Ideal S128x128 .f32) = W1 := by
  subst h
  funext y
  unfold iblk2
  rw [View.read_apply]
  show V c (Pipeline.arrRef spec2 2) _ = V c (Pipeline.arrRef spec2 2) y
  refine congrArg (V c (Pipeline.arrRef spec2 2)) ?_
  funext a; apply Fin.ext
  match a with
  | ⟨0, _⟩ => show win2_2.index t (0 : Fin 2) * 128 + 1 * (y 0).val = (y 0).val; rw [(idx2 t).i20]; omega
  | ⟨1, _⟩ => show win2_2.index t (1 : Fin 2) * 128 + 1 * (y 1).val = (y 1).val; rw [(idx2 t).i21]; omega

/-- Window 3's one block is its whole array at every point. -/
theorem iblk2_3_eq (V : (c : Dev nD) → (b : Ref sig .tc) → Buf (Elt Ideal) ((c : Thread nD τ).loc b)) (c : Dev nD) (B1 : Mat 1 128) (h : V c (Pipeline.arrRef spec2 3) = B1) (t : Fin cfg2.N) :
    (iblk2 V c 3 t : Vec Ideal S1x128 .f32) = B1 := by
  subst h
  funext y
  unfold iblk2
  rw [View.read_apply]
  show V c (Pipeline.arrRef spec2 3) _ = V c (Pipeline.arrRef spec2 3) y
  refine congrArg (V c (Pipeline.arrRef spec2 3)) ?_
  funext a; apply Fin.ext
  match a with
  | ⟨0, _⟩ => show win2_3.index t (0 : Fin 2) * 1 + 1 * (y 0).val = (y 0).val; rw [(idx2 t).i30]; omega
  | ⟨1, _⟩ => show win2_3.index t (1 : Fin 2) * 128 + 1 * (y 1).val = (y 1).val; rw [(idx2 t).i31]; omega

/-- Window 4's one block is its whole array at every point. -/
theorem iblk2_4_eq (V : (c : Dev nD) → (b : Ref sig .tc) → Buf (Elt Ideal) ((c : Thread nD τ).loc b)) (c : Dev nD) (W2 : Mat 128 2) (h : V c (Pipeline.arrRef spec2 4) = W2) (t : Fin cfg2.N) :
    (iblk2 V c 4 t : Vec Ideal S128x2 .f32) = W2 := by
  subst h
  funext y
  unfold iblk2
  rw [View.read_apply]
  show V c (Pipeline.arrRef spec2 4) _ = V c (Pipeline.arrRef spec2 4) y
  refine congrArg (V c (Pipeline.arrRef spec2 4)) ?_
  funext a; apply Fin.ext
  match a with
  | ⟨0, _⟩ => show win2_4.index t (0 : Fin 2) * 128 + 1 * (y 0).val = (y 0).val; rw [(idx2 t).i40]; omega
  | ⟨1, _⟩ => show win2_4.index t (1 : Fin 2) * 2 + 1 * (y 1).val = (y 1).val; rw [(idx2 t).i41]; omega

/-- Window 5's one block is its whole array at every point. -/
theorem iblk2_5_eq (V : (c : Dev nD) → (b : Ref sig .tc) → Buf (Elt Ideal) ((c : Thread nD τ).loc b)) (c : Dev nD) (B2 : Mat 1 2) (h : V c (Pipeline.arrRef spec2 5) = B2) (t : Fin cfg2.N) :
    (iblk2 V c 5 t : Vec Ideal S1x2 .f32) = B2 := by
  subst h
  funext y
  unfold iblk2
  rw [View.read_apply]
  show V c (Pipeline.arrRef spec2 5) _ = V c (Pipeline.arrRef spec2 5) y
  refine congrArg (V c (Pipeline.arrRef spec2 5)) ?_
  funext a; apply Fin.ext
  match a with
  | ⟨0, _⟩ => show win2_5.index t (0 : Fin 2) * 1 + 1 * (y 0).val = (y 0).val; rw [(idx2 t).i50]; omega
  | ⟨1, _⟩ => show win2_5.index t (1 : Fin 2) * 2 + 1 * (y 1).val = (y 1).val; rw [(idx2 t).i51]; omega

/-- The block the body stores at point t is rows 2000·t … 2000·t + 1999 of the layer. -/
theorem blk_at (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) (t : Fin cfg2.N) (a : ℕ) (ha : a = 2000 * t.val) (r : Fin 2000) (k : Fin 2) :
    k2_pay4 (F := Ideal) (iblk2 V c 0 t) (iblk2 V c 1 t) (iblk2 V c 2 t) (iblk2 V c 3 t) (iblk2 V c 4 t) (iblk2 V c 5 t) (ix2 r k) = rowsN (mlp (toFn X) (toFn A) (toFn W1) (fun k => B1 (ix2 0 k)) (toFn W2) (fun k => B2 (ix2 0 k))) (a + r.val) k := by
  subst ha
  have ht : t.val < 25 := lt_of_lt_of_eq t.isLt (show cfg2.N = 25 from N_2)
  exact blk_of X A W1 B1 W2 B2 (iblk2 V c 0 t) (iblk2 V c 1 t) (iblk2 V c 2 t) (iblk2 V c 3 t) (iblk2 V c 4 t) (iblk2 V c 5 t) (2000 * t.val) (fun r => by have := r.isLt; omega)
    (fun r l => iblk2_0_apply V c X hX t r l _ rfl) (fun r l => iblk2_1_apply V c A hA t r l _ rfl)
    (iblk2_2_eq V c W1 hW1 t) (iblk2_3_eq V c B1 hB1 t) (iblk2_4_eq V c W2 hW2 t) (iblk2_5_eq V c B2 hB2 t) r k

/-! ## The carried rows after each point: sums over the rows seen so far -/

/-- After point n the row of column sums holds the sum of each column of the layer over rows 0 … 2000·(n + 1) − 1, and the
    row of sums of squares the sum of the squares: by induction on the point, one block of 2000 rows at a time. -/
theorem carried (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) : ∀ (n : ℕ) (h : n < cfg2.N),
    (∀ (u : Fin 1) (k : Fin 2), ((outsAt2 (F := Ideal) V c n h).2.1 : Vec Ideal S1x2 .f32) (ix2 u k)
        = ∑ r ∈ Finset.range (2000 * (n + 1)), rowsN (mlp (toFn X) (toFn A) (toFn W1) (fun k => B1 (ix2 0 k)) (toFn W2) (fun k => B2 (ix2 0 k))) r k)
    ∧ (∀ (u : Fin 1) (k : Fin 2), ((outsAt2 (F := Ideal) V c n h).2.2 : Vec Ideal S1x2 .f32) (ix2 u k)
        = ∑ r ∈ Finset.range (2000 * (n + 1)), rowsN (mlp (toFn X) (toFn A) (toFn W1) (fun k => B1 (ix2 0 k)) (toFn W2) (fun k => B2 (ix2 0 k))) r k * rowsN (mlp (toFn X) (toFn A) (toFn W1) (fun k => B1 (ix2 0 k)) (toFn W2) (fun k => B2 (ix2 0 k))) r k)
  | 0, h => by
    have e := caseA_at V c ⟨0, h⟩ rfl
    have hr : 2000 * (0 + 1) = 0 + 2000 := by norm_num
    constructor
    · intro u k
      refine (congrFun (congrArg (fun p => p.2.1) e) (ix2 u k)).trans ?_
      refine (pay5_apply (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)) u k).trans ?_
      rw [pay2_apply, hr]
      exact sum_step (fun r => rowsN (mlp (toFn X) (toFn A) (toFn W1) (fun k => B1 (ix2 0 k)) (toFn W2) (fun k => B2 (ix2 0 k))) r k) 0 0 _ (by rw [Finset.sum_range_zero])
        (fun r => blk_at V c X A W1 B1 W2 B2 hX hA hW1 hB1 hW2 hB2 ⟨0, h⟩ 0 rfl r k)
    · intro u k
      refine (congrFun (congrArg (fun p => p.2.2) e) (ix2 u k)).trans ?_
      refine (pay1_apply (k2_pay4 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩)) (k2_pay3 (F := Ideal)) u k).trans ?_
      rw [pay3_apply, hr]
      exact sum_step (fun r => rowsN (mlp (toFn X) (toFn A) (toFn W1) (fun k => B1 (ix2 0 k)) (toFn W2) (fun k => B2 (ix2 0 k))) r k * rowsN (mlp (toFn X) (toFn A) (toFn W1) (fun k => B1 (ix2 0 k)) (toFn W2) (fun k => B2 (ix2 0 k))) r k) 0 0 _ (by rw [Finset.sum_range_zero])
        (fun r => by rw [blk_at V c X A W1 B1 W2 B2 hX hA hW1 hB1 hW2 hB2 ⟨0, h⟩ 0 rfl r k])
  | n + 1, h => by
    have hN : cfg2.N = 25 := N_2
    have hB : ¬(⟨n + 1, h⟩ : Fin cfg2.N).val % 25 = 0 := by dsimp only; omega
    have e := caseB_at V c ⟨n + 1, h⟩ hB
    obtain ⟨ih7, ih8⟩ := carried V c X A W1 B1 W2 B2 hX hA hW1 hB1 hW2 hB2 n (Nat.lt_of_succ_lt h)
    have hr : 2000 * (n + 1 + 1) = 2000 * (n + 1) + 2000 := by ring
    constructor
    · intro u k
      refine (congrFun (congrArg (fun p => p.2.1) e) (ix2 u k)).trans ?_
      refine (pay5_apply (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) _ u k).trans ?_
      rw [hr]
      exact sum_step (fun r => rowsN (mlp (toFn X) (toFn A) (toFn W1) (fun k => B1 (ix2 0 k)) (toFn W2) (fun k => B2 (ix2 0 k))) r k) (2000 * (n + 1)) _ _ (ih7 u k)
        (fun r => blk_at V c X A W1 B1 W2 B2 hX hA hW1 hB1 hW2 hB2 ⟨n + 1, h⟩ (2000 * (n + 1)) rfl r k)
    · intro u k
      refine (congrFun (congrArg (fun p => p.2.2) e) (ix2 u k)).trans ?_
      refine (pay1_apply (k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩)) _ u k).trans ?_
      rw [hr]
      exact sum_step (fun r => rowsN (mlp (toFn X) (toFn A) (toFn W1) (fun k => B1 (ix2 0 k)) (toFn W2) (fun k => B2 (ix2 0 k))) r k * rowsN (mlp (toFn X) (toFn A) (toFn W1) (fun k => B1 (ix2 0 k)) (toFn W2) (fun k => B2 (ix2 0 k))) r k) (2000 * (n + 1)) _ _ (ih8 u k)
        (fun r => by rw [blk_at V c X A W1 B1 W2 B2 hX hA hW1 hB1 hW2 hB2 ⟨n + 1, h⟩ (2000 * (n + 1)) rfl r k])

/-- The block of the output after any point is the point's block of the layer. -/
theorem out6_at {F : FTy → Type} [FloatOps F] (V : (c : Dev nD) → (b : Ref sig .tc) → Buf (Elt F) ((c : Thread nD τ).loc b)) (c : Dev nD)
    (t : Fin cfg2.N) : (outsAt2 V c t.val t.isLt).1 = k2_pay4 (iblk2 V c 0 t) (iblk2 V c 1 t) (iblk2 V c 2 t) (iblk2 V c 3 t) (iblk2 V c 4 t) (iblk2 V c 5 t) := by
  by_cases h0 : t.val % 25 = 0
  · exact congrArg Prod.fst (caseA_at V c t h0)
  · exact congrArg Prod.fst (caseB_at V c t h0)

/-! ## What is written back, and the arrays at the end -/

/-- What point t writes back to the matrix output is rows 2000·t … 2000·t + 1999 of the layer. -/
theorem flushed6_eq (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) (t : Fin cfg2.N) :
    (dat2 (F := Ideal) V c).flushed 6 t = ((cfg2.win 6).blk t).view.read (Elt Ideal) (ofFn (mlp (toFn X) (toFn A) (toFn W1) (fun k => B1 (ix2 0 k)) (toFn W2) (fun k => B2 (ix2 0 k)))) := by
  show (cfg2.win 6).cut (grid2.coords t) ((dat2 V c).after 6 t) = _
  rw [after2_6, out6_at V c t]
  funext j
  obtain ⟨r, k, rfl⟩ : ∃ (r : Fin 2000) (k : Fin 2), j = ix2 r k := ⟨j 0, j 1, eq_ix2 j⟩
  have ht : t.val < 25 := lt_of_lt_of_eq t.isLt (show cfg2.N = 25 from N_2)
  have hlt : 2000 * t.val + r.val < 50000 := by have := r.isLt; omega
  have hemb : ((cfg2.win 6).blk t).view.emb (ix2 r k) = (ix2 (⟨2000 * t.val + r.val, hlt⟩ : Fin 50000) k : S50000x2.Idx) := by
    funext a; apply Fin.ext
    match a with
    | ⟨0, _⟩ => show win2_6.index t (0 : Fin 2) * 2000 + 1 * r.val = 2000 * t.val + r.val; rw [(idx2 t).i60]; omega
    | ⟨1, _⟩ => show win2_6.index t (1 : Fin 2) * 2 + 1 * k.val = k.val; rw [(idx2 t).i61]; omega
  show k2_pay4 (F := Ideal) (iblk2 V c 0 t) (iblk2 V c 1 t) (iblk2 V c 2 t) (iblk2 V c 3 t) (iblk2 V c 4 t) (iblk2 V c 5 t) (ix2 r k) = ofFn (mlp (toFn X) (toFn A) (toFn W1) (fun k => B1 (ix2 0 k)) (toFn W2) (fun k => B2 (ix2 0 k))) (((cfg2.win 6).blk t).view.emb (ix2 r k))
  rw [hemb]
  refine (blk_at V c X A W1 B1 W2 B2 hX hA hW1 hB1 hW2 hB2 t (2000 * t.val) rfl r k).trans ?_
  exact rowsN_of_lt _ _ hlt k

/-- Membership in point t's block of the matrix output, axis by axis. -/
theorem mem_blk6 (t : Fin cfg2.N) (i : S50000x2.Idx) :
    i ∈ ((cfg2.win 6).blk t).view.set ↔ ∀ a : Fin 2, win2_6.index t a * S2000x2.size a ≤ (i a).val
      ∧ (i a).val < win2_6.index t a * S2000x2.size a + S2000x2.size a := by
  show i ∈ ((View.whole main_v42_0).slice (win2_6.rect t)).set ↔ _
  rw [View.set_slice_whole, Rect.mem_set_unit]
  exact Iff.rfl

/-- Row i of the matrix output lies in the block of point i / 2000, which is written back. -/
theorem covered6 (i : S50000x2.Idx) :
    ∃ t : Fin cfg2.N, (cfg2.win 6).flush t = true ∧ i ∈ ((cfg2.win 6).blk t).view.set := by
  have hi0 : (i 0).val < 50000 := (i 0).isLt
  have hi1 : (i 1).val < 2 := (i 1).isLt
  have hN : cfg2.N = 25 := N_2
  have hq : (i 0).val / 2000 < cfg2.N := by rw [hN]; omega
  have e0 := (idx2 ⟨(i 0).val / 2000, hq⟩).i60
  have e1 := (idx2 ⟨(i 0).val / 2000, hq⟩).i61
  refine ⟨⟨(i 0).val / 2000, hq⟩, flush2_6 _, ?_⟩
  rw [mem_blk6]
  intro a
  match a with
  | ⟨0, _⟩ =>
    show win2_6.index ⟨(i 0).val / 2000, hq⟩ (0 : Fin 2) * 2000 ≤ (i 0).val
      ∧ (i 0).val < win2_6.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, hq⟩ (1 : Fin 2) * 2 ≤ (i 1).val
      ∧ (i 1).val < win2_6.index ⟨(i 0).val / 2000, hq⟩ (1 : Fin 2) * 2 + 2
    rw [e1]; omega

/-- The row output 7's block at any point, read through the window, is the array itself: its block index is (0, 0). -/
theorem read_blk7 (t : Fin cfg2.N) (G : Mat 1 2) (u : Fin 1) (k : Fin 2) :
    ((cfg2.win 7).blk t).view.read (Elt Ideal) G (ix2 u k) = G (ix2 u k) := by
  have hemb : ((cfg2.win 7).blk t).view.emb (ix2 u k) = (ix2 u k : S1x2.Idx) := by
    funext a; apply Fin.ext
    match a with
    | ⟨0, _⟩ => show win2_7.index t (0 : Fin 2) * 1 + 1 * u.val = u.val; rw [(idx2 t).i70]; omega
    | ⟨1, _⟩ => show win2_7.index t (1 : Fin 2) * 2 + 1 * k.val = k.val; rw [(idx2 t).i71]; omega
  show G (((cfg2.win 7).blk t).view.emb (ix2 u k)) = G (ix2 u k)
  rw [hemb]

/-- The one write-back of the row output 7, at the last point, writes the sum of each column of the layer over all rows. -/
theorem flushed7_eq (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) (t : Fin cfg2.N) (hf : (cfg2.win 7).flush t = true) :
    (dat2 (F := Ideal) V c).flushed 7 t
      = ((cfg2.win 7).blk t).view.read (Elt Ideal) (fun i => colSum (mlp (toFn X) (toFn A) (toFn W1) (fun k => B1 (ix2 0 k)) (toFn W2) (fun k => B2 (ix2 0 k))) (i 1)) := by
  have ht : t.val < 25 := lt_of_lt_of_eq t.isLt (show cfg2.N = 25 from N_2)
  have h24 : 2000 * (t.val + 1) = 50000 := by have := (flush2_7 t).mp hf; omega
  show (cfg2.win 7).cut (grid2.coords t) ((dat2 V c).after 7 t) = _
  rw [after2_7]
  have hc := (carried V c X A W1 B1 W2 B2 hX hA hW1 hB1 hW2 hB2 t.val t.isLt).1
  generalize (outsAt2 (F := Ideal) V c t.val t.isLt).2.1 = acc at hc ⊢
  funext j
  obtain ⟨u, k, rfl⟩ : ∃ (u : Fin 1) (k : Fin 2), j = ix2 u k := ⟨j 0, j 1, eq_ix2 j⟩
  refine Eq.trans ?_ (read_blk7 t (fun i => colSum (mlp (toFn X) (toFn A) (toFn W1) (fun k => B1 (ix2 0 k)) (toFn W2) (fun k => B2 (ix2 0 k))) (i 1)) u k).symm
  show acc (ix2 u k) = colSum (mlp (toFn X) (toFn A) (toFn W1) (fun k => B1 (ix2 0 k)) (toFn W2) (fun k => B2 (ix2 0 k))) k
  refine (hc u k).trans ?_
  rw [h24]
  unfold colSum
  exact (sum_rowsN (mlp (toFn X) (toFn A) (toFn W1) (fun k => B1 (ix2 0 k)) (toFn W2) (fun k => B2 (ix2 0 k))) k).symm

/-- Membership in point t's block of the row output 7, axis by axis. -/
theorem mem_blk7 (t : Fin cfg2.N) (i : S1x2.Idx) :
    i ∈ ((cfg2.win 7).blk t).view.set ↔ ∀ a : Fin 2, win2_7.index t a * S1x2.size a ≤ (i a).val
      ∧ (i a).val < win2_7.index t a * S1x2.size a + S1x2.size a := by
  show i ∈ ((View.whole main_v42_1).slice (win2_7.rect t)).set ↔ _
  rw [View.set_slice_whole, Rect.mem_set_unit]
  exact Iff.rfl

/-- The one block of the row output 7 is its whole array, and the last point writes it back. -/
theorem covered7 (i : S1x2.Idx) :
    ∃ t : Fin cfg2.N, (cfg2.win 7).flush t = true ∧ i ∈ ((cfg2.win 7).blk t).view.set := by
  have hi0 : (i 0).val < 1 := (i 0).isLt
  have hi1 : (i 1).val < 2 := (i 1).isLt
  have hN : cfg2.N = 25 := N_2
  have hq : 24 < cfg2.N := by rw [hN]; omega
  have e0 := (idx2 ⟨24, hq⟩).i70
  have e1 := (idx2 ⟨24, hq⟩).i71
  refine ⟨⟨24, hq⟩, (flush2_7 _).mpr rfl, ?_⟩
  rw [mem_blk7]
  intro a
  match a with
  | ⟨0, _⟩ =>
    show win2_7.index ⟨24, hq⟩ (0 : Fin 2) * 1 ≤ (i 0).val ∧ (i 0).val < win2_7.index ⟨24, hq⟩ (0 : Fin 2) * 1 + 1
    rw [e0]; omega
  | ⟨1, _⟩ =>
    show win2_7.index ⟨24, hq⟩ (1 : Fin 2) * 2 ≤ (i 1).val ∧ (i 1).val < win2_7.index ⟨24, hq⟩ (1 : Fin 2) * 2 + 2
    rw [e1]; omega

/-- The row output 8's block at any point, read through the window, is the array itself: its block index is (0, 0). -/
theorem read_blk8 (t : Fin cfg2.N) (G : Mat 1 2) (u : Fin 1) (k : Fin 2) :
    ((cfg2.win 8).blk t).view.read (Elt Ideal) G (ix2 u k) = G (ix2 u k) := by
  have hemb : ((cfg2.win 8).blk t).view.emb (ix2 u k) = (ix2 u k : S1x2.Idx) := by
    funext a; apply Fin.ext
    match a with
    | ⟨0, _⟩ => show win2_8.index t (0 : Fin 2) * 1 + 1 * u.val = u.val; rw [(idx2 t).i80]; omega
    | ⟨1, _⟩ => show win2_8.index t (1 : Fin 2) * 2 + 1 * k.val = k.val; rw [(idx2 t).i81]; omega
  show G (((cfg2.win 8).blk t).view.emb (ix2 u k)) = G (ix2 u k)
  rw [hemb]

/-- The one write-back of the row output 8, at the last point, writes the sum of squares of each column of the layer over all rows. -/
theorem flushed8_eq (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) (t : Fin cfg2.N) (hf : (cfg2.win 8).flush t = true) :
    (dat2 (F := Ideal) V c).flushed 8 t
      = ((cfg2.win 8).blk t).view.read (Elt Ideal) (fun i => colSumSq (mlp (toFn X) (toFn A) (toFn W1) (fun k => B1 (ix2 0 k)) (toFn W2) (fun k => B2 (ix2 0 k))) (i 1)) := by
  have ht : t.val < 25 := lt_of_lt_of_eq t.isLt (show cfg2.N = 25 from N_2)
  have h24 : 2000 * (t.val + 1) = 50000 := by have := (flush2_8 t).mp hf; omega
  show (cfg2.win 8).cut (grid2.coords t) ((dat2 V c).after 8 t) = _
  rw [after2_8]
  have hc := (carried V c X A W1 B1 W2 B2 hX hA hW1 hB1 hW2 hB2 t.val t.isLt).2
  generalize (outsAt2 (F := Ideal) V c t.val t.isLt).2.2 = acc at hc ⊢
  funext j
  obtain ⟨u, k, rfl⟩ : ∃ (u : Fin 1) (k : Fin 2), j = ix2 u k := ⟨j 0, j 1, eq_ix2 j⟩
  refine Eq.trans ?_ (read_blk8 t (fun i => colSumSq (mlp (toFn X) (toFn A) (toFn W1) (fun k => B1 (ix2 0 k)) (toFn W2) (fun k => B2 (ix2 0 k))) (i 1)) u k).symm
  show acc (ix2 u k) = colSumSq (mlp (toFn X) (toFn A) (toFn W1) (fun k => B1 (ix2 0 k)) (toFn W2) (fun k => B2 (ix2 0 k))) k
  refine (hc u k).trans ?_
  rw [h24]
  unfold colSumSq
  exact (sum_sq_rowsN (mlp (toFn X) (toFn A) (toFn W1) (fun k => B1 (ix2 0 k)) (toFn W2) (fun k => B2 (ix2 0 k))) k).symm

/-- Membership in point t's block of the row output 8, axis by axis. -/
theorem mem_blk8 (t : Fin cfg2.N) (i : S1x2.Idx) :
    i ∈ ((cfg2.win 8).blk t).view.set ↔ ∀ a : Fin 2, win2_8.index t a * S1x2.size a ≤ (i a).val
      ∧ (i a).val < win2_8.index t a * S1x2.size a + S1x2.size a := by
  show i ∈ ((View.whole main_v42_2).slice (win2_8.rect t)).set ↔ _
  rw [View.set_slice_whole, Rect.mem_set_unit]
  exact Iff.rfl

/-- The one block of the row output 8 is its whole array, and the last point writes it back. -/
theorem covered8 (i : S1x2.Idx) :
    ∃ t : Fin cfg2.N, (cfg2.win 8).flush t = true ∧ i ∈ ((cfg2.win 8).blk t).view.set := by
  have hi0 : (i 0).val < 1 := (i 0).isLt
  have hi1 : (i 1).val < 2 := (i 1).isLt
  have hN : cfg2.N = 25 := N_2
  have hq : 24 < cfg2.N := by rw [hN]; omega
  have e0 := (idx2 ⟨24, hq⟩).i80
  have e1 := (idx2 ⟨24, hq⟩).i81
  refine ⟨⟨24, hq⟩, (flush2_8 _).mpr rfl, ?_⟩
  rw [mem_blk8]
  intro a
  match a with
  | ⟨0, _⟩ =>
    show win2_8.index ⟨24, hq⟩ (0 : Fin 2) * 1 ≤ (i 0).val ∧ (i 0).val < win2_8.index ⟨24, hq⟩ (0 : Fin 2) * 1 + 1
    rw [e0]; omega
  | ⟨1, _⟩ =>
    show win2_8.index ⟨24, hq⟩ (1 : Fin 2) * 2 ≤ (i 1).val ∧ (i 1).val < win2_8.index ⟨24, hq⟩ (1 : Fin 2) * 2 + 2
    rw [e1]; omega

end Cert.KernelIdeal.KValue.Reg2

namespace Cert.KernelIdeal.KValue

open Cert.KernelIdeal Cert.KernelIdeal.Gen Cert.KernelIdeal.GenP Cert.GinSpec Idealize.ShloMosaic Idealize.ShloMosaic.ValueIdx Idealize.ShloMosaic.TcCoe Idealize.SL.Sem
open Idealize.ShloMosaic.Pipeline (Dat)

/-- THE REGION'S MATRIX RESULT: the output array ends holding the two dense maps of the rows of the two inputs. -/
theorem reg2_final6 (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) :
    (dat2 (F := Ideal) V c).arrAt 6 cfg2.N = ofFn (mlp (toFn X) (toFn A) (toFn W1) (fun k => B1 (ix2 0 k)) (toFn W2) (fun k => B2 (ix2 0 k))) :=
  (dat2 (F := Ideal) V c).arrAt_eq_of_cover 6 (ofFn (mlp (toFn X) (toFn A) (toFn W1) (fun k => B1 (ix2 0 k)) (toFn W2) (fun k => B2 (ix2 0 k))))
    (fun t _ => Reg2.flushed6_eq V c X A W1 B1 W2 B2 hX hA hW1 hB1 hW2 hB2 t) Reg2.covered6

/-- THE REGION'S ROW OF COLUMN SUMS. -/
theorem reg2_final7 (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) :
    (dat2 (F := Ideal) V c).arrAt 7 cfg2.N = fun i => colSum (mlp (toFn X) (toFn A) (toFn W1) (fun k => B1 (ix2 0 k)) (toFn W2) (fun k => B2 (ix2 0 k))) (i 1) :=
  (dat2 (F := Ideal) V c).arrAt_eq_of_cover 7 (fun i => colSum (mlp (toFn X) (toFn A) (toFn W1) (fun k => B1 (ix2 0 k)) (toFn W2) (fun k => B2 (ix2 0 k))) (i 1))
    (fun t hf => Reg2.flushed7_eq V c X A W1 B1 W2 B2 hX hA hW1 hB1 hW2 hB2 t hf) Reg2.covered7

/-- THE REGION'S ROW OF COLUMN SUMS OF SQUARES. -/
theorem reg2_final8 (V : (c : Dev nD) → (b : Ref sig .tc) → Buf (Elt Ideal) ((c : Thread nD τ).loc b)) (c : Dev nD) (X A : Mat 50000 128) (W1 : Mat 128 128) (B1 : Mat 1 128) (W2 : Mat 128 2) (B2 : Mat 1 2)
    (hX : V c (Pipeline.arrRef spec2 0) = X) (hA : V c (Pipeline.arrRef spec2 1) = A) (hW1 : V c (Pipeline.arrRef spec2 2) = W1)
    (hB1 : V c (Pipeline.arrRef spec2 3) = B1) (hW2 : V c (Pipeline.arrRef spec2 4) = W2) (hB2 : V c (Pipeline.arrRef spec2 5) = B2) :
    (dat2 (F := Ideal) V c).arrAt 8 cfg2.N = fun i => colSumSq (mlp (toFn X) (toFn A) (toFn W1) (fun k => B1 (ix2 0 k)) (toFn W2) (fun k => B2 (ix2 0 k))) (i 1) :=
  (dat2 (F := Ideal) V c).arrAt_eq_of_cover 8 (fun i => colSumSq (mlp (toFn X) (toFn A) (toFn W1) (fun k => B1 (ix2 0 k)) (toFn W2) (fun k => B2 (ix2 0 k))) (i 1))
    (fun t hf => Reg2.flushed8_eq V c X A W1 B1 W2 B2 hX hA hW1 hB1 hW2 hB2 t hf) Reg2.covered8

end Cert.KernelIdeal.KValue

end
-- ==== Proof.KReg3.lean ====
/-
  Region 3 (the second normalisation): every grid point reads rows 2000·t … 2000·t + 1999 of a [50000,2] matrix and
  the four [1,2] rows (mean, variance, scale, shift), and writes back the same rows of the result: entry (r, k) is
  (c r k − mean k) · rsqrt (var k + ε) · scale k + shift k.  The blocks written back tile the result array, so it ends
  holding the specification's `norm` of the matrix and the four rows.
-/
import proofs.«147710_j68719477376_1_alg».proof.Proof.FrameKI
import proofs.«147710_j68719477376_1_alg».proof.Proof.SpecAt
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Cert.KernelIdeal.GenP Cert.GinSpec Idealize.ShloMosaic Idealize.ShloMosaic.ValueIdx Idealize.ShloMosaic.TcCoe Idealize.SL.Sem
open Idealize.ShloMosaic.Pipeline (Dat)

namespace Reg3

/-- The zero offsets of a whole-block access, as a constant function. -/
theorem hz3 : (![0, 0] : Fin 2 → Nat) = fun _ => 0 := funext fun a => by fin_cases a <;> rfl

/-- The normalize body's stored value at row `r`, column `k` of the block: the block's entry minus the mean of
    column `k`, times `rsqrt` of that column's variance plus ε, times its scale, plus its shift; the four `[1,2]`
    rows are read at their one row. -/
theorem pay3_apply (v0 : Vec Ideal S1x2 .f32) (v5 : Vec Ideal S2000x2 .f32) (v7 v13 v17 : Vec Ideal S1x2 .f32)
    (r : Fin 2000) (k : Fin 2) :
    k3_pay1 (F := Ideal) v0 v5 v7 v13 v17 (ix2 r k)
      = (v5 (ix2 r k) - v7 (ix2 (0 : Fin 1) k)) * Ideal.rsqrt (v0 (ix2 (0 : Fin 1) k) + epsWord) * v13 (ix2 (0 : Fin 1) k)
        + v17 (ix2 (0 : Fin 1) k) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

/-- What the body leaves in the output block, entry by entry, from the five input blocks. -/
theorem out3_5_apply (x0 : Vec Ideal S2000x2 .f32) (x1 x2 x3 x4 : Vec Ideal S1x2 .f32) (r : Fin 2000) (k : Fin 2) :
    out3_5 (F := Ideal) x0 x1 x2 x3 x4 (ix2 r k)
      = (x0 (ix2 r k) - x1 (ix2 (0 : Fin 1) k)) * Ideal.rsqrt (x2 (ix2 (0 : Fin 1) k) + epsWord) * x3 (ix2 (0 : Fin 1) k)
        + x4 (ix2 (0 : Fin 1) k) := by
  unfold out3_5
  rw [View.canon_unit_zero hz3]
  simp only [View.ld_unit_zero (S := S2000x2) hz3, View.ld_unit_zero (S := S1x2) hz3]
  exact pay3_apply x2 x0 x1 x3 x4 r k

/-- The block indices over the grid: the matrix windows move one row block per point, the row windows stay. -/
theorem idx3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

variable (V : (c : Dev nD) → (b : Ref sig .tc) → Buf (Elt Ideal) ((c : Thread nD τ).loc b))

/-- Row `r` of the matrix window's block at point `t` is row `2000·t + r` of its array. -/
theorem iblk3_0_apply (c : Dev nD) (C : Mat 50000 2) (hC : V c (Pipeline.arrRef spec3 0) = C) (t : Fin cfg3.N)
    (r : Fin 2000) (k : Fin 2) (i : Fin 50000) (hi : i.val = 2000 * t.val + r.val) :
    (iblk3 V c 0 t : Vec Ideal S2000x2 .f32) (ix2 r k) = C (ix2 i k) := by
  subst hC
  unfold iblk3
  rw [View.read_apply]
  show V c (Pipeline.arrRef spec3 0) _ = V c (Pipeline.arrRef spec3 0) _
  refine congrArg (V c (Pipeline.arrRef spec3 0)) ?_
  funext a; apply Fin.ext
  match a with
  | ⟨0, _⟩ => show win3_0.index t (0 : Fin 2) * 2000 + 1 * r.val = i.val; rw [(idx3 t).1, hi]; omega
  | ⟨1, _⟩ => show win3_0.index t (1 : Fin 2) * 2 + 1 * k.val = k.val; rw [(idx3 t).2.1]; omega

/-- A `[1,2]` row window's block at any point is its whole array. -/
theorem iblk3_1_apply (c : Dev nD) (M : Mat 1 2) (hM : V c (Pipeline.arrRef spec3 1) = M) (t : Fin cfg3.N) (k : Fin 2) :
    (iblk3 V c 1 t : Vec Ideal S1x2 .f32) (ix2 (0 : Fin 1) k) = M (ix2 (0 : Fin 1) k) := by
  subst hM
  unfold iblk3
  rw [View.read_apply]
  show V c (Pipeline.arrRef spec3 1) _ = V c (Pipeline.arrRef spec3 1) _
  refine congrArg (V c (Pipeline.arrRef spec3 1)) ?_
  funext a; apply Fin.ext
  match a with
  | ⟨0, _⟩ => show win3_1.index t (0 : Fin 2) * 1 + 1 * 0 = 0; rw [(idx3 t).2.2.2.2.1]
  | ⟨1, _⟩ => show win3_1.index t (1 : Fin 2) * 2 + 1 * k.val = k.val; rw [(idx3 t).2.2.2.2.2.1]; omega

theorem iblk3_2_apply (c : Dev nD) (M : Mat 1 2) (hM : V c (Pipeline.arrRef spec3 2) = M) (t : Fin cfg3.N) (k : Fin 2) :
    (iblk3 V c 2 t : Vec Ideal S1x2 .f32) (ix2 (0 : Fin 1) k) = M (ix2 (0 : Fin 1) k) := by
  subst hM
  unfold iblk3
  rw [View.read_apply]
  show V c (Pipeline.arrRef spec3 2) _ = V c (Pipeline.arrRef spec3 2) _
  refine congrArg (V c (Pipeline.arrRef spec3 2)) ?_
  funext a; apply Fin.ext
  match a with
  | ⟨0, _⟩ => show win3_2.index t (0 : Fin 2) * 1 + 1 * 0 = 0; rw [(idx3 t).2.2.2.2.2.2.1]
  | ⟨1, _⟩ => show win3_2.index t (1 : Fin 2) * 2 + 1 * k.val = k.val; rw [(idx3 t).2.2.2.2.2.2.2.1]; omega

theorem iblk3_3_apply (c : Dev nD) (M : Mat 1 2) (hM : V c (Pipeline.arrRef spec3 3) = M) (t : Fin cfg3.N) (k : Fin 2) :
    (iblk3 V c 3 t : Vec Ideal S1x2 .f32) (ix2 (0 : Fin 1) k) = M (ix2 (0 : Fin 1) k) := by
  subst hM
  unfold iblk3
  rw [View.read_apply]
  show V c (Pipeline.arrRef spec3 3) _ = V c (Pipeline.arrRef spec3 3) _
  refine congrArg (V c (Pipeline.arrRef spec3 3)) ?_
  funext a; apply Fin.ext
  match a with
  | ⟨0, _⟩ => show win3_3.index t (0 : Fin 2) * 1 + 1 * 0 = 0; rw [(idx3 t).2.2.2.2.2.2.2.2.1]
  | ⟨1, _⟩ => show win3_3.index t (1 : Fin 2) * 2 + 1 * k.val = k.val; rw [(idx3 t).2.2.2.2.2.2.2.2.2.1]; omega

theorem iblk3_4_apply (c : Dev nD) (M : Mat 1 2) (hM : V c (Pipeline.arrRef spec3 4) = M) (t : Fin cfg3.N) (k : Fin 2) :
    (iblk3 V c 4 t : Vec Ideal S1x2 .f32) (ix2 (0 : Fin 1) k) = M (ix2 (0 : Fin 1) k) := by
  subst hM
  unfold iblk3
  rw [View.read_apply]
  show V c (Pipeline.arrRef spec3 4) _ = V c (Pipeline.arrRef spec3 4) _
  refine congrArg (V c (Pipeline.arrRef spec3 4)) ?_
  funext a; apply Fin.ext
  match a with
  | ⟨0, _⟩ => show win3_4.index t (0 : Fin 2) * 1 + 1 * 0 = 0; rw [(idx3 t).2.2.2.2.2.2.2.2.2.2.1]
  | ⟨1, _⟩ => show win3_4.index t (1 : Fin 2) * 2 + 1 * k.val = k.val; rw [(idx3 t).2.2.2.2.2.2.2.2.2.2.2]; omega

/-- The normalized matrix: the specification's `norm` of the matrix and the four rows, as an array. -/
abbrev normed3 (C : Mat 50000 2) (M Vr G B : Mat 1 2) : Mat 50000 2 :=
  ofFn (norm epsWord (toFn C) (fun k => M (ix2 0 k)) (fun k => Vr (ix2 0 k)) (fun k => G (ix2 0 k)) (fun k => B (ix2 0 k)))

/-- What point `t` writes back is rows `2000·t … 2000·t + 1999` of the normalized matrix. -/
theorem flushed3_eq (c : Dev nD) (C : Mat 50000 2) (M Vr G B : Mat 1 2)
    (hC : V c (Pipeline.arrRef spec3 0) = C) (hM : V c (Pipeline.arrRef spec3 1) = M) (hV : V c (Pipeline.arrRef spec3 2) = Vr)
    (hG : V c (Pipeline.arrRef spec3 3) = G) (hB : V c (Pipeline.arrRef spec3 4) = B) (t : Fin cfg3.N) :
    (dat3 (F := Ideal) V c).flushed 5 t = ((cfg3.win 5).blk t).view.read (Elt Ideal) (normed3 C M Vr G B) := by
  show (cfg3.win 5).cut (grid3.coords t) ((dat3 V c).after 5 t) = _
  rw [after3_5]
  funext j
  obtain ⟨r, k, rfl⟩ : ∃ (r : Fin 2000) (k : Fin 2), j = ix2 r k := ⟨j 0, j 1, eq_ix2 j⟩
  have hN : cfg3.N = 25 := N_3
  have ht : t.val < 25 := hN ▸ t.isLt
  have hlt : 2000 * t.val + r.val < 50000 := by have := r.isLt; omega
  have hemb : ((cfg3.win 5).blk t).view.emb (ix2 r k) = (ix2 (⟨2000 * t.val + r.val, hlt⟩ : Fin 50000) k : S50000x2.Idx) := by
    funext a; apply Fin.ext
    match a with
    | ⟨0, _⟩ => show win3_5.index t (0 : Fin 2) * 2000 + 1 * r.val = 2000 * t.val + r.val; rw [(idx3 t).2.2.1]; omega
    | ⟨1, _⟩ => show win3_5.index t (1 : Fin 2) * 2 + 1 * k.val = k.val; rw [(idx3 t).2.2.2.1]; omega
  show out3_5 (F := Ideal) (iblk3 V c 0 t) (iblk3 V c 1 t) (iblk3 V c 2 t) (iblk3 V c 3 t) (iblk3 V c 4 t) (ix2 r k)
    = normed3 C M Vr G B (((cfg3.win 5).blk t).view.emb (ix2 r k))
  rw [hemb]
  refine (out3_5_apply (iblk3 V c 0 t) (iblk3 V c 1 t) (iblk3 V c 2 t) (iblk3 V c 3 t) (iblk3 V c 4 t) r k).trans ?_
  rw [iblk3_0_apply V c C hC t r k ⟨2000 * t.val + r.val, hlt⟩ rfl, iblk3_1_apply V c M hM t k, iblk3_2_apply V c Vr hV t k,
    iblk3_3_apply V c G hG t k, iblk3_4_apply V c B hB t k]
  rfl

/-- Membership in point `t`'s output block, axis by axis. -/
theorem mem_blk3_5 (t : Fin cfg3.N) (i : S50000x2.Idx) :
    i ∈ ((cfg3.win 5).blk t).view.set ↔ ∀ a : Fin 2, win3_5.index t a * S2000x2.size a ≤ (i a).val
      ∧ (i a).val < win3_5.index t a * S2000x2.size a + S2000x2.size a := by
  show i ∈ ((View.whole main_v55).slice (win3_5.rect t)).set ↔ _
  rw [View.set_slice_whole, Rect.mem_set_unit]
  exact Iff.rfl

/-- Row `i` of the output lies in the block of point `i / 2000`, which is written back. -/
theorem covered3_5 (i : S50000x2.Idx) :
    ∃ t : Fin cfg3.N, (cfg3.win 5).flush t = true ∧ i ∈ ((cfg3.win 5).blk t).view.set := by
  have hi0 : (i 0).val < 50000 := (i 0).isLt
  have hi1 : (i 1).val < 2 := (i 1).isLt
  have hN : cfg3.N = 25 := N_3
  have hq : (i 0).val / 2000 < cfg3.N := by rw [hN]; omega
  obtain ⟨-, -, e0, e1, -⟩ := idx3 ⟨(i 0).val / 2000, hq⟩
  refine ⟨⟨(i 0).val / 2000, hq⟩, flush3_5 _, ?_⟩
  rw [mem_blk3_5]
  intro a
  match a with
  | ⟨0, _⟩ =>
    show win3_5.index ⟨(i 0).val / 2000, hq⟩ (0 : Fin 2) * 2000 ≤ (i 0).val
      ∧ (i 0).val < win3_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win3_5.index ⟨(i 0).val / 2000, hq⟩ (1 : Fin 2) * 2 ≤ (i 1).val
      ∧ (i 1).val < win3_5.index ⟨(i 0).val / 2000, hq⟩ (1 : Fin 2) * 2 + 2
    rw [e1]; omega

end Reg3

/-- THE REGION'S RESULT: the output array ends holding the normalized matrix. -/
theorem reg3_final (V : (c : Dev nD) → (b : Ref sig .tc) → Buf (Elt Ideal) ((c : Thread nD τ).loc b)) (c : Dev nD)
    (C : Mat 50000 2) (M Vr G B : Mat 1 2)
    (hC : V c (Pipeline.arrRef spec3 0) = C) (hM : V c (Pipeline.arrRef spec3 1) = M) (hV : V c (Pipeline.arrRef spec3 2) = Vr)
    (hG : V c (Pipeline.arrRef spec3 3) = G) (hB : V c (Pipeline.arrRef spec3 4) = B) :
    (dat3 (F := Ideal) V c).arrAt 5 cfg3.N
      = ofFn (norm epsWord (toFn C) (fun k => M (ix2 0 k)) (fun k => Vr (ix2 0 k)) (fun k => G (ix2 0 k)) (fun k => B (ix2 0 k))) :=
  (dat3 (F := Ideal) V c).arrAt_eq_of_cover 5 (Reg3.normed3 C M Vr G B)
    (fun t _ => Reg3.flushed3_eq V c C M Vr G B hC hM hV hG hB t) Reg3.covered3_5

end Cert.KernelIdeal.KValue

end
-- ==== Proof.KRun.lean ====
/-
  The kernel program's run with its result named: every weakly fair execution of @main terminates, nothing
  faulting, the argument arrays end as launched, and the result buffer ends at the contents the last of the
  eight segment boundaries gives it (`W8`: four stretches of host operations and four regions folded from the
  launch memory).
-/
import proofs.«147710_j68719477376_1_alg».proof.Proof.FrameKI

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read: at the end every unscoped buffer of a core holds what the last segment
    boundary gives it; the result buffer is one of them, and each argument reads back to its launch contents. -/
theorem run_value : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.KValue

end
-- ==== Proof.KCompose.lean ====
/-
  The kernel program's result as the specification's function of the launch arguments: the four regions' outputs
  and the host arithmetic between them, composed along the segment boundaries.  The first pair of regions is the
  first layer (its output the second pair's node matrix), the second pair the second layer.
-/
import proofs.«147710_j68719477376_1_alg».proof.Proof.KWalk
import proofs.«147710_j68719477376_1_alg».proof.Proof.KLayer
import proofs.«147710_j68719477376_1_alg».proof.Proof.KReg0
import proofs.«147710_j68719477376_1_alg».proof.Proof.KReg1
import proofs.«147710_j68719477376_1_alg».proof.Proof.KReg2
import proofs.«147710_j68719477376_1_alg».proof.Proof.KReg3
import proofs.«147710_j68719477376_1_alg».proof.Proof.KRun
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.Tactic Idealize.SL.Sem Idealize.ShloMosaic.StableHlo
open Idealize.ShloMosaic.Pipeline (Dat)
open Cert.GinSpec Idealize.ShloMosaic.ValueIdx

variable (m : (ℓ : Loc nD τ sig) → Buf (Elt Ideal) ℓ) (ρ : Dev nD → PrngReg)

variable (c : Dev nD)

/-- The first region's output matrix, as a function of a row and a column. -/
abbrev Cm1 : Fin 50000 → Fin 128 → EReal :=
  mlp (toFn (m ((c : Thread nD τ).loc main_arg0))) (toFn (aggK (m ((c : Thread nD τ).loc main_arg1)) (m ((c : Thread nD τ).loc main_arg0)))) (toFn (m ((c : Thread nD τ).loc main_arg2)))
    (fun k => rowOf128 (m ((c : Thread nD τ).loc main_arg3)) (ix2 0 k)) (toFn (m ((c : Thread nD τ).loc main_arg4))) (fun k => rowOf128 (m ((c : Thread nD τ).loc main_arg5)) (ix2 0 k))

/-- The first layer's output: what the second region leaves. -/
abbrev D1 : Mat 50000 128 :=
  ofFn (layerK nWord epsWord (aggFn (aggK (m ((c : Thread nD τ).loc main_arg1)))) (toFn (m ((c : Thread nD τ).loc main_arg0))) (toFn (m ((c : Thread nD τ).loc main_arg2))) (toFn1 (m ((c : Thread nD τ).loc main_arg3)))
    (toFn (m ((c : Thread nD τ).loc main_arg4))) (toFn1 (m ((c : Thread nD τ).loc main_arg5))) (toFn1 (m ((c : Thread nD τ).loc main_arg6))) (toFn1 (m ((c : Thread nD τ).loc main_arg7))))

/-- The third region's output matrix. -/
abbrev Cm2 : Fin 50000 → Fin 2 → EReal :=
  mlp (toFn (D1 m c)) (toFn (aggK (m ((c : Thread nD τ).loc main_arg1)) (D1 m c))) (toFn (m ((c : Thread nD τ).loc main_arg8)))
    (fun k => rowOf128 (m ((c : Thread nD τ).loc main_arg9)) (ix2 0 k)) (toFn (m ((c : Thread nD τ).loc main_arg10))) (fun k => rowOf2 (m ((c : Thread nD τ).loc main_arg11)) (ix2 0 k))

theorem W2_v16_0 : W2 m ρ c (Proc.devRef .tc main_v16_0) = ofFn (Cm1 m c) :=
  (W2_arr m ρ c 6).trans (reg0_final6 (V1 m ρ) c _ _ _ _ _ _ (W1_arg0 m ρ c) (W1_v13 m ρ c) (W1_arg2 m ρ c) (W1_v14 m ρ c) (W1_arg4 m ρ c) (W1_v15 m ρ c))
theorem W2_v16_1 : W2 m ρ c (Proc.devRef .tc main_v16_1) = fun i => colSum (Cm1 m c) (i 1) :=
  (W2_arr m ρ c 7).trans (reg0_final7 (V1 m ρ) c _ _ _ _ _ _ (W1_arg0 m ρ c) (W1_v13 m ρ c) (W1_arg2 m ρ c) (W1_v14 m ρ c) (W1_arg4 m ρ c) (W1_v15 m ρ c))
theorem W2_v16_2 : W2 m ρ c (Proc.devRef .tc main_v16_2) = fun i => colSumSq (Cm1 m c) (i 1) :=
  (W2_arr m ρ c 8).trans (reg0_final8 (V1 m ρ) c _ _ _ _ _ _ (W1_arg0 m ρ c) (W1_v13 m ρ c) (W1_arg2 m ρ c) (W1_v14 m ρ c) (W1_arg4 m ρ c) (W1_v15 m ρ c))

theorem W4_v29 : W4 m ρ c (Proc.devRef .tc main_v29) = D1 m c := by
  refine (W4_arr m ρ c 5).trans ?_
  refine (reg1_final (V3 m ρ) c _ _ _ _ _
    ((W3_v16_0 m ρ c).trans (W2_v16_0 m ρ c))
    ((W3_v25 m ρ c).trans (congrArg meanRow128 (W2_v16_1 m ρ c)))
    ((W3_v26 m ρ c).trans (congrArg₂ varRow128 (W2_v16_1 m ρ c) (W2_v16_2 m ρ c)))
    (W3_v27 m ρ c) (W3_v28 m ρ c)).trans ?_
  exact layer128_eq (aggK (m ((c : Thread nD τ).loc main_arg1))) _ _ _ _ _ _ _

theorem W6_v42_0 : W6 m ρ c (Proc.devRef .tc main_v42_0) = ofFn (Cm2 m c) :=
  (W6_arr m ρ c 6).trans (reg2_final6 (V5 m ρ) c _ _ _ _ _ _ ((W5_v29 m ρ c).trans (W4_v29 m ρ c))
    ((W5_v39 m ρ c).trans (congrArg (aggK (m ((c : Thread nD τ).loc main_arg1))) (W4_v29 m ρ c))) (W5_arg8 m ρ c) (W5_v40 m ρ c) (W5_arg10 m ρ c) (W5_v41 m ρ c))
theorem W6_v42_1 : W6 m ρ c (Proc.devRef .tc main_v42_1) = fun i => colSum (Cm2 m c) (i 1) :=
  (W6_arr m ρ c 7).trans (reg2_final7 (V5 m ρ) c _ _ _ _ _ _ ((W5_v29 m ρ c).trans (W4_v29 m ρ c))
    ((W5_v39 m ρ c).trans (congrArg (aggK (m ((c : Thread nD τ).loc main_arg1))) (W4_v29 m ρ c))) (W5_arg8 m ρ c) (W5_v40 m ρ c) (W5_arg10 m ρ c) (W5_v41 m ρ c))
theorem W6_v42_2 : W6 m ρ c (Proc.devRef .tc main_v42_2) = fun i => colSumSq (Cm2 m c) (i 1) :=
  (W6_arr m ρ c 8).trans (reg2_final8 (V5 m ρ) c _ _ _ _ _ _ ((W5_v29 m ρ c).trans (W4_v29 m ρ c))
    ((W5_v39 m ρ c).trans (congrArg (aggK (m ((c : Thread nD τ).loc main_arg1))) (W4_v29 m ρ c))) (W5_arg8 m ρ c) (W5_v40 m ρ c) (W5_arg10 m ρ c) (W5_v41 m ρ c))

/-- The result buffer at the last boundary is the two layers of the specification, in the kernel's form. -/
theorem W8_v55 : W8 m ρ c (Proc.devRef .tc main_v55)
    = GK (aggK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 5).trans ?_
  refine (reg3_final (V7 m ρ) c _ _ _ _ _
    ((W7_v42_0 m ρ c).trans (W6_v42_0 m ρ c))
    ((W7_v51 m ρ c).trans (congrArg meanRow2 (W6_v42_1 m ρ c)))
    ((W7_v52 m ρ c).trans (congrArg₂ varRow2 (W6_v42_1 m ρ c) (W6_v42_2 m ρ c)))
    (W7_v53 m ρ c) (W7_v54 m ρ c)).trans ?_
  refine (layer2_eq (aggK (m ((c : Thread nD τ).loc main_arg1))) (D1 m c) _ _ _ _ _ _).trans ?_
  unfold GK
  rw [show toFn (D1 m c) = _ from toFn_ofFn _]

/-- The kernel program's run with its result named as the specification's function of the launch arguments. -/
theorem kernel_run : θ_run defs (onTc (τ := τ) (main (F := Ideal))) ⟨m, fun _ => 0, ρ⟩ (fun r => ∀ c : Dev nD,
      r.2.mem ((c.tc : Thread nD τ).loc main_v55)
        = GK (aggK (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1).trans (W8_v55 m ρ c), (h c).2⟩) (run_value m ρ)

end Cert.KernelIdeal.KValue

end
-- ==== Proof.KAggFin.lean ====
/-
  The neighbour aggregation keeps real entries real: a gathered entry is an entry of the operand, and an entry of
  the accumulating scatter is the zero operand's entry (the real 0) plus a finite sum of gathered entries; a finite
  sum of reals, read in the extended reals, is a real.
-/
import proofs.«147710_j68719477376_1_alg».proof.Proof.KAgg
import Idealize.ShloMosaic.PureOps.Ideal.Laws

noncomputable section

namespace Cert.KernelIdeal.KValue

open Cert.KernelIdeal Cert.KernelIdeal.Gen Idealize.ShloMosaic

/-- A finite sum of extended reals each of which is a real is a real. -/
theorem ereal_sum_real {ι : Type} (s : Finset ι) (f : ι → EReal) (hf : ∀ j ∈ s, ∃ v : ℝ, f j = (v : EReal)) :
    ∃ v : ℝ, ∑ j ∈ s, f j = (v : EReal) := by
  classical
  induction s using Finset.induction_on with
  | empty => exact ⟨0, by rw [Finset.sum_empty, EReal.coe_zero]⟩
  | insert a s ha ih =>
    obtain ⟨va, hva⟩ := hf a (Finset.mem_insert_self a s)
    obtain ⟨vs, hvs⟩ := ih (fun j hj => hf j (Finset.mem_insert_of_mem hj))
    exact ⟨va + vs, by rw [Finset.sum_insert ha, hva, hvs, EReal.coe_add]⟩

/-- The accumulating scatter of real updates into a real operand is real at every entry, whatever the indices:
    an entry is the operand's plus the sum of the updates that land on it. -/
theorem hostScatterAdd_real {s si su : Shape} (d : ScatterDims s si su) {w : Nat} (x : s.Idx → EReal) (idx : IVec si w)
    (upd : su.Idx → EReal) (hx : ∀ i, ∃ v : ℝ, x i = (v : EReal)) (hu : ∀ j, ∃ v : ℝ, upd j = (v : EReal)) :
    ∀ i, ∃ v : ℝ, Ideal.hostScatterAdd d x idx upd i = (v : EReal) := by
  intro i
  unfold Ideal.hostScatterAdd
  obtain ⟨a, ha⟩ := hx i
  obtain ⟨b, hb⟩ := ereal_sum_real _ upd (fun j _ => hu j)
  exact ⟨a + b, by rw [ha, hb, EReal.coe_add]⟩

/-- A gather of a real array is real at every entry, whatever the indices: an entry is some entry of the operand. -/
theorem gather_real {s si t : Shape} (d : GatherDims s si t) {w : Nat} (x : s.Idx → EReal) (idx : IVec si w)
    (hx : ∀ i, ∃ v : ℝ, x i = (v : EReal)) : ∀ j, ∃ v : ℝ, Host.gather d x idx j = (v : EReal) :=
  fun j => hx (d.operandIdx j idx)

/-- A splat constant reads the extended real its word encodes, at every index. -/
theorem constant_read {s : Shape} (b : BitVec FTy.f32.bits) (i : s.Idx) :
    constant (F := Ideal) s .f32 b i = Ideal.ofBits .f32 b := rfl

/-- A broadcast scalar splat reads the extended real its word encodes, at every index. -/
theorem bcast_constant_read (b : BitVec FTy.f32.bits) (i : S50000x128.Idx) :
    broadcastInDim S50000x128 ![] bcast_S_S50000x128 (constant (F := Ideal) S_ .f32 b) i = Ideal.ofBits .f32 b := rfl

/-- The zero operand of the aggregation is the real 0 at every entry. -/
theorem zeroMat_real (i : S50000x128.Idx) : ∃ v : ℝ,
    broadcastInDim S50000x128 ![] bcast_S_S50000x128 (constant (F := Ideal) S_ .f32 0x00000000#32) i = (v : EReal) :=
  ⟨0, (bcast_constant_read 0x00000000#32 i).trans (Eq.trans Ideal.ofBits_zero_f32 EReal.coe_zero.symm)⟩

/-- The aggregation is the accumulating scatter of the gathered source rows into the zero matrix. -/
theorem aggK_eq (ei : EI) (X : NodeMat) : aggK ei X =
    Ideal.hostScatterAdd scatter_S50000x128_S1600000x1_S1600000x128_1_0_0_1
      (broadcastInDim S50000x128 ![] bcast_S_S50000x128 (constant (F := Ideal) S_ .f32 0x00000000#32))
      (dstCol ei)
      (Host.gather gather_S50000x128_S1600000x1_S1600000x128_1_0_n_n_0_1_1128 X (srcCol ei)) := rfl

/-- Every entry of the aggregation of a matrix of reals is a real. -/
theorem aggK_fin (ei : EI) (X : NodeMat) (hX : ∀ i, ∃ v : ℝ, X i = (v : EReal)) :
    ∀ i, ∃ v : ℝ, aggK ei X i = (v : EReal) := by
  intro i
  rw [aggK_eq]
  exact hostScatterAdd_real _ _ _ _ zeroMat_real
    (gather_real gather_S50000x128_S1600000x1_S1600000x128_1_0_n_n_0_1_1128 X (srcCol ei) hX) i

end Cert.KernelIdeal.KValue

end
-- ==== Proof.RefAgg.lean ====
/-
  The neighbour aggregation as the reference writes it, as a function of the edge array and a node matrix: the
  rows of the matrix at the edges' sources, added into the rows of a zero matrix at the edges' destinations.
-/
import proofs.«147710_j68719477376_1_alg».proof.Proof.Gen.ReferenceIdeal.Read
import proofs.«147710_j68719477376_1_alg».proof.Proof.SpecAt

noncomputable section

namespace Cert.ReferenceIdeal.RefValue

open Cert.ReferenceIdeal Idealize.ShloMosaic

/-- The reference's aggregation of the node matrix `X` along the edges `ei`. -/
def aggR (ei : (⟨S2x1600000, .i32⟩ : BufTy).Contents (Elt Ideal)) (X : Cert.GinSpec.Mat 50000 128) : Cert.GinSpec.Mat 50000 128 :=
  Cert.ReferenceIdeal.Read.val_main_v13 (F := Ideal) X ei

end Cert.ReferenceIdeal.RefValue

end
-- ==== Proof.RefSide2.lean ====
/-
  The second half of the reference's value: its second neighbour aggregation is the aggregation of the first
  layer's output; the second pair of dense maps, read entry by entry, is the two dense maps of the mathematics;
  and the final column-wise normalisation is the normalisation with the variance as mean of squared deviations.
-/
import proofs.«147710_j68719477376_1_alg».proof.Proof.RefAgg
import proofs.«147710_j68719477376_1_alg».proof.Proof.SpecAt
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx Cert.GinSpec

/-! ### The mathematics read at an entry -/

/-- Two dense maps, each followed by max · 0, at entry (r, j). -/
theorem mlp_apply {ρ α β γ : Type} [Fintype ρ] [Fintype α] [Fintype β] [Fintype γ] (h a : ρ → α → EReal)
    (w1 : α → β → EReal) (b1 : β → EReal) (w2 : β → γ → EReal) (b2 : γ → EReal) (r : ρ) (j : γ) :
    mlp h a w1 b1 w2 b2 r j
      = max ((∑ k, max ((∑ l, (h r l + a r l) * w1 l k) + b1 k) 0 * w2 k j) + b2 j) 0 := rfl

theorem toFn_apply {R C : Nat} (x : Mat R C) (r : Fin R) (l : Fin C) : toFn x r l = x (ix2 r l) := rfl

theorem toFn1_apply {C : Nat} (b : Row C) (k : Fin C) : toFn1 b k = b (ix1 k) := rfl

/-! ### The index maps of the second pair of dense maps, at coordinates -/

theorem lidx70 (r : Fin 50000) (j : Fin 2) (k : Fin 128) : Read.lidx_main_v70 (ix2 r j) k = ix2 r k :=
  funext fun a => Fin.ext (by match a with | ⟨0, _⟩ => rfl | ⟨1, _⟩ => rfl)

theorem ridx70 (r : Fin 50000) (j : Fin 2) (k : Fin 128) : Read.ridx_main_v70 (ix2 r j) k = ix2 k j :=
  funext fun a => Fin.ext (by match a with | ⟨0, _⟩ => rfl | ⟨1, _⟩ => rfl)

theorem lidx65 (r : Fin 50000) (k l : Fin 128) : Read.lidx_main_v65 (ix2 r k) l = ix2 r l :=
  funext fun a => Fin.ext (by match a with | ⟨0, _⟩ => rfl | ⟨1, _⟩ => rfl)

theorem ridx65 (r : Fin 50000) (k l : Fin 128) : Read.ridx_main_v65 (ix2 r k) l = ix2 l k :=
  funext fun a => Fin.ext (by match a with | ⟨0, _⟩ => rfl | ⟨1, _⟩ => rfl)

theorem idx67 (r : Fin 50000) (k : Fin 128) : Read.idx_main_v66 (Read.idx_main_v67 (ix2 r k)) = ix1 k :=
  funext fun a => Fin.ext (by match a with | ⟨0, _⟩ => rfl)

theorem idx72 (r : Fin 50000) (j : Fin 2) : Read.idx_main_v71 (Read.idx_main_v72 (ix2 r j)) = ix1 j :=
  funext fun a => Fin.ext (by match a with | ⟨0, _⟩ => rfl)

/-! ### The second aggregation -/

/-- The reference's second aggregation is its aggregation applied to the first layer's output. -/
theorem agg2 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) :
    Read.val_main_v63 (F := Ideal) x0 x1 x2 x3 x4 x5 x6 x7 = aggR x1 (Read.val_main_v49 (F := Ideal) x0 x1 x2 x3 x4 x5 x6 x7) := rfl

/-! ### The second pair of dense maps -/

/-- The second layer's two dense maps, as the reference computes them, are the two dense maps of the mathematics on
    the first layer's output and its aggregation. -/
theorem stage3 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x2, .f32⟩ : BufTy).Contents (Elt Ideal)) (x11 : (⟨S2, .f32⟩ : BufTy).Contents (Elt Ideal)) :
    Read.val_main_v74 (F := Ideal) x0 x1 x2 x3 x4 x5 x6 x7 x8 x9 x10 x11
      = ofFn (mlp (toFn (Read.val_main_v49 (F := Ideal) x0 x1 x2 x3 x4 x5 x6 x7)) (toFn (aggR x1 (Read.val_main_v49 (F := Ideal) x0 x1 x2 x3 x4 x5 x6 x7)))
          (toFn x8) (toFn1 x9) (toFn x10) (toFn1 x11)) := by
  rw [← agg2]
  funext i
  obtain ⟨r, j, rfl⟩ : ∃ r j, i = ix2 r j := ⟨i 0, i 1, eq_ix2 i⟩
  rw [ofFn_apply, mlp_apply]
  rw [Read.val_main_v74_apply, Read.val_main_v73_apply, Read.val_main_v70_apply, Read.val_main_v72_apply,
    Read.val_main_v71_apply, Read.val_main_call3_v0_apply, Read.val_main_call3_cst_apply, idx72,
    Ideal.maximumf_def, Ideal.addf_def, Ideal.ofBits_def, Ideal.ofBits_zero_f32, toFn1_apply x11]
  refine congrArg (fun t => max (t + x11 (ix1 j)) 0) (Finset.sum_congr rfl fun k _ => ?_)
  rw [lidx70, ridx70, toFn_apply x10, toFn1_apply x9,
    Read.val_main_v69_apply, Read.val_main_v68_apply, Read.val_main_v65_apply, Read.val_main_v67_apply,
    Read.val_main_v66_apply, idx67, Read.val_main_call2_v0_apply, Read.val_main_call2_cst_apply,
    Ideal.maximumf_def, Ideal.addf_def, Ideal.ofBits_def, Ideal.ofBits_zero_f32]
  refine congrArg (fun t => max (t + x9 (ix1 k)) 0 * x10 (ix2 k j)) (Finset.sum_congr rfl fun l _ => ?_)
  rw [lidx65, ridx65, Read.val_main_v64_apply, Ideal.addf_def, toFn_apply x8,
    toFn_apply (Read.val_main_v49 (F := Ideal) x0 x1 x2 x3 x4 x5 x6 x7), toFn_apply (Read.val_main_v63 (F := Ideal) x0 x1 x2 x3 x4 x5 x6 x7)]

/-! ### The final normalisation -/

/-- The column-wise normalisation in the second form, at entry (r, j). -/
theorem bnR_apply {ρ β : Type} [Fintype ρ] [Fintype β] (n e : EReal) (c : ρ → β → EReal) (g be : β → EReal)
    (r : ρ) (j : β) :
    bnR n e c g be r j
      = (c r j - Ideal.div (∑ r', c r' j) n)
          * Ideal.rsqrt (Ideal.div (∑ r', (c r' j - Ideal.div (∑ r'', c r'' j) n)
              * (c r' j - Ideal.div (∑ r'', c r'' j) n)) n + e) * g j + be j := rfl

theorem idx75 (j : Fin 2) (k : Fin 50000) : Read.idx_main_v75 (ix1 j) k = ix2 k j :=
  funext fun a => Fin.ext (by match a with | ⟨0, _⟩ => rfl | ⟨1, _⟩ => rfl)

theorem idx82 (j : Fin 2) (k : Fin 50000) : Read.idx_main_v82 (ix1 j) k = ix2 k j :=
  funext fun a => Fin.ext (by match a with | ⟨0, _⟩ => rfl | ⟨1, _⟩ => rfl)

theorem idx79 (r : Fin 50000) (j : Fin 2) : Read.idx_main_v78 (Read.idx_main_v79 (ix2 r j)) = ix1 j :=
  funext fun a => Fin.ext (by match a with | ⟨0, _⟩ => rfl)

theorem idx86 (r : Fin 50000) (j : Fin 2) : Read.idx_main_v85 (Read.idx_main_v86 (ix2 r j)) = ix1 j :=
  funext fun a => Fin.ext (by match a with | ⟨0, _⟩ => rfl)

theorem idx92 (r : Fin 50000) (j : Fin 2) : Read.idx_main_v91 (Read.idx_main_v92 (ix2 r j)) = ix1 j :=
  funext fun a => Fin.ext (by match a with | ⟨0, _⟩ => rfl)

theorem idx95 (r : Fin 50000) (j : Fin 2) : Read.idx_main_v94 (Read.idx_main_v95 (ix2 r j)) = ix1 j :=
  funext fun a => Fin.ext (by match a with | ⟨0, _⟩ => rfl)

theorem idx98 (r : Fin 50000) (j : Fin 2) : Read.idx_main_v97 (Read.idx_main_v98 (ix2 r j)) = ix1 j :=
  funext fun a => Fin.ext (by match a with | ⟨0, _⟩ => rfl)

/-- The reference's column mean of the second layer's dense output, at column j. -/
theorem mean_read (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x2, .f32⟩ : BufTy).Contents (Elt Ideal)) (x11 : (⟨S2, .f32⟩ : BufTy).Contents (Elt Ideal)) (j : Fin 2) :
    Read.val_main_v77 (F := Ideal) x0 x1 x2 x3 x4 x5 x6 x7 x8 x9 x10 x11 (ix1 j)
      = Ideal.div (∑ k : Fin 50000, toFn (Read.val_main_v74 (F := Ideal) x0 x1 x2 x3 x4 x5 x6 x7 x8 x9 x10 x11) k j) nWord := by
  unfold nWord
  rw [Read.val_main_v77_apply, Read.val_main_v75_apply, Read.val_main_v76_apply, Read.val_main_cst_10_apply,
    Read.val_main_cst_9_apply, Ideal.hostDivf_def, Ideal.ofBits_def, Ideal.ofBits_def, Ideal.ofBits_zero_f32, zero_add]
  refine congrArg (fun t => Ideal.div t (Ideal.ofBits .f32 0x47435000#32)) (Finset.sum_congr rfl fun k _ => ?_)
  rw [idx75, toFn_apply (Read.val_main_v74 (F := Ideal) x0 x1 x2 x3 x4 x5 x6 x7 x8 x9 x10 x11)]

/-- The reference's column variance (mean of squared deviations) of the second layer's dense output, at column j. -/
theorem var_read (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x2, .f32⟩ : BufTy).Contents (Elt Ideal)) (x11 : (⟨S2, .f32⟩ : BufTy).Contents (Elt Ideal)) (j : Fin 2) :
    Read.val_main_v84 (F := Ideal) x0 x1 x2 x3 x4 x5 x6 x7 x8 x9 x10 x11 (ix1 j)
      = Ideal.div (∑ k : Fin 50000,
          (toFn (Read.val_main_v74 (F := Ideal) x0 x1 x2 x3 x4 x5 x6 x7 x8 x9 x10 x11) k j - Ideal.div (∑ k' : Fin 50000, toFn (Read.val_main_v74 (F := Ideal) x0 x1 x2 x3 x4 x5 x6 x7 x8 x9 x10 x11) k' j) nWord)
          * (toFn (Read.val_main_v74 (F := Ideal) x0 x1 x2 x3 x4 x5 x6 x7 x8 x9 x10 x11) k j - Ideal.div (∑ k' : Fin 50000, toFn (Read.val_main_v74 (F := Ideal) x0 x1 x2 x3 x4 x5 x6 x7 x8 x9 x10 x11) k' j) nWord)) nWord := by
  rw [Read.val_main_v84_apply, Read.val_main_v82_apply, Read.val_main_v83_apply, Read.val_main_cst_12_apply,
    Read.val_main_cst_11_apply, Ideal.hostDivf_def, Ideal.ofBits_def, Ideal.ofBits_def, Ideal.ofBits_zero_f32, zero_add]
  rw [show Ideal.ofBits .f32 0x47435000#32 = nWord from rfl]
  refine congrArg (fun t => Ideal.div t nWord) (Finset.sum_congr rfl fun k _ => ?_)
  rw [idx82, Read.val_main_v81_apply, Read.val_main_v80_apply, Read.val_main_v79_apply, Read.val_main_v78_apply,
    idx79, mean_read, Ideal.mulf_def, Ideal.subf_def, toFn_apply (Read.val_main_v74 (F := Ideal) x0 x1 x2 x3 x4 x5 x6 x7 x8 x9 x10 x11) k j]

/-- The reference's result is the normalisation, with the variance as mean of squared deviations, of the second
    layer's dense output. -/
theorem stage4 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x2, .f32⟩ : BufTy).Contents (Elt Ideal)) (x11 : (⟨S2, .f32⟩ : BufTy).Contents (Elt Ideal)) (x12 x13 : (⟨S2, .f32⟩ : BufTy).Contents (Elt Ideal)) :
    Read.val_main_v99 (F := Ideal) x0 x1 x2 x3 x4 x5 x6 x7 x8 x9 x10 x11 x12 x13
      = ofFn (bnR nWord epsWord (toFn (Read.val_main_v74 (F := Ideal) x0 x1 x2 x3 x4 x5 x6 x7 x8 x9 x10 x11)) (toFn1 x12) (toFn1 x13)) := by
  funext i
  obtain ⟨r, j, rfl⟩ : ∃ r j, i = ix2 r j := ⟨i 0, i 1, eq_ix2 i⟩
  rw [ofFn_apply, bnR_apply, toFn1_apply x12, toFn1_apply x13, toFn_apply (Read.val_main_v74 (F := Ideal) x0 x1 x2 x3 x4 x5 x6 x7 x8 x9 x10 x11) r j]
  rw [Read.val_main_v99_apply, Read.val_main_v98_apply, Read.val_main_v97_apply, idx98,
    Read.val_main_v96_apply, Read.val_main_v95_apply, Read.val_main_v94_apply, idx95,
    Read.val_main_v93_apply, Read.val_main_v87_apply, Read.val_main_v86_apply, Read.val_main_v85_apply, idx86, mean_read,
    Read.val_main_v92_apply, Read.val_main_v91_apply, idx92, Read.val_main_v90_apply, Read.val_main_v89_apply, var_read,
    Read.val_main_v88_apply, Read.val_main_cst_13_apply,
    Ideal.addf_def, Ideal.addf_def, Ideal.mulf_def, Ideal.mulf_def, Ideal.subf_def, Ideal.hostUnary_rsqrt_def, Ideal.ofBits_def]
  rw [show Ideal.ofBits .f32 0x3727C5AC#32 = epsWord from rfl]

end Cert.ReferenceIdeal.RefValue

end
-- ==== Proof.SpecLaws.lean ====
/-
  Laws of the layer mathematics over the extended reals.

  On matrices all of whose entries are real numbers: finite sums, products, max · 0 and the column-wise
  normalisation (with a positive ε under the reciprocal square root) stay real; with n the number of rows, the
  variance written as mean of squares minus squared mean equals the variance written as mean of squared
  deviations, so the two normalisations, one layer in either form, and two stacked layers in either form agree.
-/
import proofs.«147710_j68719477376_1_alg».proof.Proof.Spec

noncomputable section

namespace Cert.GinSpec

open Idealize.ShloMosaic

variable {ρ α β γ : Type} [Fintype ρ] [Fintype α] [Fintype β] [Fintype γ]

/-! ### Coercions of finite sums -/

/-- A finite sum of real numbers, read in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### The two forms of the variance agree on the reals -/

/-- Over the reals, with n the number of rows: mean of squares minus squared mean equals the mean of the
    squared deviations. -/
theorem real_var_identity {ρ : Type} [Fintype ρ] (n : ℝ) (hn : 0 < n) (hcard : (Fintype.card ρ : ℝ) = n)
    (v : ρ → ℝ) :
    (∑ r, v r * v r) * (1 / n) - ((∑ r, v r) * (1 / n)) * ((∑ r, v r) * (1 / n))
      = (∑ r, (v r - (∑ r, v r) * (1 / n)) * (v r - (∑ r, v r) * (1 / n))) * (1 / n) := by
  have hn0 : n ≠ 0 := ne_of_gt hn
  generalize hS : (∑ r, v r) = S
  generalize hm : S * (1 / n) = m
  have h1 : ∑ r, (v r - m) * (v r - m) = (∑ r, v r * v r) - 2 * m * S + n * (m * m) := by
    have h2 : ∀ r, (v r - m) * (v r - m) = v r * v r - 2 * m * v r + m * m := fun r => by ring
    simp only [h2]
    rw [Finset.sum_add_distrib, Finset.sum_sub_distrib, ← Finset.mul_sum, Finset.sum_const, Finset.card_univ,
      nsmul_eq_mul, hcard, hS]
  rw [h1, ← hm]
  field_simp
  ring

/-- The mean of a real column is real. -/
theorem mean_coe (n : ℝ) (hn : 0 < n) (c : ρ → β → EReal) (v : ρ → β → ℝ) (hv : ∀ r j, c r j = (v r j : EReal))
    (j : β) : mean (n : EReal) c j = (((∑ r, v r j) * (1 / n) : ℝ) : EReal) := by
  unfold mean colSum
  rw [Ideal.div_coe (ne_of_gt hn)]
  simp only [hv]
  rw [coe_sum, ← EReal.coe_mul]

/-- The first form of the variance of a real column is real. -/
theorem varK_coe (n : ℝ) (hn : 0 < n) (c : ρ → β → EReal) (v : ρ → β → ℝ) (hv : ∀ r j, c r j = (v r j : EReal))
    (j : β) : varK (n : EReal) c j
      = (((∑ r, v r j * v r j) * (1 / n) - ((∑ r, v r j) * (1 / n)) * ((∑ r, v r j) * (1 / n)) : ℝ) : EReal) := by
  unfold varK
  rw [mean_coe n hn c v hv j]
  unfold colSumSq
  rw [Ideal.div_coe (ne_of_gt hn)]
  simp only [hv, ← EReal.coe_mul]
  rw [coe_sum, ← EReal.coe_mul, ← EReal.coe_sub]

/-- The second form of the variance of a real column is real. -/
theorem varR_coe (n : ℝ) (hn : 0 < n) (c : ρ → β → EReal) (v : ρ → β → ℝ) (hv : ∀ r j, c r j = (v r j : EReal))
    (j : β) : varR (n : EReal) c j
      = (((∑ r, (v r j - (∑ r, v r j) * (1 / n)) * (v r j - (∑ r, v r j) * (1 / n))) * (1 / n) : ℝ) : EReal) := by
  unfold varR
  rw [mean_coe n hn c v hv j, Ideal.div_coe (ne_of_gt hn)]
  simp only [hv, ← EReal.coe_sub, ← EReal.coe_mul]
  rw [coe_sum, ← EReal.coe_mul]

/-- On a matrix of reals with n rows, the two forms of the variance agree. -/
theorem varK_eq_varR (n : ℝ) (hn : 0 < n) (hcard : (Fintype.card ρ : ℝ) = n) (c : ρ → β → EReal) (hc : Fin2 c) :
    varK (n : EReal) c = varR (n : EReal) c := by
  choose v hv using hc
  funext j
  rw [varK_coe n hn c v hv j, varR_coe n hn c v hv j, real_var_identity n hn hcard (fun r => v r j)]

/-- On a matrix of reals with n rows, the two normalisations agree. -/
theorem bnK_eq_bnR (n : ℝ) (hn : 0 < n) (hcard : (Fintype.card ρ : ℝ) = n) (e : EReal) (c : ρ → β → EReal)
    (hc : Fin2 c) (g be : β → EReal) : bnK (n : EReal) e c g be = bnR (n : EReal) e c g be := by
  unfold bnK bnR
  rw [varK_eq_varR n hn hcard c hc]

/-! ### Realness is preserved -/

/-- The second form of the variance of a real column is a nonnegative real. -/
theorem varR_nonneg (n : ℝ) (hn : 0 < n) (v : ρ → ℝ) :
    0 ≤ (∑ r, (v r - (∑ r, v r) * (1 / n)) * (v r - (∑ r, v r) * (1 / n))) * (1 / n) := by
  apply mul_nonneg
  · exact Finset.sum_nonneg (fun r _ => mul_self_nonneg _)
  · exact le_of_lt (one_div_pos.mpr hn)

/-- Reciprocal square root of a positive real is real. -/
theorem rsqrt_pos (r : ℝ) (hr : 0 < r) : Ideal.rsqrt (r : EReal) = (((Real.sqrt r)⁻¹ : ℝ) : EReal) := by
  rw [Ideal.rsqrt_coe, if_neg (not_lt.mpr (le_of_lt hr)), if_neg (ne_of_gt hr)]

/-- Normalising a matrix of reals with n rows, a positive ε and real scale and shift gives reals. -/
theorem bnR_fin (n : ℝ) (hn : 0 < n) (ε : ℝ) (hε : 0 < ε) (c : ρ → β → EReal)
    (hc : Fin2 c) (g be : β → EReal) (hg : Fin1 g) (hbe : Fin1 be) :
    Fin2 (bnR (n : EReal) (ε : EReal) c g be) := by
  choose v hv using hc
  intro r j
  obtain ⟨gv, hgv⟩ := hg j
  obtain ⟨bv, hbv⟩ := hbe j
  unfold bnR norm
  rw [mean_coe n hn c v hv j, varR_coe n hn c v hv j, hv r j, hgv, hbv, ← EReal.coe_add,
    rsqrt_pos _ (add_pos_of_nonneg_of_pos (varR_nonneg n hn (fun r => v r j)) hε),
    ← EReal.coe_sub, ← EReal.coe_mul, ← EReal.coe_mul, ← EReal.coe_add]
  exact ⟨_, rfl⟩

/-- A dense map followed by max · 0 sends reals to reals. -/
theorem dense_fin (x : ρ → α → EReal) (w : α → β → EReal) (b : β → EReal)
    (hx : Fin2 x) (hw : Fin2 w) (hb : Fin1 b) : Fin2 (dense x w b) := by
  choose xv hxv using hx
  choose wv hwv using hw
  intro r k
  obtain ⟨bv, hbv⟩ := hb k
  unfold dense
  simp only [hxv, hwv, ← EReal.coe_mul]
  rw [coe_sum, hbv, ← EReal.coe_add, ← EReal.coe_zero]
  rcases le_total (((∑ l, xv r l * wv l k) + bv : ℝ)) 0 with h | h
  · exact ⟨0, max_eq_right (EReal.coe_le_coe_iff.mpr h)⟩
  · exact ⟨_, max_eq_left (EReal.coe_le_coe_iff.mpr h)⟩

/-- Two dense maps on the rows of h + a send reals to reals. -/
theorem mlp_fin (h a : ρ → α → EReal) (w1 : α → β → EReal) (b1 : β → EReal) (w2 : β → γ → EReal) (b2 : γ → EReal)
    (hh : Fin2 h) (ha : Fin2 a) (hw1 : Fin2 w1) (hb1 : Fin1 b1) (hw2 : Fin2 w2) (hb2 : Fin1 b2) :
    Fin2 (mlp h a w1 b1 w2 b2) := by
  unfold mlp
  refine dense_fin _ _ _ (dense_fin _ _ _ ?_ hw1 hb1) hw2 hb2
  intro r l
  obtain ⟨hv, hhv⟩ := hh r l
  obtain ⟨av, hav⟩ := ha r l
  exact ⟨hv + av, by show h r l + a r l = _; rw [hhv, hav, EReal.coe_add]⟩

/-! ### One layer and two layers -/

/-- One layer on reals: the two forms agree. -/
theorem layer_eq (n : ℝ) (hn : 0 < n) (hcard : (Fintype.card ρ : ℝ) = n) (ε : ℝ)
    (agg : (ρ → α → EReal) → ρ → α → EReal) (hagg : ∀ x, Fin2 x → Fin2 (agg x)) (x : ρ → α → EReal)
    (w1 : α → β → EReal) (b1 : β → EReal) (w2 : β → γ → EReal) (b2 : γ → EReal) (g be : γ → EReal)
    (hx : Fin2 x) (hw1 : Fin2 w1) (hb1 : Fin1 b1) (hw2 : Fin2 w2) (hb2 : Fin1 b2) :
    layerK (n : EReal) (ε : EReal) agg x w1 b1 w2 b2 g be = layerR (n : EReal) (ε : EReal) agg x w1 b1 w2 b2 g be := by
  unfold layerK layerR
  exact bnK_eq_bnR n hn hcard _ _ (mlp_fin _ _ _ _ _ _ hx (hagg x hx) hw1 hb1 hw2 hb2) g be

/-- One layer on reals, in the second form, gives reals. -/
theorem layerR_fin (n : ℝ) (hn : 0 < n) (ε : ℝ) (hε : 0 < ε)
    (agg : (ρ → α → EReal) → ρ → α → EReal) (hagg : ∀ x, Fin2 x → Fin2 (agg x)) (x : ρ → α → EReal)
    (w1 : α → β → EReal) (b1 : β → EReal) (w2 : β → γ → EReal) (b2 : γ → EReal) (g be : γ → EReal)
    (hx : Fin2 x) (hw1 : Fin2 w1) (hb1 : Fin1 b1) (hw2 : Fin2 w2) (hb2 : Fin1 b2) (hg : Fin1 g) (hbe : Fin1 be) :
    Fin2 (layerR (n : EReal) (ε : EReal) agg x w1 b1 w2 b2 g be) := by
  unfold layerR
  exact bnR_fin n hn ε hε _ (mlp_fin _ _ _ _ _ _ hx (hagg x hx) hw1 hb1 hw2 hb2) g be hg hbe

/-- Two layers on reals, the first mapping α-columns to α-columns and the second to γ-columns: the two forms agree. -/
theorem two_layers_eq (n : ℝ) (hn : 0 < n) (hcard : (Fintype.card ρ : ℝ) = n) (ε : ℝ) (hε : 0 < ε)
    (agg : (ρ → α → EReal) → ρ → α → EReal) (hagg : ∀ x, Fin2 x → Fin2 (agg x)) (x : ρ → α → EReal)
    (w11 : α → α → EReal) (b11 : α → EReal) (w12 : α → α → EReal) (b12 : α → EReal) (g1 be1 : α → EReal)
    (w21 : α → α → EReal) (b21 : α → EReal) (w22 : α → γ → EReal) (b22 : γ → EReal) (g2 be2 : γ → EReal)
    (hx : Fin2 x) (hw11 : Fin2 w11) (hb11 : Fin1 b11) (hw12 : Fin2 w12) (hb12 : Fin1 b12)
    (hg1 : Fin1 g1) (hbe1 : Fin1 be1)
    (hw21 : Fin2 w21) (hb21 : Fin1 b21) (hw22 : Fin2 w22) (hb22 : Fin1 b22) :
    layerK (n : EReal) (ε : EReal) agg (layerK (n : EReal) (ε : EReal) agg x w11 b11 w12 b12 g1 be1)
        w21 b21 w22 b22 g2 be2
      = layerR (n : EReal) (ε : EReal) agg (layerR (n : EReal) (ε : EReal) agg x w11 b11 w12 b12 g1 be1)
        w21 b21 w22 b22 g2 be2 := by
  rw [layer_eq n hn hcard ε agg hagg x w11 b11 w12 b12 g1 be1 hx hw11 hb11 hw12 hb12]
  exact layer_eq n hn hcard ε agg hagg _ w21 b21 w22 b22 g2 be2
    (layerR_fin n hn ε hε agg hagg x w11 b11 w12 b12 g1 be1 hx hw11 hb11 hw12 hb12 hg1 hbe1) hw21 hb21 hw22 hb22

end Cert.GinSpec

end
-- ==== Proof.SpecConsts.lean ====
/-
  The two float constants of the programs, as the extended reals their bit patterns denote.
-/
import Mathlib
import Idealize.ShloMosaic.PureOps.Ideal

noncomputable section

namespace Cert.GinSpec

open Idealize.ShloMosaic

/-- The word 0x47435000 denotes the real 50000: exponent field 142, fraction 0x435000, so (2^23 + 4411392) · 2^(142 − 127 − 23). -/
theorem n_val : Ideal.ofBits .f32 0x47435000#32 = ((50000 : ℝ) : EReal) := by
  simp [Ideal.ofBits, Ideal.ieee, -EReal.coe_mul]; norm_num

/-- The word 0x3727C5AC denotes a positive real (about 1e-5). -/
theorem eps_val : ∃ ε : ℝ, 0 < ε ∧ Ideal.ofBits .f32 0x3727C5AC#32 = (ε : EReal) := by
  refine ⟨_, ?_, by simp [Ideal.ofBits, Ideal.ieee, -EReal.coe_mul]; rfl⟩
  positivity

end Cert.GinSpec

end
-- ==== Proof.SpecAtLaws.lean ====
/-
  At the literal shapes (50000 nodes, 128 features, 2 output features): on arrays of real numbers, and with an
  aggregation that keeps arrays real, the two forms of the two-layer mathematics are the same array.
-/
import proofs.«147710_j68719477376_1_alg».proof.Proof.SpecAt
import proofs.«147710_j68719477376_1_alg».proof.Proof.SpecLaws
import proofs.«147710_j68719477376_1_alg».proof.Proof.SpecConsts

noncomputable section

namespace Cert.GinSpec

open Idealize.ShloMosaic Idealize.ShloMosaic.ValueIdx

/-! ### Realness passes between arrays and functions of a row and a column -/

/-- A matrix of reals, as a function of row and column, has real entries. -/
theorem toFn_fin {R C : Nat} (x : Mat R C) (hx : ∀ i, ∃ v : ℝ, x i = (v : EReal)) : Fin2 (toFn x) :=
  fun r l => hx (ix2 r l)

/-- A vector of reals, as a function of its position, has real entries. -/
theorem toFn1_fin {C : Nat} (b : Row C) (hb : ∀ i, ∃ v : ℝ, b i = (v : EReal)) : Fin1 (toFn1 b) :=
  fun k => hb (ix1 k)

/-- An aggregation that keeps matrices real keeps functions of row and column real. -/
theorem aggFn_fin (agg : Mat 50000 128 → Mat 50000 128)
    (hagg : ∀ X : Mat 50000 128, (∀ i, ∃ v : ℝ, X i = (v : EReal)) → ∀ i, ∃ v : ℝ, agg X i = (v : EReal))
    (X : Fin 50000 → Fin 128 → EReal) (hX : Fin2 X) : Fin2 (aggFn agg X) := by
  unfold aggFn
  exact toFn_fin _ (hagg (ofFn X) (fun i => hX (i 0) (i 1)))

/-- At 50000 nodes, on real arguments, the two programs' mathematics agree. -/
theorem GK_eq_GR (agg : Mat 50000 128 → Mat 50000 128)
    (hagg : ∀ X : Mat 50000 128, (∀ i, ∃ v : ℝ, X i = (v : EReal)) → ∀ i, ∃ v : ℝ, agg X i = (v : EReal))
    (x : Mat 50000 128) (w11 : Mat 128 128) (b11 : Row 128) (w12 : Mat 128 128) (b12 g1 be1 : Row 128)
    (w21 : Mat 128 128) (b21 : Row 128) (w22 : Mat 128 2) (b22 g2 be2 : Row 2)
    (hx : ∀ i, ∃ v : ℝ, x i = (v : EReal)) (hw11 : ∀ i, ∃ v : ℝ, w11 i = (v : EReal))
    (hb11 : ∀ i, ∃ v : ℝ, b11 i = (v : EReal)) (hw12 : ∀ i, ∃ v : ℝ, w12 i = (v : EReal))
    (hb12 : ∀ i, ∃ v : ℝ, b12 i = (v : EReal)) (hg1 : ∀ i, ∃ v : ℝ, g1 i = (v : EReal))
    (hbe1 : ∀ i, ∃ v : ℝ, be1 i = (v : EReal)) (hw21 : ∀ i, ∃ v : ℝ, w21 i = (v : EReal))
    (hb21 : ∀ i, ∃ v : ℝ, b21 i = (v : EReal)) (hw22 : ∀ i, ∃ v : ℝ, w22 i = (v : EReal))
    (hb22 : ∀ i, ∃ v : ℝ, b22 i = (v : EReal)) :
    GK agg x w11 b11 w12 b12 g1 be1 w21 b21 w22 b22 g2 be2
      = GR agg x w11 b11 w12 b12 g1 be1 w21 b21 w22 b22 g2 be2 := by
  obtain ⟨ε, hε, he⟩ := eps_val
  have hcard : (Fintype.card (Fin 50000) : ℝ) = 50000 := by simp
  unfold GK GR nWord epsWord
  rw [n_val, he]
  exact congrArg ofFn (two_layers_eq 50000 (by norm_num) hcard ε hε (aggFn agg) (aggFn_fin agg hagg) (toFn x)
    (toFn w11) (toFn1 b11) (toFn w12) (toFn1 b12) (toFn1 g1) (toFn1 be1)
    (toFn w21) (toFn1 b21) (toFn w22) (toFn1 b22) (toFn1 g2) (toFn1 be2)
    (toFn_fin x hx) (toFn_fin w11 hw11) (toFn1_fin b11 hb11) (toFn_fin w12 hw12) (toFn1_fin b12 hb12)
    (toFn1_fin g1 hg1) (toFn1_fin be1 hbe1)
    (toFn_fin w21 hw21) (toFn1_fin b21 hb21) (toFn_fin w22 hw22) (toFn1_fin b22 hb22))

end Cert.GinSpec

end
-- ==== Proof.PreFin.lean ====
/-
  From the printed precondition to the real numbers: the precondition says of every float argument array that
  all of |x| < +∞ hold; in the extended reals that excludes both infinities, so every entry is a real number.
-/
import proofs.«147710_j68719477376_1_alg».proof.Pre_finite_inputs
import Idealize.ShloMosaic.Lib.ReduceAll
import Idealize.ShloMosaic.Lib.ValueIdx
import Idealize.ShloMosaic.Lib.IdealHost
import Idealize.ShloMosaic.PureOps.Ideal

noncomputable section

namespace Cert.PreFin

open Idealize.ShloMosaic Idealize.ShloMosaic.ValueIdx Cert.Pre_finite_inputs

/-- The rank-0 shape has one index. -/
instance : Subsingleton S_.Idx := ⟨fun a b => funext fun d => d.elim0⟩

/-- The word 0x7F800000 denotes +∞. -/
theorem inf_val : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) ⊤ = 1#1) : ∃ v : ℝ, x = (v : EReal) := by
  induction x using EReal.rec with
  | bot => simp [Ideal.cmp] at h
  | coe r => exact ⟨r, rfl⟩
  | top => simp [Ideal.cmp] at h

/-- One array of the precondition: if the reduce by and of |x| < +∞ over all of x is 1, every entry of x is real. -/
theorem real_of_all {s : Shape} {axes : List (Fin s.rank)} (bc : S_.BroadcastsInDim s (![] : Fin 0 → Fin s.rank))
    (hr : s.ReducesTo axes S_) (hS : 0 < S_.numel) (x : FVec Ideal s .f32) (j : S_.Idx)
    (e : Host.reduce IntOp.andi (cmpf .olt (Host.absf x) (broadcastInDim s ![] bc (constant S_ .f32 0x7F800000#32)))
      (constantI S_ 1 1#1) hr hS j = 1#1) :
    ∀ i, ∃ v : ℝ, x i = (v : EReal) := by
  intro i
  have h := Host.reduce_andi_all _ _ hr hS j e i
  rw [cmpf_apply, broadcastInDim_scalar_apply, constant_apply, inf_val] at h
  exact real_of_abs_lt_top (x i) h

/-- The precondition, all ones, makes every entry of every float argument a real number. -/
theorem fin_of_pre [Facts] (x0 : FVec Ideal S50000x128 .f32) (x1 : IVec S2x1600000 32)
    (x2 : FVec Ideal S128x128 .f32) (x3 : FVec Ideal S128 .f32) (x4 : FVec Ideal S128x128 .f32)
    (x5 : FVec Ideal S128 .f32) (x6 : FVec Ideal S128 .f32) (x7 : FVec Ideal S128 .f32)
    (x8 : FVec Ideal S128x128 .f32) (x9 : FVec Ideal S128 .f32) (x10 : FVec Ideal S128x2 .f32)
    (x11 : FVec Ideal S2 .f32) (x12 : FVec Ideal S2 .f32) (x13 : FVec Ideal S2 .f32)
    (h : fn (F := Ideal) x0 x1 x2 x3 x4 x5 x6 x7 x8 x9 x10 x11 x12 x13 = (fun _ => 1#1)) :
    (∀ i, ∃ v : ℝ, x0 i = (v : EReal)) ∧ (∀ i, ∃ v : ℝ, x2 i = (v : EReal)) ∧ (∀ i, ∃ v : ℝ, x3 i = (v : EReal))
      ∧ (∀ i, ∃ v : ℝ, x4 i = (v : EReal)) ∧ (∀ i, ∃ v : ℝ, x5 i = (v : EReal)) ∧ (∀ i, ∃ v : ℝ, x6 i = (v : EReal))
      ∧ (∀ i, ∃ v : ℝ, x7 i = (v : EReal)) ∧ (∀ i, ∃ v : ℝ, x8 i = (v : EReal)) ∧ (∀ i, ∃ v : ℝ, x9 i = (v : EReal))
      ∧ (∀ i, ∃ v : ℝ, x10 i = (v : EReal)) ∧ (∀ i, ∃ v : ℝ, x11 i = (v : EReal))
      ∧ (∀ i, ∃ v : ℝ, x12 i = (v : EReal)) ∧ (∀ i, ∃ v : ℝ, x13 i = (v : EReal)) := by
  have h0 := congrFun h ix0
  dsimp only [fn, fn_part1, fn_part2, fn_part3] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all _ _ _ x0 ix0 e0, real_of_all _ _ _ x2 ix0 e2, real_of_all _ _ _ x3 ix0 e3,
    real_of_all _ _ _ x4 ix0 e4, real_of_all _ _ _ x5 ix0 e5, real_of_all _ _ _ x6 ix0 e6,
    real_of_all _ _ _ x7 ix0 e7, real_of_all _ _ _ x8 ix0 e8, real_of_all _ _ _ x9 ix0 e9,
    real_of_all _ _ _ x10 ix0 e10, real_of_all _ _ _ x11 ix0 e11, real_of_all _ _ _ x12 ix0 e12,
    real_of_all _ _ _ x13 ix0 e13⟩

end Cert.PreFin

end
-- ==== Proof.Assemble.lean ====
/-
  The assembly of the algebraic claim from the two programs' runs.  Each run ends with its result array equal to the
  two-layer mathematics of its argument arrays (the kernel's in the first form of the variance, the reference's in
  the second) and with the arguments unchanged.  The two neighbour aggregations are one composition of the same
  operations; the precondition makes every float argument real; on real arguments the two forms agree.
-/
import proofs.«147710_j68719477376_1_alg».proof.Defs
import proofs.«147710_j68719477376_1_alg».proof.Proof.Gen.KernelIdeal
import proofs.«147710_j68719477376_1_alg».proof.Proof.Gen.ReferenceIdeal
import proofs.«147710_j68719477376_1_alg».proof.Proof.Gen.Pre_finite_inputs
import proofs.«147710_j68719477376_1_alg».proof.Proof.Gen.ReferenceIdeal.Read
import proofs.«147710_j68719477376_1_alg».proof.Proof.KAgg
import proofs.«147710_j68719477376_1_alg».proof.Proof.SpecAtLaws
import proofs.«147710_j68719477376_1_alg».proof.Proof.PreFin

noncomputable section

namespace Cert.Proof.Assemble

open Idealize.ShloMosaic Idealize.SL.Sem

/-- The reference's neighbour aggregation and the kernel's are the same composition of the same operations. -/
theorem agg_eq (ei : Cert.KernelIdeal.KValue.EI) :
    (fun X => Cert.ReferenceIdeal.Read.val_main_v13 (F := Ideal) X ei) = Cert.KernelIdeal.KValue.aggK ei := by
  funext X
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0
    Cert.KernelIdeal.KValue.aggK Cert.KernelIdeal.KValue.srcCol Cert.KernelIdeal.KValue.dstCol
    Cert.KernelIdeal.KValue.edgeRow0 Cert.KernelIdeal.KValue.edgeRow1
  rfl

/-- The kernel's run, as the assembly takes it: the result array is the two layers in the first form of the variance,
    of the argument arrays, and the arguments end unchanged. -/
abbrev KernelRuns : Prop :=
    ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = Cert.GinSpec.GK (Cert.KernelIdeal.KValue.aggK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

/-- The reference's run, as the assembly takes it: the result array is the two layers in the second form of the
    variance, of the argument arrays, and the arguments end unchanged. -/
abbrev ReferenceRuns : Prop :=
    ∀ (m' : (ℓ : Loc Cert.ReferenceIdeal.nD Cert.ReferenceIdeal.τ Cert.ReferenceIdeal.sig) → Buf (Elt Ideal) ℓ) (g' : Dev Cert.ReferenceIdeal.nD → PrngReg),
      θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = Cert.GinSpec.GR (fun X => Cert.ReferenceIdeal.Read.val_main_v13 (F := Ideal) X (m' ((c.tc : Thread Cert.ReferenceIdeal.nD Cert.ReferenceIdeal.τ).loc Cert.ReferenceIdeal.main_arg1))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

/-- From the two runs to the algebraic claim: the same witness serves both, because on arguments that agree and are
    real (the precondition) the two aggregations are one function and the two forms of the two layers agree. -/
theorem algebraic_of
    (hagg : ∀ (ei : Cert.KernelIdeal.KValue.EI) (X : Cert.KernelIdeal.KValue.NodeMat),
      (∀ i, ∃ v : ℝ, X i = (v : EReal)) → ∀ i, ∃ v : ℝ, Cert.KernelIdeal.KValue.aggK ei X i = (v : EReal))
    (hK : KernelRuns) (hR : ReferenceRuns) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m g m' g' hpre hagree
  refine ⟨fun c => Cert.GinSpec.GK (Cert.KernelIdeal.KValue.aggK (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), hK m g, ?_⟩
  refine (θ_run Cert.ReferenceIdeal.defs _ _).mono (fun _ h c => ⟨(h c).1.trans ?_, (h c).2⟩) (hR m' g')
  obtain ⟨a0, a1, a2, a3, a4, a5, a6, a7, a8, a9, a10, a11, a12, a13⟩ := hagree c
  obtain ⟨f0, f2, f3, f4, f5, f6, f7, f8, f9, f10, f11, _, _⟩ := Cert.PreFin.fin_of_pre _ _ _ _ _ _ _ _ _ _ _ _ _ _ (hpre c)
  rw [a0, a1, a2, a3, a4, a5, a6, a7, a8, a9, a10, a11, a12, a13, agg_eq]
  exact (Cert.GinSpec.GK_eq_GR (Cert.KernelIdeal.KValue.aggK _) (hagg _)
    _ _ _ _ _ _ _ _ _ _ _ _ _ f0 f2 f3 f4 f5 f6 f7 f8 f9 f10 f11).symm

/-- The reference's frame claim from its run: drop the result's conjunct. -/
theorem frame_ref_of (hR : ReferenceRuns) :
    Cert.frame_ReferenceIdeal (hReferenceIdeal := Cert.ReferenceIdeal.Gen.facts)
      (hPre_finite_inputs := Cert.Pre_finite_inputs.Gen.facts) :=
  fun m g _ => (θ_run Cert.ReferenceIdeal.defs _ _).mono (fun _ h c => (h c).2) (hR m g)

/-- The idealized kernel is the kernel's own text read at the ideal values: no operation was rewritten. -/
theorem preserves : Cert.preserves_Kernel_KernelIdeal := trivial

end Cert.Proof.Assemble

end
-- ==== Proof.RefSide.lean ====
/-
  The reference's run read one operation at a time: its result as one function of its arguments.

  Each of the two layers is read in two stages.  The first stage is the two dense maps, each followed by `max · 0`,
  on the rows of the node matrix plus the aggregated neighbour rows; the second is the column-wise normalisation with the
  variance written as the mean of the squared deviations.  The neighbour aggregation (rows gathered by the edges'
  sources and added into the edges' destinations) stays a closed function of the node matrix and the edge array.

  Every stage is read the same way: the program's side is brought, index by index, to an explicit expression in the
  entries of its operands; the operand that is itself a computed array is then named by a variable; and the
  specification's side, stated once over arbitrary matrices and vectors, is the same expression.
-/
import proofs.«147710_j68719477376_1_alg».proof.Proof.RefAgg
import proofs.«147710_j68719477376_1_alg».proof.Proof.RefSide2
import proofs.«147710_j68719477376_1_alg».proof.Proof.Assemble

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.GinSpec

/-! ## Index equations -/

/-- The left operand of a product of a 50000 × 128 matrix with a 128-row matrix is read along the row. -/
theorem lidx15 (r : Fin 50000) (j k : Fin 128) : Read.lidx_main_v15 (ix2 r j) k = ix2 r k :=
  funext fun a => Fin.ext (by match a with | ⟨0, _⟩ => rfl | ⟨1, _⟩ => rfl)

/-- The right operand of such a product is read down the column. -/
theorem ridx15 (r : Fin 50000) (j k : Fin 128) : Read.ridx_main_v15 (ix2 r j) k = ix2 k j :=
  funext fun a => Fin.ext (by match a with | ⟨0, _⟩ => rfl | ⟨1, _⟩ => rfl)

theorem lidx20 (r : Fin 50000) (j k : Fin 128) : Read.lidx_main_v20 (ix2 r j) k = ix2 r k :=
  funext fun a => Fin.ext (by match a with | ⟨0, _⟩ => rfl | ⟨1, _⟩ => rfl)

theorem ridx20 (r : Fin 50000) (j k : Fin 128) : Read.ridx_main_v20 (ix2 r j) k = ix2 k j :=
  funext fun a => Fin.ext (by match a with | ⟨0, _⟩ => rfl | ⟨1, _⟩ => rfl)

/-- A row vector spread over the rows of a 50000 × 128 matrix is read at the column. -/
theorem idx16 (r : Fin 50000) (j : Fin 128) : Read.idx_main_v16 (Read.idx_main_v17 (ix2 r j)) = ix1 j :=
  funext fun a => Fin.ext (by match a with | ⟨0, _⟩ => rfl)

theorem idx21 (r : Fin 50000) (j : Fin 128) : Read.idx_main_v21 (Read.idx_main_v22 (ix2 r j)) = ix1 j :=
  funext fun a => Fin.ext (by match a with | ⟨0, _⟩ => rfl)

/-! ## The specification's side, entry by entry -/

/-- Two dense maps on the rows of `h + a`, entry by entry. -/
theorem mlp_ofFn {C : Nat} (h a : Mat 50000 128) (w1 : Mat 128 128) (b1 : Row 128) (w2 : Mat 128 C) (b2 : Row C)
    (r : Fin 50000) (j : Fin C) :
    ofFn (mlp (toFn h) (toFn a) (toFn w1) (toFn1 b1) (toFn w2) (toFn1 b2)) (ix2 r j)
      = max ((∑ l, max ((∑ l', (h (ix2 r l') + a (ix2 r l')) * w1 (ix2 l' l)) + b1 (ix1 l)) 0 * w2 (ix2 l j)) + b2 (ix1 j)) 0 := rfl

/-! ## The first layer -/

/-- The first layer's two dense maps on the rows of the node matrix plus the aggregated neighbour rows. -/
theorem stage1 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    Read.val_main_v24 (F := Ideal) x0 x1 x2 x3 x4 x5
      = ofFn (mlp (toFn x0) (toFn (aggR x1 x0)) (toFn x2) (toFn1 x3) (toFn x4) (toFn1 x5)) := by
  have e : aggR x1 x0 = Read.val_main_v13 (F := Ideal) x0 x1 := rfl
  rw [e]
  funext i
  obtain ⟨r, j, rfl⟩ : ∃ r j, i = ix2 r j := ⟨i 0, i 1, eq_ix2 i⟩
  rw [Read.val_main_v24_apply, Read.val_main_v23_apply, Read.val_main_v20_apply, Read.val_main_v22_apply,
    Read.val_main_v21_apply, Read.val_main_call1_v0_apply, Read.val_main_call1_cst_apply]
  simp only [Read.val_main_v19_apply, Read.val_main_v18_apply, Read.val_main_v15_apply, Read.val_main_v14_apply,
    Read.val_main_v17_apply, Read.val_main_v16_apply, Read.val_main_call0_v0_apply, Read.val_main_call0_cst_apply,
    lidx15, ridx15, lidx20, ridx20, idx16, idx21,
    Ideal.maximumf_def, Ideal.addf_def, Ideal.mulf_def, Ideal.ofBits_def, Ideal.ofBits_zero_f32]
  generalize Read.val_main_v13 (F := Ideal) x0 x1 = A
  rw [mlp_ofFn]

/-- The column-wise normalisation with the variance as the mean of the squared deviations, entry by entry. -/
theorem bn_ofFn {C : Nat} (c : Mat 50000 C) (g be : Row C) (r : Fin 50000) (j : Fin C) :
    ofFn (bnR nWord epsWord (toFn c) (toFn1 g) (toFn1 be)) (ix2 r j)
      = (c (ix2 r j) - Ideal.div (∑ k, c (ix2 k j)) (Ideal.ofBits .f32 0x47435000#32))
          * Ideal.rsqrt (Ideal.div (∑ k, (c (ix2 k j) - Ideal.div (∑ k', c (ix2 k' j)) (Ideal.ofBits .f32 0x47435000#32))
              * (c (ix2 k j) - Ideal.div (∑ k', c (ix2 k' j)) (Ideal.ofBits .f32 0x47435000#32))) (Ideal.ofBits .f32 0x47435000#32)
            + Ideal.ofBits .f32 0x3727C5AC#32)
          * g (ix1 j) + be (ix1 j) := rfl

/-! ## The first normalisation -/

/-- A column's sum reads the column from the top. -/
theorem idx25 (j : Fin 128) (k : Fin 50000) : Read.idx_main_v25 (ix1 j) k = ix2 k j :=
  funext fun a => Fin.ext (by match a with | ⟨0, _⟩ => rfl | ⟨1, _⟩ => rfl)

theorem idx32 (j : Fin 128) (k : Fin 50000) : Read.idx_main_v32 (ix1 j) k = ix2 k j :=
  funext fun a => Fin.ext (by match a with | ⟨0, _⟩ => rfl | ⟨1, _⟩ => rfl)

/-- A per-column value spread over the rows of a 50000 × 128 matrix is read at the column. -/
theorem idx28 (r : Fin 50000) (j : Fin 128) : Read.idx_main_v28 (Read.idx_main_v29 (ix2 r j)) = ix1 j :=
  funext fun a => Fin.ext (by match a with | ⟨0, _⟩ => rfl)

theorem idx35 (r : Fin 50000) (j : Fin 128) : Read.idx_main_v35 (Read.idx_main_v36 (ix2 r j)) = ix1 j :=
  funext fun a => Fin.ext (by match a with | ⟨0, _⟩ => rfl)

theorem idx41 (r : Fin 50000) (j : Fin 128) : Read.idx_main_v41 (Read.idx_main_v42 (ix2 r j)) = ix1 j :=
  funext fun a => Fin.ext (by match a with | ⟨0, _⟩ => rfl)

theorem idx44 (r : Fin 50000) (j : Fin 128) : Read.idx_main_v44 (Read.idx_main_v45 (ix2 r j)) = ix1 j :=
  funext fun a => Fin.ext (by match a with | ⟨0, _⟩ => rfl)

theorem idx47 (r : Fin 50000) (j : Fin 128) : Read.idx_main_v47 (Read.idx_main_v48 (ix2 r j)) = ix1 j :=
  funext fun a => Fin.ext (by match a with | ⟨0, _⟩ => rfl)

/-- The first layer's normalisation of its two dense maps' output. -/
theorem stage2 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) :
    Read.val_main_v49 (F := Ideal) x0 x1 x2 x3 x4 x5 x6 x7
      = ofFn (bnR nWord epsWord (toFn (Read.val_main_v24 (F := Ideal) x0 x1 x2 x3 x4 x5)) (toFn1 x6) (toFn1 x7)) := by
  funext i
  obtain ⟨r, j, rfl⟩ : ∃ r j, i = ix2 r j := ⟨i 0, i 1, eq_ix2 i⟩
  rw [Read.val_main_v49_apply, Read.val_main_v46_apply, Read.val_main_v43_apply, Read.val_main_v37_apply,
    Read.val_main_v36_apply, Read.val_main_v35_apply, Read.val_main_v42_apply, Read.val_main_v41_apply,
    Read.val_main_v45_apply, Read.val_main_v44_apply, Read.val_main_v48_apply, Read.val_main_v47_apply,
    idx35, idx41, idx44, idx47,
    Read.val_main_v40_apply, Read.val_main_v39_apply, Read.val_main_v38_apply, Read.val_main_cst_5_apply,
    Read.val_main_v34_apply, Read.val_main_v33_apply, Read.val_main_cst_4_apply, Read.val_main_v32_apply,
    Read.val_main_cst_3_apply,
    Read.val_main_v27_apply, Read.val_main_v26_apply, Read.val_main_cst_2_apply, Read.val_main_v25_apply,
    Read.val_main_cst_1_apply]
  simp only [Read.val_main_v31_apply, Read.val_main_v30_apply, Read.val_main_v29_apply, Read.val_main_v28_apply,
    Read.val_main_v27_apply, Read.val_main_v26_apply, Read.val_main_cst_2_apply, Read.val_main_v25_apply,
    Read.val_main_cst_1_apply, idx25, idx32, idx28,
    Ideal.addf_def, Ideal.subf_def, Ideal.mulf_def, Ideal.hostDivf_def, Ideal.hostUnary_rsqrt_def, Ideal.ofBits_def,
    Ideal.ofBits_zero_f32, zero_add]
  generalize Read.val_main_v24 (F := Ideal) x0 x1 x2 x3 x4 x5 = c
  rw [bn_ofFn]

/-! ## The two layers -/

/-- The two layers with every aggregation written on matrices. -/
theorem GR_eq (agg : Mat 50000 128 → Mat 50000 128) (x : Mat 50000 128) (w11 : Mat 128 128) (b11 : Row 128) (w12 : Mat 128 128)
    (b12 g1 be1 : Row 128) (w21 : Mat 128 128) (b21 : Row 128) (w22 : Mat 128 2) (b22 g2 be2 : Row 2) :
    GR agg x w11 b11 w12 b12 g1 be1 w21 b21 w22 b22 g2 be2
      = ofFn (bnR nWord epsWord
          (mlp (bnR nWord epsWord (mlp (toFn x) (toFn (agg x)) (toFn w11) (toFn1 b11) (toFn w12) (toFn1 b12)) (toFn1 g1) (toFn1 be1))
            (toFn (agg (ofFn (bnR nWord epsWord (mlp (toFn x) (toFn (agg x)) (toFn w11) (toFn1 b11) (toFn w12) (toFn1 b12)) (toFn1 g1) (toFn1 be1)))))
            (toFn w21) (toFn1 b21) (toFn w22) (toFn1 b22))
          (toFn1 g2) (toFn1 be2)) := by
  unfold GR layerR
  rw [aggFn_toFn]
  rfl

/-- The reference's result is the two layers, with the variance as the mean of the squared deviations, of its arguments. -/
theorem ref_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 : (⟨S128, .f32⟩ : BufTy).Contents (Elt Ideal)) (x8 : (⟨S128x128, .f32⟩ : BufTy).Contents (Elt Ideal)) (x9 : (⟨S128, .f32⟩ : BufTy).Contents (Elt Ideal))
    (x10 : (⟨S128x2, .f32⟩ : BufTy).Contents (Elt Ideal)) (x11 x12 x13 : (⟨S2, .f32⟩ : BufTy).Contents (Elt Ideal)) :
    Read.val_main_v99 (F := Ideal) x0 x1 x2 x3 x4 x5 x6 x7 x8 x9 x10 x11 x12 x13
      = GR (aggR x1) x0 x2 x3 x4 x5 x6 x7 x8 x9 x10 x11 x12 x13 := by
  rw [GR_eq, stage4, stage3, stage2, stage1, toFn_ofFn, toFn_ofFn, toFn_ofFn]

/-- Every execution of the reference ends with its result the two layers of its arguments, and the arguments unchanged. -/
theorem ref_run : Cert.Proof.Assemble.ReferenceRuns := by
  intro m' g'
  refine (θ_run Cert.ReferenceIdeal.defs _ _).mono (fun r h c => ⟨?_, (h c).2⟩)
    (Cert.ReferenceIdeal.Value.run (F := Ideal) m' g')
  rw [(h c).1, Read.val_main_v99_eq, ref_eq]
  rfl

end Cert.ReferenceIdeal.RefValue

end
-- ==== Proof.lean ====
/-
  The certificate of a two-layer graph network with batch normalisation, computed by four Pallas regions among
  host operations, against its jnp reference.

  Both programs compute, per layer, rows `h + agg h` through two dense maps with `max · 0`, then normalise each
  column by its mean and variance over the 50000 rows.  They differ in one place: the kernel accumulates the column
  sums of `c` and of `c²` over 25 blocks of 2000 rows and takes the variance as `mean (c²) − (mean c)²`, where the
  reference takes `mean ((c − mean c)²)`.  Over the extended reals the two agree when every entry is real, and every
  entry is real because the inputs are (the precondition) and each stage keeps real entries real: a finite sum of
  gathered rows, products and sums, `max`, and a normalisation whose `rsqrt` is taken at a positive real (a mean of
  squares plus a positive ε).  The first layer's outputs are therefore equal AND real, which is what the second
  layer needs.

  The modules: `Spec`, `SpecLaws`, `SpecConsts`, `SpecAt`, `SpecAtLaws` (the mathematics: the two forms of a layer,
  their equality on real entries, the two constants); `PreFin` (the precondition says every float argument is
  real); `KAgg`, `KAggFin` (the aggregation, and that it keeps real entries real); `KRun` (the kernel program's run
  with the result buffer read at the last segment boundary); `KFold`, `KWalk` (each region's operands, walked back
  through the boundaries); `KReg0` … `KReg3` (each region's output arrays as functions of its operand arrays);
  `KHostMath`, `KLayer`, `KCompose` (the host arithmetic between regions, and the composition into the two layers);
  `RefAgg`, `RefSide`, `RefSide2` (the reference's run read as the same two layers); `Assemble` (the claims).
-/
import proofs.«147710_j68719477376_1_alg».proof.Defs
import proofs.«147710_j68719477376_1_alg».proof.Proof.Gen.Kernel
import proofs.«147710_j68719477376_1_alg».proof.Proof.Gen.KernelIdeal
import proofs.«147710_j68719477376_1_alg».proof.Proof.Gen.ReferenceIdeal
import proofs.«147710_j68719477376_1_alg».proof.Proof.Gen.Pre_finite_inputs
import proofs.«147710_j68719477376_1_alg».proof.Proof.FrameK
import proofs.«147710_j68719477376_1_alg».proof.Proof.FrameKI
import proofs.«147710_j68719477376_1_alg».proof.Proof.KCompose
import proofs.«147710_j68719477376_1_alg».proof.Proof.KAggFin
import proofs.«147710_j68719477376_1_alg».proof.Proof.RefSide
import proofs.«147710_j68719477376_1_alg».proof.Proof.Assemble
import Idealize.ShloMosaic.Adequacy
import Idealize.ShloMosaic.Init

noncomputable section

namespace Cert.Proof

open Idealize.ShloMosaic Idealize.SL.Sem

/-- The kernel program's run, its result the two layers in the kernel's form. -/
theorem kernelRuns : Cert.Proof.Assemble.KernelRuns := fun m ρ => Cert.KernelIdeal.KValue.kernel_run m ρ

/-- The reference's run, its result the two layers in the reference's form. -/
theorem referenceRuns : Cert.Proof.Assemble.ReferenceRuns := Cert.ReferenceIdeal.RefValue.ref_run

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  Cert.Proof.Assemble.frame_ref_of referenceRuns,
  Cert.Proof.Assemble.preserves,
  Cert.Proof.Assemble.algebraic_of Cert.KernelIdeal.KValue.aggK_fin kernelRuns referenceRuns⟩

end Cert.Proof

end
